-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S524288x2 : Shape := ⟨2, ![524288, 2]⟩
abbrev S524288x1 : Shape := ⟨2, ![524288, 1]⟩
abbrev S128x64 : Shape := ⟨2, ![128, 64]⟩
abbrev S64 : Shape := ⟨1, ![64]⟩
abbrev S64x64 : Shape := ⟨2, ![64, 64]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S256 .f32) (main_arg10 : FVec F S256x2 .f32) (main_arg11 : FVec F S2 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x2 .f32 := Host.absf main_arg10
  let main_cst_14 : FVec F S_ .f32 := constant S_ .f32 0x7F800000#32
  let main_v40 : FVec F S256x2 .f32 := broadcastInDim S256x2 ![] bcast_S_S256x2 main_cst_14
  let main_v41 : IVec S256x2 1 := cmpf .olt main_v39 main_v40
  let main_c_15 : IVec S_ 1 := constantI S_ 1 1#1
  let main_v42 : IVec S_ 1 := (fun x v => Host.reduce IntOp.andi x v reducesTo_S256x2_S_d0_1 h_S_) main_v41 main_c_15
  let main_v43 : IVec S_ 1 := andi main_v38 main_v42
  let main_v44 : FVec F S2 .f32 := Host.absf main_arg11
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  main_v48

def fn_part1 {F : FTy → Type} [FloatOps F] (main_arg6 : FVec F S64x64 .f32) (main_arg7 : FVec F S64 .f32) (main_arg8 : FVec F S128x256 .f32) (main_arg9 : FVec F S256 .f32) (main_arg10 : FVec F S256x2 .f32) (main_arg11 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x256 .f32 := Host.absf main_arg8
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S16384x128 .f32) (main_arg1 : FVec F S16384x16384 .f32) (main_arg2 : IVec S524288x2 32) (main_arg3 : IVec S524288x1 32) (main_arg4 : FVec F S128x64 .f32) (main_arg5 : FVec F S64 .f32) (main_arg6 : FVec F S64x64 .f32) (main_arg7 : FVec F S64 .f32) (main_arg8 : FVec F S128x256 .f32) (main_arg9 : FVec F S256 .f32) (main_arg10 : FVec F S256x2 .f32) (main_arg11 : FVec F S2 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x64 .f32 := Host.absf main_arg4
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_v13 main_v16
-- ==== Kernel.lean ====
abbrev S16384x128 : Shape := ⟨2, ![16384, 128]⟩
abbrev S16384x16384 : Shape := ⟨2, ![16384, 16384]⟩
abbrev S524288x2 : Shape := ⟨2, ![524288, 2]⟩
abbrev S524288x1 : Shape := ⟨2, ![524288, 1]⟩
abbrev S128x64 : Shape := ⟨2, ![128, 64]⟩
abbrev S64 : Shape := ⟨1, ![64]⟩
abbrev S64x64 : Shape := ⟨2, ![64, 64]⟩
abbrev S128x256 : Shape := ⟨2, ![128, 256]⟩
abbrev S256 : Shape := ⟨1, ![256]⟩
abbrev S256x2 : Shape := ⟨2, ![256, 2]⟩
abbrev S2 : Shape := ⟨1, ![2]⟩
abbrev S16384x64 : Shape := ⟨2, ![16384, 64]⟩
abbrev S1x64 : Shape := ⟨2, ![1, 64]⟩
abbrev S1024x2048 : Shape := ⟨2, ![1024, 2048]⟩
abbrev S2048x64 : Shape := ⟨2, ![2048, 64]⟩
abbrev S1024x64 : Shape := ⟨2, ![1024, 64]⟩
abbrev S524288 : Shape := ⟨1, ![524288]⟩
abbrev S_ : Shape := ⟨0, ![]⟩
abbrev S524288x64 : Shape := ⟨2, ![524288, 64]⟩
abbrev S524288x128 : Shape := ⟨2, ![524288, 128]⟩
abbrev S1x256 : Shape := ⟨2, ![1, 256]⟩
abbrev S1x2 : Shape := ⟨2, ![1, 2]⟩
abbrev S8192x128 : Shape := ⟨2, ![8192, 128]⟩
abbrev S8192x2 : Shape := ⟨2, ![8192, 2]⟩
abbrev S8192x256 : Shape := ⟨2, ![8192, 256]⟩
abbrev S8192 : Shape := ⟨1, ![8192]⟩
abbrev S8192x1 : Shape := ⟨2, ![8192, 1]⟩

abbrev nBuf : Space → Nat
  | .hbm => 49
  | .vmem => 24
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S524288x2, .i32⟩
  | .hbm, ⟨3, _⟩ => ⟨S524288x1, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S16384x64, .f32⟩
  | .hbm, ⟨13, _⟩ => ⟨S16384x64, .bf16⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S16384x64, .bf16⟩
  | .hbm, ⟨18, _⟩ => ⟨S1x64, .f32⟩
  | .hbm, ⟨19, _⟩ => ⟨S16384x64, .bf16⟩
  | .hbm, ⟨20, _⟩ => ⟨S524288x1, .i32⟩
  | .hbm, ⟨21, _⟩ => ⟨S524288, .i32⟩
  | .hbm, ⟨22, _⟩ => ⟨S524288x1, .i32⟩
  | .hbm, ⟨23, _⟩ => ⟨S524288, .i32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x64, .bf16⟩
  | .hbm, ⟨33, _⟩ => ⟨S_, .i32⟩
  | .hbm, ⟨34, _⟩ => ⟨S524288, .i32⟩
  | .hbm, ⟨35, _⟩ => ⟨S524288, .i1⟩
  | .hbm, ⟨36, _⟩ => ⟨S_, .i32⟩
  | .hbm, ⟨37, _⟩ => ⟨S524288, .i32⟩
  | .hbm, ⟨38, _⟩ => ⟨S524288, .i32⟩
  | .hbm, ⟨39, _⟩ => ⟨S524288, .i32⟩
  | .hbm, ⟨40, _⟩ => ⟨S524288x1, .i32⟩
  | .hbm, ⟨41, _⟩ => ⟨S524288x64, .bf16⟩
  | .hbm, ⟨42, _⟩ => ⟨S524288x128, .bf16⟩
  | .hbm, ⟨43, _⟩ => ⟨S1x256, .f32⟩
  | .hbm, ⟨44, _⟩ => ⟨S1x2, .f32⟩
  | .hbm, ⟨45, _⟩ => ⟨S524288x2, .f32⟩
  | .hbm, ⟨46, _⟩ => ⟨S524288x1, .f32⟩
  | .hbm, ⟨47, _⟩ => ⟨S524288x2, .f32⟩
  | .hbm, ⟨48, _⟩ => ⟨S524288x2, .f32⟩
  | .local _ .vmem, ⟨0, _⟩ => ⟨S1024x2048, .f32⟩
  | .local _ .vmem, ⟨1, _⟩ => ⟨S1024x2048, .f32⟩
  | .local _ .vmem, ⟨2, _⟩ => ⟨S2048x64, .bf16⟩
  | .local _ .vmem, ⟨3, _⟩ => ⟨S2048x64, .bf16⟩
  | .local _ .vmem, ⟨4, _⟩ => ⟨S1x64, .f32⟩
  | .local _ .vmem, ⟨5, _⟩ => ⟨S1024x64, .f32⟩
  | .local _ .vmem, ⟨6, _⟩ => ⟨S1024x64, .f32⟩
  | .local _ .vmem, ⟨7, _⟩ => ⟨S1024x64, .f32⟩
  | .local _ .vmem, ⟨8, _⟩ => ⟨S1024x2048, .f32⟩
  | .local _ .vmem, ⟨9, _⟩ => ⟨S1024x2048, .f32⟩
  | .local _ .vmem, ⟨10, _⟩ => ⟨S2048x64, .bf16⟩
  | .local _ .vmem, ⟨11, _⟩ => ⟨S2048x64, .bf16⟩
  | .local _ .vmem, ⟨12, _⟩ => ⟨S1x64, .f32⟩
  | .local _ .vmem, ⟨13, _⟩ => ⟨S1024x64, .bf16⟩
  | .local _ .vmem, ⟨14, _⟩ => ⟨S1024x64, .bf16⟩
  | .local _ .vmem, ⟨15, _⟩ => ⟨S1024x64, .f32⟩
  | .local _ .vmem, ⟨16, _⟩ => ⟨S8192x128, .bf16⟩
  | .local _ .vmem, ⟨17, _⟩ => ⟨S8192x128, .bf16⟩
  | .local _ .vmem, ⟨18, _⟩ => ⟨S128x256, .f32⟩
  | .local _ .vmem, ⟨19, _⟩ => ⟨S1x256, .f32⟩
  | .local _ .vmem, ⟨20, _⟩ => ⟨S256x2, .f32⟩
  | .local _ .vmem, ⟨21, _⟩ => ⟨S1x2, .f32⟩
  | .local _ .vmem, ⟨22, _⟩ => ⟨S8192x2, .f32⟩
  | .local _ .vmem, ⟨23, _⟩ => ⟨S8192x2, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![16, 8], ![false, false]⟩

def k1_cond2 (i : grid1.Coords) : BitVec 1 :=
  let arg1 : BitVec 32 := BitVec.ofNat 32 (i 1).val
  let c7_i32 : BitVec 32 := 7#32
  let v13 : BitVec 1 := Scalar.cmpi .eq arg1 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1024x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S8192x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bitsLt_bf16_f32 : FTy.bits .bf16 < FTy.bits .f32
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  packedbf16_S1024x64_S1024x64_0_0 : (Rect.unit (s := S1024x64) ![0, 0] S1024x64.size inb_S1024x64_S1024x64_0_0).PackedRows (EltTy.packing .bf16)
  slices_S524288x2_S524288x1_0_0 : S524288x2.Slices ![0, 0] S524288x1
  shapeCasts_S524288x1_S524288 : S524288x1.ShapeCasts S524288
  slices_S524288x2_S524288x1_0_1 : S524288x2.Slices ![0, 1] S524288x1
  bcast_S_S524288 : S_.BroadcastsInDim S524288 (![] : Fin 0 → Fin S524288.rank)
  bcast_S524288_S524288x1_0 : S524288.BroadcastsInDim S524288x1 (![0] : Fin 1 → Fin S524288x1.rank)
  concatenates_S524288x64_S524288x64_S524288x128_d1 : Shape.Concatenates [S524288x64, S524288x64] S524288x128 1
  shapeCasts_S256_S1x256 : S256.ShapeCasts S1x256
  shapeCasts_S2_S1x2 : S2.ShapeCasts S1x2
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S8192x256 : S1x256.Broadcasts S8192x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S8192x2 : S1x2.Broadcasts S8192x2
  reduces_S8192x2_S8192 : S8192x2.Reduces [1] S8192
  shapeCasts_S8192_S8192x1 : S8192.ShapeCasts S8192x1
  broadcasts_S8192x1_S8192x2 : S8192x1.Broadcasts S8192x2
  inb_S8192x2_S8192x2_0_0 : ∀ a, (![0, 0] : Fin 2 → Nat) a + S8192x2.size a ≤ S8192x2.size a
  h_S8192x2 : 0 < S8192x2.numel
  bcast_S524288x1_S524288x2_0_1 : S524288x1.BroadcastsInDim S524288x2 (![0, 1] : Fin 2 → Fin S524288x2.rank)
  dot_S16384x128_S128x64_S16384x64_1_0_0_1_n_n_wf : DotDims.WF S16384x128 S128x64 S16384x64 [1] [0] [0] [1] [] []
  dot_S1024x2048_S2048x64_S1024x64_1_0_0_1_n_n_wf : DotDims.WF S1024x2048 S2048x64 S1024x64 [1] [0] [0] [1] [] []
  dot_S16384x64_S64x64_S16384x64_1_0_0_1_n_n_wf : DotDims.WF S16384x64 S64x64 S16384x64 [1] [0] [0] [1] [] []
  gather_S16384x64_S524288x1_S524288x64_1_0_n_n_0_1_164_wf : GatherDims.WF S16384x64 S524288x1 S524288x64 [1] [0] [] [0] [] 1 ![1, 64]
  dot_S8192x128_S128x256_S8192x256_1_0_0_1_n_n_wf : DotDims.WF S8192x128 S128x256 S8192x256 [1] [0] [0] [1] [] []
  dot_S8192x256_S256x2_S8192x2_1_0_0_1_n_n_wf : DotDims.WF S8192x256 S256x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x16384.size a
  hwx0_0 : ∀ i : grid0.Coords, EltTy.bits .f32 = 32 ∨ (Rect.block (s := S16384x16384) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .bf16 = 32 ∨ (Rect.block (s := S16384x64) S2048x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .f32 = 32 ∨ (Rect.block (s := S16384x64) S1024x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S16384x16384.size a
  hwx1_0 : ∀ i : grid1.Coords, EltTy.bits .f32 = 32 ∨ (Rect.block (s := S16384x16384) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .bf16 = 32 ∨ (Rect.block (s := S16384x64) S2048x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S16384x64.size a
  hwx1_3 : ∀ i : grid1.Coords, EltTy.bits .bf16 = 32 ∨ (Rect.block (s := S16384x64) S1024x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S524288x128.size a
  hwx2_0 : ∀ i : grid2.Coords, EltTy.bits .bf16 = 32 ∨ (Rect.block (s := S524288x128) S8192x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x2.size a ≤ S256x2.size a
  hwx2_3 : ∀ i : grid2.Coords, EltTy.bits .f32 = 32 ∨ (Rect.block (s := S256x2) S256x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2.size a ≤ S1x2.size a
  hwx2_4 : ∀ i : grid2.Coords, EltTy.bits .f32 = 32 ∨ (Rect.block (s := S1x2) S1x2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8192x2.size a ≤ S524288x2.size a
  hwx2_5 : ∀ i : grid2.Coords, EltTy.bits .f32 = 32 ∨ (Rect.block (s := S524288x2) S8192x2.size (cc2_transform_5 i) (hinb2_5 i)).WholeWords (EltTy.packing .f32)

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def dot_S8192x128_S128x256_S8192x256_1_0_0_1_n_n : DotDims S8192x128 S128x256 S8192x256 where
  lhsContracting := [1]
  rhsContracting := [0]
  lhsNonContracting := [0]
  rhsNonContracting := [1]
  lhsBatch := []
  rhsBatch := []
  wf := dot_S8192x128_S128x256_S8192x256_1_0_0_1_n_n_wf
def dot_S8192x256_S256x2_S8192x2_1_0_0_1_n_n : DotDims S8192x256 S256x2 S8192x2 where
  lhsContracting := [1]
  rhsContracting := [0]
  lhsNonContracting := [0]
  rhsNonContracting := [1]
  lhsBatch := []
  rhsBatch := []
  wf := dot_S8192x256_S256x2_S8192x2_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v26) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S256x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v28) S1x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v29) S8192x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16384x128 : Shape := ⟨2, ![16384, 128]⟩
abbrev S16384x16384 : Shape := ⟨2, ![16384, 16384]⟩
abbrev S524288x2 : Shape := ⟨2, ![524288, 2]⟩
abbrev S524288x1 : Shape := ⟨2, ![524288, 1]⟩
abbrev S128x64 : Shape := ⟨2, ![128, 64]⟩
abbrev S64 : Shape := ⟨1, ![64]⟩
abbrev S64x64 : Shape := ⟨2, ![64, 64]⟩
abbrev S128x256 : Shape := ⟨2, ![128, 256]⟩
abbrev S256 : Shape := ⟨1, ![256]⟩
abbrev S256x2 : Shape := ⟨2, ![256, 2]⟩
abbrev S2 : Shape := ⟨1, ![2]⟩
abbrev S16384x64 : Shape := ⟨2, ![16384, 64]⟩
abbrev S1x64 : Shape := ⟨2, ![1, 64]⟩
abbrev S_ : Shape := ⟨0, ![]⟩
abbrev S524288 : Shape := ⟨1, ![524288]⟩
abbrev S524288x64 : Shape := ⟨2, ![524288, 64]⟩
abbrev S524288x128 : Shape := ⟨2, ![524288, 128]⟩
abbrev S524288x256 : Shape := ⟨2, ![524288, 256]⟩
abbrev S1x256 : Shape := ⟨2, ![1, 256]⟩
abbrev S1x2 : Shape := ⟨2, ![1, 2]⟩

abbrev nBuf : Space → Nat
  | .hbm => 89
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S524288x2, .i32⟩
  | .hbm, ⟨3, _⟩ => ⟨S524288x1, .i32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x256, .f32⟩
  | .hbm, ⟨9, _⟩ => ⟨S256, .f32⟩
  | .hbm, ⟨10, _⟩ => ⟨S256x2, .f32⟩
  | .hbm, ⟨11, _⟩ => ⟨S2, .f32⟩
  | .hbm, ⟨12, _⟩ => ⟨S16384x64, .f32⟩
  | .hbm, ⟨13, _⟩ => ⟨S16384x64, .f32⟩
  | .hbm, ⟨14, _⟩ => ⟨S1x64, .f32⟩
  | .hbm, ⟨15, _⟩ => ⟨S16384x64, .f32⟩
  | .hbm, ⟨16, _⟩ => ⟨S16384x64, .f32⟩
  | .hbm, ⟨17, _⟩ => ⟨S16384x64, .f32⟩
  | .hbm, ⟨18, _⟩ => ⟨S16384x64, .f32⟩
  | .hbm, ⟨19, _⟩ => ⟨S_, .f32⟩
  | .hbm, ⟨20, _⟩ => ⟨S16384x64, .f32⟩
  | .hbm, ⟨21, _⟩ => ⟨S16384x64, .f32⟩
  | .hbm, ⟨22, _⟩ => ⟨S_, .f32⟩
  | .hbm, ⟨23, _⟩ => ⟨S16384x64, .f32⟩
  | .hbm, ⟨24, _⟩ => ⟨S16384x64, .f32⟩
  | .hbm, ⟨25, _⟩ => ⟨S16384x64, .f32⟩
  | .hbm, ⟨26, _⟩ => ⟨S16384x64, .f32⟩
  | .hbm, ⟨27, _⟩ => ⟨S1x64, .f32⟩
  | .hbm, ⟨28, _⟩ => ⟨S16384x64, .f32⟩
  | .hbm, ⟨29, _⟩ => ⟨S16384x64, .f32⟩
  | .hbm, ⟨30, _⟩ => ⟨S16384x64, .f32⟩
  | .hbm, ⟨31, _⟩ => ⟨S16384x64, .f32⟩
  | .hbm, ⟨32, _⟩ => ⟨S_, .f32⟩
  | .hbm, ⟨33, _⟩ => ⟨S16384x64, .f32⟩
  | .hbm, ⟨34, _⟩ => ⟨S16384x64, .f32⟩
  | .hbm, ⟨35, _⟩ => ⟨S_, .f32⟩
  | .hbm, ⟨36, _⟩ => ⟨S16384x64, .f32⟩
  | .hbm, ⟨37, _⟩ => ⟨S16384x64, .f32⟩
  | .hbm, ⟨38, _⟩ => ⟨S524288x1, .i32⟩
  | .hbm, ⟨39, _⟩ => ⟨S524288, .i32⟩
  | .hbm, ⟨40, _⟩ => ⟨S_, .i32⟩
  | .hbm, ⟨41, _⟩ => ⟨S524288, .i32⟩
  | .hbm, ⟨42, _⟩ => ⟨S524288, .i1⟩
  | .hbm, ⟨43, _⟩ => ⟨S_, .i32⟩
  | .hbm, ⟨44, _⟩ => ⟨S524288, .i32⟩
  | .hbm, ⟨45, _⟩ => ⟨S524288, .i32⟩
  | .hbm, ⟨46, _⟩ => ⟨S524288, .i32⟩
  | .hbm, ⟨47, _⟩ => ⟨S524288x1, .i32⟩
  | .hbm, ⟨48, _⟩ => ⟨S524288x64, .f32⟩
  | .hbm, ⟨49, _⟩ => ⟨S524288x1, .i32⟩
  | .hbm, ⟨50, _⟩ => ⟨S524288, .i32⟩
  | .hbm, ⟨51, _⟩ => ⟨S_, .i32⟩
  | .hbm, ⟨52, _⟩ => ⟨S524288, .i32⟩
  | .hbm, ⟨53, _⟩ => ⟨S524288, .i1⟩
  | .hbm, ⟨54, _⟩ => ⟨S_, .i32⟩
  | .hbm, ⟨55, _⟩ => ⟨S524288, .i32⟩
  | .hbm, ⟨56, _⟩ => ⟨S524288, .i32⟩
  | .hbm, ⟨57, _⟩ => ⟨S524288, .i32⟩
  | .hbm, ⟨58, _⟩ => ⟨S524288x1, .i32⟩
  | .hbm, ⟨59, _⟩ => ⟨S524288x64, .f32⟩
  | .hbm, ⟨60, _⟩ => ⟨S524288x128, .f32⟩
  | .hbm, ⟨61, _⟩ => ⟨S524288x256, .f32⟩
  | .hbm, ⟨62, _⟩ => ⟨S1x256, .f32⟩
  | .hbm, ⟨63, _⟩ => ⟨S524288x256, .f32⟩
  | .hbm, ⟨64, _⟩ => ⟨S524288x256, .f32⟩
  | .hbm, ⟨65, _⟩ => ⟨S_, .f32⟩
  | .hbm, ⟨66, _⟩ => ⟨S524288x256, .f32⟩
  | .hbm, ⟨67, _⟩ => ⟨S524288x256, .f32⟩
  | .hbm, ⟨68, _⟩ => ⟨S524288x2, .f32⟩
  | .hbm, ⟨69, _⟩ => ⟨S1x2, .f32⟩
  | .hbm, ⟨70, _⟩ => ⟨S524288x2, .f32⟩
  | .hbm, ⟨71, _⟩ => ⟨S524288x2, .f32⟩
  | .hbm, ⟨72, _⟩ => ⟨S_, .f32⟩
  | .hbm, ⟨73, _⟩ => ⟨S524288, .f32⟩
  | .hbm, ⟨74, _⟩ => ⟨S_, .f32⟩
  | .hbm, ⟨75, _⟩ => ⟨S524288, .f32⟩
  | .hbm, ⟨76, _⟩ => ⟨S524288, .f32⟩
  | .hbm, ⟨77, _⟩ => ⟨S524288x1, .f32⟩
  | .hbm, ⟨78, _⟩ => ⟨S524288x2, .f32⟩
  | .hbm, ⟨79, _⟩ => ⟨S524288x2, .f32⟩
  | .hbm, ⟨80, _⟩ => ⟨S524288x2, .f32⟩
  | .hbm, ⟨81, _⟩ => ⟨S_, .f32⟩
  | .hbm, ⟨82, _⟩ => ⟨S524288, .f32⟩
  | .hbm, ⟨83, _⟩ => ⟨S524288x1, .f32⟩
  | .hbm, ⟨84, _⟩ => ⟨S524288x2, .f32⟩
  | .hbm, ⟨85, _⟩ => ⟨S524288x2, .f32⟩
  | .hbm, ⟨86, _⟩ => ⟨S524288x1, .f32⟩
  | .hbm, ⟨87, _⟩ => ⟨S524288x2, .f32⟩
  | .hbm, ⟨88, _⟩ => ⟨S524288x2, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_cst : Ref sig .tc := ⟨.hbm, 65, rfl⟩
abbrev main_call0_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_6 : Ref sig .tc := ⟨.hbm, 72, rfl⟩
abbrev main_v50 : Ref sig .tc := ⟨.hbm, 73, rfl⟩
abbrev main_cst_7 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S_S16384x64 : S_.BroadcastsInDim S16384x64 (![] : Fin 0 → Fin S16384x64.rank)
  slices_S524288x2_S524288x1_0_0 : S524288x2.Slices ![0, 0] S524288x1
  shapeCasts_S524288x1_S524288 : S524288x1.ShapeCasts S524288
  bcast_S_S524288 : S_.BroadcastsInDim S524288 (![] : Fin 0 → Fin S524288.rank)
  bcast_S524288_S524288x1_0 : S524288.BroadcastsInDim S524288x1 (![0] : Fin 1 → Fin S524288x1.rank)
  slices_S524288x2_S524288x1_0_1 : S524288x2.Slices ![0, 1] S524288x1
  concatenates_S524288x64_S524288x64_S524288x128_d1 : Shape.Concatenates [S524288x64, S524288x64] S524288x128 1
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S524288x256 : S_.BroadcastsInDim S524288x256 (![] : Fin 0 → Fin S524288x256.rank)
  bcast_S2_S1x2_1 : S2.BroadcastsInDim S1x2 (![1] : Fin 1 → Fin S1x2.rank)
  bcast_S1x2_S524288x2_0_1 : S1x2.BroadcastsInDim S524288x2 (![0, 1] : Fin 2 → Fin S524288x2.rank)
  reducesTo_S524288x2_S524288_d1 : S524288x2.ReducesTo [1] S524288
  h_S_ : 0 < S_.numel
  bcast_S524288x1_S524288x2_0_1 : S524288x1.BroadcastsInDim S524288x2 (![0, 1] : Fin 2 → Fin S524288x2.rank)
  dot_S16384x128_S128x64_S16384x64_1_0_0_1_n_n_wf : DotDims.WF S16384x128 S128x64 S16384x64 [1] [0] [0] [1] [] []
  dot_S16384x16384_S16384x64_S16384x64_1_0_0_1_n_n_wf : DotDims.WF S16384x16384 S16384x64 S16384x64 [1] [0] [0] [1] [] []
  dot_S16384x64_S64x64_S16384x64_1_0_0_1_n_n_wf : DotDims.WF S16384x64 S64x64 S16384x64 [1] [0] [0] [1] [] []
  gather_S16384x64_S524288x1_S524288x64_1_0_n_n_0_1_164_wf : GatherDims.WF S16384x64 S524288x1 S524288x64 [1] [0] [] [0] [] 1 ![1, 64]
  dot_S524288x128_S128x256_S524288x256_1_0_0_1_n_n_wf : DotDims.WF S524288x128 S128x256 S524288x256 [1] [0] [0] [1] [] []
  dot_S524288x256_S256x2_S524288x2_1_0_0_1_n_n_wf : DotDims.WF S524288x256 S256x2 S524288x2 [1] [0] [0] [1] [] []

variable [Facts₀]

def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x16384_S16384x64_S16384x64_1_0_0_1_n_n : DotDims S16384x16384 S16384x64 S16384x64 where
  lhsContracting := [1]
  rhsContracting := [0]
  lhsNonContracting := [0]
  rhsNonContracting := [1]
  lhsBatch := []
  rhsBatch := []
  wf := dot_S16384x16384_S16384x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def gather_S16384x64_S524288x1_S524288x64_1_0_n_n_0_1_164 : GatherDims S16384x64 S524288x1 S524288x64 where
  offsetDims := [1]
  collapsedSliceDims := [0]
  operandBatchingDims := []
  startIndicesBatchingDims := []
  startIndexMap := [0]
  indexVectorDim := 1
  sliceSizes := ![1, 64]
  wf := gather_S16384x64_S524288x1_S524288x64_1_0_n_n_0_1_164_wf
def dot_S524288x128_S128x256_S524288x256_1_0_0_1_n_n : DotDims S524288x128 S128x256 S524288x256 where
  lhsContracting := [1]
  rhsContracting := [0]
  lhsNonContracting := [0]
  rhsNonContracting := [1]
  lhsBatch := []
  rhsBatch := []
  wf := dot_S524288x128_S128x256_S524288x256_1_0_0_1_n_n_wf
def dot_S524288x256_S256x2_S524288x2_1_0_0_1_n_n : DotDims S524288x256 S256x2 S524288x2 where
  lhsContracting := [1]
  rhsContracting := [0]
  lhsNonContracting := [0]
  rhsNonContracting := [1]
  lhsBatch := []
  rhsBatch := []
  wf := dot_S524288x256_S256x2_S524288x2_1_0_0_1_n_n_wf

class Facts : Prop extends Facts₀ where

variable [Facts]
-- ==== Proof.KrBase.lean ====
/-
  What the three regions' proofs share: each window's block at a grid point read off the array the region finds, the
  two branch conditions of a graph-convolution body in closed form over the grid (reduction coordinate 0: reset the
  accumulator; reduction coordinate 7: store the output block), where the output window is idle, and the staging
  memrefs the pipeline passes.
-/
import proofs.«142677_j5446018531553_2_alg».proof.Proof.Gen.Kernel.Launch
import proofs.«142677_j5446018531553_2_alg».proof.Proof.Gen.Kernel.Skeleton
import proofs.«142677_j5446018531553_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The zero offset of a rank-2 rectangle. -/
theorem hz2 : (![0, 0] : Fin 2 → ℕ) = fun _ => 0 := by funext a; fin_cases a <;> rfl

/-- A store of the whole shape, made last, leaves its payload whatever was written or held before. -/
theorem read_store_whole {S : Shape} {e : EltTy} {sg : RefSig} {κ : Kind} {sp : Space} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩), View.canon_cons_unit_zero h]

/-- A load of the whole shape from a whole memref reads its contents. -/
theorem readAt_whole {S : Shape} {e : EltTy} {sg : RefSig} {κ : Kind} {sp : Space} (m : Memref sg κ sp S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero h inb X

/-! ## Region 0: the windows' blocks, the branch conditions, where the output window is idle -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's first branch: the reduction coordinate is 0 (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The body's second branch: the reduction coordinate is the last one (the output block is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- Each window's current staging memref at point `t`, as the pipeline passes it to the body, and its wholeness. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x64 .f32 := Memref.whole cc0_scratch0

/-- The scoped buffers region 0 neither stages nor accumulates in (the other regions' staging buffers and accumulator), each whole at some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant, with the accumulator set apart as a memref owned at some contents. -/
theorem PhiA0_split (c : Dev nD) :
    (Pipeline.ΦA spec0 c : sProp 𝕄) ⊢ iprop((∃ d, owns (c : Thread nD τ) scM0 fullShare d) ∗ others0 (F := F) c ∗ (∃ r, prngReg c r)) := by
  unfold Pipeline.ΦA; rw [scopedRest0_eq]; simp only [others0, scM0, owns_whole]
  iintro ⟨⟨H0, H1, H2, H3, H4, H5, H6, H7, H8, H9, H10, H11, H12, H13, H14, H15, H16⟩, Hg⟩
  isplitl [H0]; · iexact H0
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem PhiA0_join (c : Dev nD) :
    iprop((∃ d, owns (c : Thread nD τ) scM0 fullShare d) ∗ others0 (F := F) c ∗ (∃ r, prngReg c r)) ⊢ (Pipeline.ΦA spec0 c : sProp 𝕄) := by
  unfold Pipeline.ΦA; rw [scopedRest0_eq]; simp only [others0, scM0, owns_whole]
  iintro ⟨H0, ⟨H1, H2, H3, H4, H5, H6, H7, H8, H9, H10, H11, H12, H13, H14, H15, H16⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## Region 1: the windows' blocks, the branch conditions, where the output window is idle -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the reduction coordinate is 0 (the accumulator is reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the reduction coordinate is the last one (the output block is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it to the body, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x64 .f32 := Memref.whole cc1_scratch0

/-- The scoped buffers region 1 neither stages nor accumulates in (the other regions' staging buffers and accumulator), each whole at some contents: they ride through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant, with the accumulator set apart as a memref owned at some contents. -/
theorem PhiA1_split (c : Dev nD) :
    (Pipeline.ΦA spec1 c : sProp 𝕄) ⊢ iprop((∃ d, owns (c : Thread nD τ) scM1 fullShare d) ∗ others1 (F := F) c ∗ (∃ r, prngReg c r)) := by
  unfold Pipeline.ΦA; rw [scopedRest1_eq]; simp only [others1, scM1, owns_whole]
  iintro ⟨⟨H0, H1, H2, H3, H4, H5, H6, H7, H8, H9, H10, H11, H12, H13, H14, H15, H16⟩, Hg⟩
  isplitl [H8]; · iexact H8
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem PhiA1_join (c : Dev nD) :
    iprop((∃ d, owns (c : Thread nD τ) scM1 fullShare d) ∗ others1 (F := F) c ∗ (∃ r, prngReg c r)) ⊢ (Pipeline.ΦA spec1 c : sProp 𝕄) := by
  unfold Pipeline.ΦA; rw [scopedRest1_eq]; simp only [others1, scM1, owns_whole]
  iintro ⟨H8, ⟨H0, H1, H2, H3, H4, H5, H6, H7, H9, H10, H11, H12, H13, H14, H15, H16⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## Region 2 (the edge classifier): the windows' blocks and staging memrefs -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.Kernel.Fr

end
-- ==== Proof.KrRun0.lean ====
/-
  The body of graph-convolution region 0 run on whole staging memrefs, once per step of the reduction: what it leaves in
  the accumulator and, at the last step, in the output buffer, as the body's own arithmetic of what it loaded.
-/
import proofs.«142677_j5446018531553_2_alg».proof.Proof.KrBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body on whole staging memrefs at the reduction's first step: the accumulator, whatever it held, is reset and takes the first block product. -/
theorem run0A (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : cond0_0 i) (hc1 : ¬cond0_1 i)
    (x0 : Vec F S1024x2048 .f32) (x1 : Vec F S2048x64 .bf16) (x2 : Vec F S1x64 .f32) (xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 x0 x1 (k0_pay1 (F := F)))) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3;
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  sl_unfold_words
  rw [read_store_whole _ _ hz2, readAt_whole arg2 harg2 hz2, readAt_whole arg3 harg3 hz2, View.readCov_unit_zero _ hz2]

set_option maxHeartbeats 2000000 in
/-- The body on whole staging memrefs at a middle step: the accumulator takes one more block product; the output buffer is handed back untouched. -/
theorem run0B (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : ¬cond0_0 i) (hc1 : ¬cond0_1 i)
    (x0 : Vec F S1024x2048 .f32) (x1 : Vec F S2048x64 .bf16) (x2 : Vec F S1x64 .f32) (xi3 : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 x0 x1 xs)) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  rw [read_store_whole _ _ hz2, readAt_whole arg2 harg2 hz2, readAt_whole arg3 harg3 hz2, readAt_whole arg6 harg6 hz2]

set_option maxHeartbeats 2000000 in
/-- The body on whole staging memrefs at the last step: the accumulator takes the last block product, and the output buffer takes the logistic of the accumulator plus the bias row. -/
theorem run0C (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : ¬cond0_0 i) (hc1 : cond0_1 i)
    (x0 : Vec F S1024x2048 .f32) (x1 : Vec F S2048x64 .bf16) (x2 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1 xs) x2) ∗ owns (c : Thread nD τ) arg6 fullShare (k0_pay2 x0 x1 xs)) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_store_whole _ _ hz2, View.readCov_unit_zero _ hz2, readAt_whole arg2 harg2 hz2, readAt_whole arg3 harg3 hz2, readAt_whole arg6 harg6 hz2, readAt_whole arg4 harg4 hz2]
  iexists _; isplitr
  swap; · iexact HS
  ipureintro
  sl_unfold_words
  rw [read_store_whole _ _ hz2, readAt_whole arg2 harg2 hz2, readAt_whole arg3 harg3 hz2, readAt_whole arg6 harg6 hz2]

end Cert.Kernel.Fr

end
-- ==== Proof.KrReg0.lean ====
/-
  Graph-convolution region 0: the accumulator after each grid point by recursion on the point, the proof data of the
  region's pipeline, and the body obligation at every point from the three runs of the body.
-/
import proofs.«142677_j5446018531553_2_alg».proof.Proof.KrRun0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: what the accumulator holds after each grid point, the proof data, the body obligation -/

/-- THE ACCUMULATION. The accumulator after the body at position `n`: at a point whose reduction coordinate is 0 the
    block product added to zero, elsewhere the block product added to what the point before left. -/
def acc0 (c : Dev nD) : (n : ℕ) → n < cfg0.N → Vec F S1024x64 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's; afterwards the accumulator at what
    the point before left, the other scoped buffers and the generator register at anything. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ others0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ others0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (acc0 V c (n - 1) (by omega)) ∗ others0 (F := F) c ∗ (∃ r, prngReg c r)) := by
  cases n with
  | zero => exact absurd rfl hz
  | succ n => rfl

/-- The proof data of region 0 on core `c`: the arrays as the region finds them; after the body each input's buffer
    at its block and the output's at the logistic of the accumulator plus the bias row; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the closed forms say which of the three steps the point is; that step's run applies; the
    invariant hands the body the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩⟩
      ihave HΦ' := (PhiA0_split (F := F) c) $$ HΦ
      icases HΦ' with ⟨HS, Hoth, Hg⟩
      iapply (run0A c (grid0.coords t) _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0A c (grid0.coords t) _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [acc0_next V c t h0]
      have hz : t.val ≠ 0 := fun hz => h0 (by rw [hz])
      rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0C c (grid0.coords t) _ _ _ _ _ _ _ _ _ _ (fun h => h0 ((hcond0_0 t).mp h)) ((hcond0_1 t).mpr h1) (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [acc0_next V c t h0]
      have hz : t.val ≠ 0 := fun hz => h0 (by rw [hz])
      rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0B c (grid0.coords t) _ _ _ _ _ _ _ _ _ _ (fun h => h0 ((hcond0_0 t).mp h)) (fun h => h1 ((hcond0_1 t).mp h)) (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS, Hoth, Hg⟩
  iapply (PhiA0_join (F := F) c)
  isplitl [HS]; · iexists _; iexact HS
  isplitl [Hoth]; · iexact Hoth
  iexact Hg

end Regions

end Cert.Kernel.Fr

end
-- ==== Proof.KrRun1.lean ====
/-
  The body of graph-convolution region 1 run on whole staging memrefs, once per step of the reduction: what it leaves in
  the accumulator and, at the last step, in the output buffer, as the body's own arithmetic of what it loaded.
-/
import proofs.«142677_j5446018531553_2_alg».proof.Proof.KrBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The body on whole staging memrefs at the reduction's first step: the accumulator, whatever it held, is reset and takes the first block product. -/
theorem run1A (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : cond1_0 i) (hc1 : ¬cond1_1 i)
    (x0 : Vec F S1024x2048 .f32) (x1 : Vec F S2048x64 .bf16) (x2 : Vec F S1x64 .f32) (xi3 : Vec F S1024x64 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3;
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  sl_unfold_words
  rw [read_store_whole _ _ hz2, readAt_whole arg2 harg2 hz2, readAt_whole arg3 harg3 hz2, View.readCov_unit_zero _ hz2]

set_option maxHeartbeats 2000000 in
/-- The body on whole staging memrefs at a middle step: the accumulator takes one more block product; the output buffer is handed back untouched. -/
theorem run1B (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : ¬cond1_0 i) (hc1 : ¬cond1_1 i)
    (x0 : Vec F S1024x2048 .f32) (x1 : Vec F S2048x64 .bf16) (x2 : Vec F S1x64 .f32) (xi3 : Vec F S1024x64 .bf16) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  rw [read_store_whole _ _ hz2, readAt_whole arg2 harg2 hz2, readAt_whole arg3 harg3 hz2, readAt_whole arg6 harg6 hz2]

set_option maxHeartbeats 2000000 in
/-- The body on whole staging memrefs at the last step: the accumulator takes the last block product, and the output buffer takes the logistic of the accumulator plus the bias row. -/
theorem run1C (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : ¬cond1_0 i) (hc1 : cond1_1 i)
    (x0 : Vec F S1024x2048 .f32) (x1 : Vec F S2048x64 .bf16) (x2 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_store_whole _ _ hz2, View.readCov_unit_zero _ hz2, readAt_whole arg2 harg2 hz2, readAt_whole arg3 harg3 hz2, readAt_whole arg6 harg6 hz2, readAt_whole arg4 harg4 hz2]
  iexists _; isplitr
  swap; · iexact HS
  ipureintro
  sl_unfold_words
  rw [read_store_whole _ _ hz2, readAt_whole arg2 harg2 hz2, readAt_whole arg3 harg3 hz2, readAt_whole arg6 harg6 hz2]

end Cert.Kernel.Fr

end
-- ==== Proof.KrReg1.lean ====
/-
  Graph-convolution region 1: the accumulator after each grid point by recursion on the point, the proof data of the
  region's pipeline, and the body obligation at every point from the three runs of the body.
-/
import proofs.«142677_j5446018531553_2_alg».proof.Proof.KrRun1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 1: what the accumulator holds after each grid point, the proof data, the body obligation -/

/-- THE ACCUMULATION. The accumulator after the body at position `n`: at a point whose reduction coordinate is 0 the
    block product added to zero, elsewhere the block product added to what the point before left. -/
def acc1 (c : Dev nD) : (n : ℕ) → n < cfg1.N → Vec F S1024x64 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's; afterwards the accumulator at what
    the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (acc1 V c (n - 1) (by omega)) ∗ others1 (F := F) c ∗ (∃ r, prngReg c r)) := by
  cases n with
  | zero => exact absurd rfl hz
  | succ n => rfl

/-- The proof data of region 1 on core `c`: the arrays as the region finds them; after the body each input's buffer
    at its block and the output's at the logistic of the accumulator plus the bias row; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the closed forms say which of the three steps the point is; that step's run applies; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, Hoth, Hg⟩
      iapply (run1A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_next V c t h0]
      have hz : t.val ≠ 0 := fun hz => h0 (by rw [hz])
      rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_next V c t h0]
      have hz : t.val ≠ 0 := fun hz => h0 (by rw [hz])
      rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HS, Hoth, Hg⟩
  iapply (PhiA1_join (F := F) c)
  isplitl [HS]; · iexists _; iexact HS
  isplitl [Hoth]; · iexact Hoth
  iexact Hg

end Regions

end Cert.Kernel.Fr

end
-- ==== Proof.KrRun2.lean ====
/-
  The edge classifier's body run on whole staging memrefs: what it leaves in the output buffer, as the body's own
  arithmetic of the five blocks it loaded.
-/
import proofs.«142677_j5446018531553_2_alg».proof.Proof.KrBase

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 2000000 in
/-- The edge classifier's body on whole staging memrefs: the inputs' at their contents, the output's at anything; it
    leaves the inputs as they were and the output's buffer at the body's arithmetic of the five inputs. -/
theorem run2 (c : Dev nD) (i : grid2.Coords) (arg1 : Memref sig .tc .vmem S8192x128 .bf16) (harg1 : arg1.IsWhole) (arg2 : Memref sig .tc .vmem S128x256 .f32) (harg2 : arg2.IsWhole) (arg3 : Memref sig .tc .vmem S1x256 .f32) (harg3 : arg3.IsWhole) (arg4 : Memref sig .tc .vmem S256x2 .f32) (harg4 : arg4.IsWhole) (arg5 : Memref sig .tc .vmem S1x2 .f32) (harg5 : arg5.IsWhole) (arg6 : Memref sig .tc .vmem S8192x2 .f32) (harg6 : arg6.IsWhole)
    (x0 : Vec F S8192x128 .bf16) (x1 : Vec F S128x256 .f32) (x2 : Vec F S1x256 .f32) (x3 : Vec F S256x2 .f32) (x4 : Vec F S1x2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay1 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  (try sl_unfold_words)
  rw [read_store_whole _ _ hz2, readAt_whole arg1 harg1 hz2, readAt_whole arg2 harg2 hz2, readAt_whole arg3 harg3 hz2, readAt_whole arg4 harg4 hz2, readAt_whole arg5 harg5 hz2]

end Cert.Kernel.Fr

end
-- ==== Proof.KrReg2.lean ====
/-
  The edge classifier's region: the proof data of its pipeline and the body obligation at every point.
-/
import proofs.«142677_j5446018531553_2_alg».proof.Proof.KrRun2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 2: the proof data and the body obligation -/

/-- The proof data of region 2 on core `c`: the arrays as the region finds them; after the body each input's buffer at
    its block and the output's at the body's arithmetic of the five input blocks; the class's invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay1 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))
/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the run applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (run2 c (grid2.coords t) _ _ _ _ _ _ _ _ _ _ _ _ (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Fr

end
-- ==== Proof.KrMain.lean ====
/-
  The whole program as a run of segments — a stretch of host operations, a region, a stretch, a region, a stretch, a
  region, a last stretch — with the contents of every unscoped buffer named at each boundary: a stretch applies its
  operations, a region replaces its arrays by what its write-backs leave and keeps every other buffer. Every weakly fair
  execution terminates, and at the end every unscoped buffer holds the last boundary's contents.
-/
import proofs.«142677_j5446018531553_2_alg».proof.Proof.KrReg0
import proofs.«142677_j5446018531553_2_alg».proof.Proof.KrReg1
import proofs.«142677_j5446018531553_2_alg».proof.Proof.KrReg2
import proofs.«142677_j5446018531553_2_alg».proof.Proof.Gen.Kernel.Regions

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m ρ 0 c).Φ 0 := hin0 (V1 m ρ) c
    iintro ⟨Hp, -, Hr⟩
    iapply h
    isplitl [Hr]; · iexact Hr
    iexact Hp
  hout c := by
    rw [Pipeline.ownSems0_none]
    have h : (pdats m ρ 0 c).Φ (Fin.last _) ⊢ (iprop(Pipeline.scopedRest spec0 c ∗ ∃ r, prngReg c r) : sProp 𝕄) := hout0 (V1 m ρ) c
    iintro HΦ
    ihave H' := h $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m ρ 1 c).Φ 0 := hin1 (V3 m ρ) c
    iintro ⟨Hp, -, Hr⟩
    iapply h
    isplitl [Hr]; · iexact Hr
    iexact Hp
  hout c := by
    rw [Pipeline.ownSems0_none]
    have h : (pdats m ρ 1 c).Φ (Fin.last _) ⊢ (iprop(Pipeline.scopedRest spec1 c ∗ ∃ r, prngReg c r) : sProp 𝕄) := hout1 (V3 m ρ) c
    iintro HΦ
    ihave H' := h $$ HΦ
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items as segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.Kernel.Fr

end
-- ==== Proof.KrFrame.lean ====
/-
  What the run says about the arguments and the result: no stretch of host operations writes an argument and no region
  has one as its output array, so every argument ends as launched; the result buffer ends at the last boundary's
  contents.
-/
import proofs.«142677_j5446018531553_2_alg».proof.Proof.KrMain

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 keeps every buffer but its output array: an input window's array ends as the region found it. -/
theorem W2_keep (c : Dev nD) (b : Ref sig .tc) (hb : b ≠ main_v3) :
    W2 m ρ c (Proc.devRef .tc b) = W1 m ρ c (Proc.devRef .tc b) := by
  by_cases h : ∃ w, Pipeline.arrRef spec0 w = b
  · obtain ⟨w, rfl⟩ := h
    rw [W2_arr]
    have hw : (cfg0.win w).isOut = false := by
      match w, hb with
      | ⟨0, _⟩, _ => rfl
      | ⟨1, _⟩, _ => rfl
      | ⟨2, _⟩, _ => rfl
      | ⟨3, _⟩, hb => exact absurd rfl hb
    exact ((dat0 (V1 m ρ) c).arrAt_in w hw _).trans (A_eq0 (V1 m ρ) c w)
  · exact W2_of_ne m ρ c b (fun w e => h ⟨w, e⟩)

/-- Region 1 keeps every buffer but its output array: an input window's array ends as the region found it. -/
theorem W4_keep (c : Dev nD) (b : Ref sig .tc) (hb : b ≠ main_v7) :
    W4 m ρ c (Proc.devRef .tc b) = W3 m ρ c (Proc.devRef .tc b) := by
  by_cases h : ∃ w, Pipeline.arrRef spec1 w = b
  · obtain ⟨w, rfl⟩ := h
    rw [W4_arr]
    have hw : (cfg1.win w).isOut = false := by
      match w, hb with
      | ⟨0, _⟩, _ => rfl
      | ⟨1, _⟩, _ => rfl
      | ⟨2, _⟩, _ => rfl
      | ⟨3, _⟩, hb => exact absurd rfl hb
    exact ((dat1 (V3 m ρ) c).arrAt_in w hw _).trans (A_eq1 (V3 m ρ) c w)
  · exact W4_of_ne m ρ c b (fun w e => h ⟨w, e⟩)

/-- Region 2 keeps every buffer but its output array: an input window's array ends as the region found it. -/
theorem W6_keep (c : Dev nD) (b : Ref sig .tc) (hb : b ≠ main_v29) :
    W6 m ρ c (Proc.devRef .tc b) = W5 m ρ c (Proc.devRef .tc b) := by
  by_cases h : ∃ w, Pipeline.arrRef spec2 w = b
  · obtain ⟨w, rfl⟩ := h
    rw [W6_arr]
    have hw : (cfg2.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact ((dat2 (V5 m ρ) c).arrAt_in w hw _).trans (A_eq2 (V5 m ρ) c w)
  · exact W6_of_ne m ρ c b (fun w e => h ⟨w, e⟩)

/-- A buffer no stretch writes and no region outputs holds its launch contents at every boundary. -/
theorem W1_arg (c : Dev nD) (b : Ref sig .tc) (h0 : b ∉ hostOps0_W) : W1 m ρ c (Proc.devRef .tc b) = m ((c : Thread nD τ).loc b) :=
  (StableHlo.after_of_writes_sub hostOps0 _ hostOps0_writes h0).trans rfl
theorem W2_arg (c : Dev nD) (b : Ref sig .tc) (h0 : b ∉ hostOps0_W) (n3 : b ≠ main_v3) : W2 m ρ c (Proc.devRef .tc b) = m ((c : Thread nD τ).loc b) :=
  (W2_keep m ρ c b n3).trans (W1_arg m ρ c b h0)
theorem W3_arg (c : Dev nD) (b : Ref sig .tc) (h0 : b ∉ hostOps0_W) (n3 : b ≠ main_v3) (h1 : b ∉ hostOps1_W) : W3 m ρ c (Proc.devRef .tc b) = m ((c : Thread nD τ).loc b) :=
  (StableHlo.after_of_writes_sub hostOps1 _ hostOps1_writes h1).trans (W2_arg m ρ c b h0 n3)
theorem W4_arg (c : Dev nD) (b : Ref sig .tc) (h0 : b ∉ hostOps0_W) (n3 : b ≠ main_v3) (h1 : b ∉ hostOps1_W) (n7 : b ≠ main_v7) : W4 m ρ c (Proc.devRef .tc b) = m ((c : Thread nD τ).loc b) :=
  (W4_keep m ρ c b n7).trans (W3_arg m ρ c b h0 n3 h1)
theorem W5_arg (c : Dev nD) (b : Ref sig .tc) (h0 : b ∉ hostOps0_W) (n3 : b ≠ main_v3) (h1 : b ∉ hostOps1_W) (n7 : b ≠ main_v7) (h2 : b ∉ hostOps2_W) : W5 m ρ c (Proc.devRef .tc b) = m ((c : Thread nD τ).loc b) :=
  (StableHlo.after_of_writes_sub hostOps2 _ hostOps2_writes h2).trans (W4_arg m ρ c b h0 n3 h1 n7)
theorem W6_arg (c : Dev nD) (b : Ref sig .tc) (h0 : b ∉ hostOps0_W) (n3 : b ≠ main_v3) (h1 : b ∉ hostOps1_W) (n7 : b ≠ main_v7) (h2 : b ∉ hostOps2_W) (n29 : b ≠ main_v29) : W6 m ρ c (Proc.devRef .tc b) = m ((c : Thread nD τ).loc b) :=
  (W6_keep m ρ c b n29).trans (W5_arg m ρ c b h0 n3 h1 n7 h2)
theorem W7_arg (c : Dev nD) (b : Ref sig .tc) (h0 : b ∉ hostOps0_W) (n3 : b ≠ main_v3) (h1 : b ∉ hostOps1_W) (n7 : b ≠ main_v7) (h2 : b ∉ hostOps2_W) (n29 : b ≠ main_v29) (h3 : b ∉ hostOps3_W) : W7 m ρ c (Proc.devRef .tc b) = m ((c : Thread nD τ).loc b) :=
  (StableHlo.after_of_writes_sub hostOps3 _ hostOps3_writes h3).trans (W6_arg m ρ c b h0 n3 h1 n7 h2 n29)

/-- THE RUN, READ: the result buffer at the last boundary's contents, every argument as launched. -/
theorem run_val : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v32 (by decide)),
    (h c _ (mem_uc main_arg0 (by decide))).trans (W7_arg m ρ c main_arg0 (by decide) (by decide) (by decide) (by decide) (by decide) (by decide) (by decide)),
    (h c _ (mem_uc main_arg1 (by decide))).trans (W7_arg m ρ c main_arg1 (by decide) (by decide) (by decide) (by decide) (by decide) (by decide) (by decide)),
    (h c _ (mem_uc main_arg2 (by decide))).trans (W7_arg m ρ c main_arg2 (by decide) (by decide) (by decide) (by decide) (by decide) (by decide) (by decide)),
    (h c _ (mem_uc main_arg3 (by decide))).trans (W7_arg m ρ c main_arg3 (by decide) (by decide) (by decide) (by decide) (by decide) (by decide) (by decide)),
    (h c _ (mem_uc main_arg4 (by decide))).trans (W7_arg m ρ c main_arg4 (by decide) (by decide) (by decide) (by decide) (by decide) (by decide) (by decide)),
    (h c _ (mem_uc main_arg5 (by decide))).trans (W7_arg m ρ c main_arg5 (by decide) (by decide) (by decide) (by decide) (by decide) (by decide) (by decide)),
    (h c _ (mem_uc main_arg6 (by decide))).trans (W7_arg m ρ c main_arg6 (by decide) (by decide) (by decide) (by decide) (by decide) (by decide) (by decide)),
    (h c _ (mem_uc main_arg7 (by decide))).trans (W7_arg m ρ c main_arg7 (by decide) (by decide) (by decide) (by decide) (by decide) (by decide) (by decide)),
    (h c _ (mem_uc main_arg8 (by decide))).trans (W7_arg m ρ c main_arg8 (by decide) (by decide) (by decide) (by decide) (by decide) (by decide) (by decide)),
    (h c _ (mem_uc main_arg9 (by decide))).trans (W7_arg m ρ c main_arg9 (by decide) (by decide) (by decide) (by decide) (by decide) (by decide) (by decide)),
    (h c _ (mem_uc main_arg10 (by decide))).trans (W7_arg m ρ c main_arg10 (by decide) (by decide) (by decide) (by decide) (by decide) (by decide) (by decide)),
    (h c _ (mem_uc main_arg11 (by decide))).trans (W7_arg m ρ c main_arg11 (by decide) (by decide) (by decide) (by decide) (by decide) (by decide) (by decide))⟩) (run_all m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_val m ρ)

end Cert.Kernel.Fr

end
-- ==== Proof.FrBase.lean ====
/-
  What the three regions' proofs share: each window's block at a grid point read off the array the region finds, the
  two branch conditions of a graph-convolution body in closed form over the grid (reduction coordinate 0: reset the
  accumulator; reduction coordinate 7: store the output block), where the output window is idle, and the staging
  memrefs the pipeline passes.
-/
import proofs.«142677_j5446018531553_2_alg».proof.Proof.Gen.KernelIdeal.Launch
import proofs.«142677_j5446018531553_2_alg».proof.Proof.Gen.KernelIdeal.Skeleton
import proofs.«142677_j5446018531553_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-- The zero offset of a rank-2 rectangle. -/
theorem hz2 : (![0, 0] : Fin 2 → ℕ) = fun _ => 0 := by funext a; fin_cases a <;> rfl

/-- A store of the whole shape, made last, leaves its payload whatever was written or held before. -/
theorem read_store_whole {S : Shape} {e : EltTy} {sg : RefSig} {κ : Kind} {sp : Space} (v : View sg κ sp S e)
    (f : v.ty.Contents (Elt F)) {off : Fin S.rank → ℕ} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, by
    subst h; show y ∈ (Rect.whole S).set; rw [Rect.set_whole]; exact Finset.mem_univ y⟩), View.canon_cons_unit_zero h]

/-- A load of the whole shape from a whole memref reads its contents. -/
theorem readAt_whole {S : Shape} {e : EltTy} {sg : RefSig} {κ : Kind} {sp : Space} (m : Memref sg κ sp S e) (hm : m.IsWhole)
    {off : Fin S.rank → ℕ} (h : off = fun _ => 0) (inb : ∀ a, off a + S.size a ≤ S.size a) (X : S.Idx → Elt F e) :
    View.readAt (Elt F) m.view (Rect.unit off S.size inb).toLoadRect (hm.unread X) = X := by
  rw [View.readAt_eq_ld, hm.read_unread]; exact View.ld_unit_zero h inb X

/-! ## Region 0: the windows' blocks, the branch conditions, where the output window is idle -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The body's first branch: the reduction coordinate is 0 (the accumulator is reset). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
/-- The body's second branch: the reduction coordinate is the last one (the output block is stored). -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second branch is not taken the output window is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel

/-- Each window's current staging memref at point `t`, as the pipeline passes it to the body, and its wholeness. -/
abbrev ms0_0 (t : Fin cfg0.N) := win0_0.stage (cfg0.slots t 0)
abbrev hs0_0 (t : Fin cfg0.N) : (ms0_0 t).IsWhole := hstage0_0 ((cfg0.slots t 0).cast nbuf0_0)
abbrev ms0_1 (t : Fin cfg0.N) := win0_1.stage (cfg0.slots t 1)
abbrev hs0_1 (t : Fin cfg0.N) : (ms0_1 t).IsWhole := hstage0_1 ((cfg0.slots t 1).cast nbuf0_1)
abbrev ms0_2 (t : Fin cfg0.N) := win0_2.stage (cfg0.slots t 2)
abbrev hs0_2 (t : Fin cfg0.N) : (ms0_2 t).IsWhole := hstage0_2 ((cfg0.slots t 2).cast nbuf0_2)
abbrev ms0_3 (t : Fin cfg0.N) := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0 : Memref sig .tc .vmem S1024x64 .f32 := Memref.whole cc0_scratch0

/-- The scoped buffers region 0 neither stages nor accumulates in (the other regions' staging buffers and accumulator), each whole at some contents: they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant, with the accumulator set apart as a memref owned at some contents. -/
theorem PhiA0_split (c : Dev nD) :
    (Pipeline.ΦA spec0 c : sProp 𝕄) ⊢ iprop((∃ d, owns (c : Thread nD τ) scM0 fullShare d) ∗ others0 (F := F) c ∗ (∃ r, prngReg c r)) := by
  unfold Pipeline.ΦA; rw [scopedRest0_eq]; simp only [others0, scM0, owns_whole]
  iintro ⟨⟨H0, H1, H2, H3, H4, H5, H6, H7, H8, H9, H10, H11, H12, H13, H14, H15, H16⟩, Hg⟩
  isplitl [H0]; · iexact H0
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem PhiA0_join (c : Dev nD) :
    iprop((∃ d, owns (c : Thread nD τ) scM0 fullShare d) ∗ others0 (F := F) c ∗ (∃ r, prngReg c r)) ⊢ (Pipeline.ΦA spec0 c : sProp 𝕄) := by
  unfold Pipeline.ΦA; rw [scopedRest0_eq]; simp only [others0, scM0, owns_whole]
  iintro ⟨H0, ⟨H1, H2, H3, H4, H5, H6, H7, H8, H9, H10, H11, H12, H13, H14, H15, H16⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## Region 1: the windows' blocks, the branch conditions, where the output window is idle -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body's first branch: the reduction coordinate is 0 (the accumulator is reset). -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The body's second branch: the reduction coordinate is the last one (the output block is stored). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second branch is not taken the output window is idle and not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- Each window's current staging memref at point `t`, as the pipeline passes it to the body, and its wholeness. -/
abbrev ms1_0 (t : Fin cfg1.N) := win1_0.stage (cfg1.slots t 0)
abbrev hs1_0 (t : Fin cfg1.N) : (ms1_0 t).IsWhole := hstage1_0 ((cfg1.slots t 0).cast nbuf1_0)
abbrev ms1_1 (t : Fin cfg1.N) := win1_1.stage (cfg1.slots t 1)
abbrev hs1_1 (t : Fin cfg1.N) : (ms1_1 t).IsWhole := hstage1_1 ((cfg1.slots t 1).cast nbuf1_1)
abbrev ms1_2 (t : Fin cfg1.N) := win1_2.stage (cfg1.slots t 2)
abbrev hs1_2 (t : Fin cfg1.N) : (ms1_2 t).IsWhole := hstage1_2 ((cfg1.slots t 2).cast nbuf1_2)
abbrev ms1_3 (t : Fin cfg1.N) := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x64 .f32 := Memref.whole cc1_scratch0

/-- The scoped buffers region 1 neither stages nor accumulates in (the other regions' staging buffers and accumulator), each whole at some contents: they ride through the region untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- The class invariant, with the accumulator set apart as a memref owned at some contents. -/
theorem PhiA1_split (c : Dev nD) :
    (Pipeline.ΦA spec1 c : sProp 𝕄) ⊢ iprop((∃ d, owns (c : Thread nD τ) scM1 fullShare d) ∗ others1 (F := F) c ∗ (∃ r, prngReg c r)) := by
  unfold Pipeline.ΦA; rw [scopedRest1_eq]; simp only [others1, scM1, owns_whole]
  iintro ⟨⟨H0, H1, H2, H3, H4, H5, H6, H7, H8, H9, H10, H11, H12, H13, H14, H15, H16⟩, Hg⟩
  isplitl [H8]; · iexact H8
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16
theorem PhiA1_join (c : Dev nD) :
    iprop((∃ d, owns (c : Thread nD τ) scM1 fullShare d) ∗ others1 (F := F) c ∗ (∃ r, prngReg c r)) ⊢ (Pipeline.ΦA spec1 c : sProp 𝕄) := by
  unfold Pipeline.ΦA; rw [scopedRest1_eq]; simp only [others1, scM1, owns_whole]
  iintro ⟨H8, ⟨H0, H1, H2, H3, H4, H5, H6, H7, H9, H10, H11, H12, H13, H14, H15, H16⟩, Hg⟩
  isplitr [Hg]
  swap; · iexact Hg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-! ## Region 2 (the edge classifier): the windows' blocks and staging memrefs -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

end Cert.KernelIdeal.Fr

end
-- ==== Proof.FrRun0.lean ====
/-
  The body of graph-convolution region 0 run on whole staging memrefs, once per step of the reduction: what it leaves in
  the accumulator and, at the last step, in the output buffer, as the body's own arithmetic of what it loaded.
-/
import proofs.«142677_j5446018531553_2_alg».proof.Proof.FrBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body on whole staging memrefs at the reduction's first step: the accumulator, whatever it held, is reset and takes the first block product. -/
theorem run0A (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : cond0_0 i) (hc1 : ¬cond0_1 i)
    (x0 : Vec F S1024x2048 .f32) (x1 : Vec F S2048x64 .bf16) (x2 : Vec F S1x64 .f32) (xi3 : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 x0 x1 (k0_pay1 (F := F)))) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3;
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  sl_unfold_words
  rw [read_store_whole _ _ hz2, readAt_whole arg2 harg2 hz2, readAt_whole arg3 harg3 hz2, View.readCov_unit_zero _ hz2]

set_option maxHeartbeats 2000000 in
/-- The body on whole staging memrefs at a middle step: the accumulator takes one more block product; the output buffer is handed back untouched. -/
theorem run0B (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : ¬cond0_0 i) (hc1 : ¬cond0_1 i)
    (x0 : Vec F S1024x2048 .f32) (x1 : Vec F S2048x64 .bf16) (x2 : Vec F S1x64 .f32) (xi3 : Vec F S1024x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k0_pay2 x0 x1 xs)) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  rw [read_store_whole _ _ hz2, readAt_whole arg2 harg2 hz2, readAt_whole arg3 harg3 hz2, readAt_whole arg6 harg6 hz2]

set_option maxHeartbeats 2000000 in
/-- The body on whole staging memrefs at the last step: the accumulator takes the last block product, and the output buffer takes the logistic of the accumulator plus the bias row. -/
theorem run0C (c : Dev nD) (i : grid0.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .f32) (harg5 : arg5.IsWhole) (arg6 : Memref sig .tc .vmem S1024x64 .f32) (harg6 : arg6.IsWhole)
    (hc0 : ¬cond0_0 i) (hc1 : cond0_1 i)
    (x0 : Vec F S1024x2048 .f32) (x1 : Vec F S2048x64 .bf16) (x2 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k0_pay3 (k0_pay2 x0 x1 xs) x2) ∗ owns (c : Thread nD τ) arg6 fullShare (k0_pay2 x0 x1 xs)) -∗ K ⟨⟩))
      ⊢ wp frame (wpE (defs₀ (F := F)) Variants.none c none) E (cc0__gcn_agg_kernel i arg2 harg2 arg3 harg3 arg4 harg4 arg5 harg5 arg6 harg6) K := by
  simp only [cc0__gcn_agg_kernel_eq_skeleton]; unfold cc0__gcn_agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_store_whole _ _ hz2, View.readCov_unit_zero _ hz2, readAt_whole arg2 harg2 hz2, readAt_whole arg3 harg3 hz2, readAt_whole arg6 harg6 hz2, readAt_whole arg4 harg4 hz2]
  iexists _; isplitr
  swap; · iexact HS
  ipureintro
  sl_unfold_words
  rw [read_store_whole _ _ hz2, readAt_whole arg2 harg2 hz2, readAt_whole arg3 harg3 hz2, readAt_whole arg6 harg6 hz2]

end Cert.KernelIdeal.Fr

end
-- ==== Proof.FrReg0.lean ====
/-
  Graph-convolution region 0: the accumulator after each grid point by recursion on the point, the proof data of the
  region's pipeline, and the body obligation at every point from the three runs of the body.
-/
import proofs.«142677_j5446018531553_2_alg».proof.Proof.FrRun0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 0: what the accumulator holds after each grid point, the proof data, the body obligation -/

/-- THE ACCUMULATION. The accumulator after the body at position `n`: at a point whose reduction coordinate is 0 the
    block product added to zero, elsewhere the block product added to what the point before left. -/
def acc0 (c : Dev nD) : (n : ℕ) → n < cfg0.N → Vec F S1024x64 .f32
  | 0, hn => k0_pay2 (iblk0 V c 0 ⟨0, hn⟩) (iblk0 V c 1 ⟨0, hn⟩) (k0_pay1 (F := F))
  | n + 1, hn =>
    if (n + 1) % 8 = 0 then k0_pay2 (iblk0 V c 0 ⟨n + 1, hn⟩) (iblk0 V c 1 ⟨n + 1, hn⟩) (k0_pay1 (F := F))
    else k0_pay2 (iblk0 V c 0 ⟨n + 1, hn⟩) (iblk0 V c 1 ⟨n + 1, hn⟩) (acc0 c n (Nat.lt_of_succ_lt hn))

theorem acc0_first (c : Dev nD) (t : Fin cfg0.N) (h0 : t.val % 8 = 0) :
    acc0 V c t.val t.isLt = k0_pay2 (iblk0 V c 0 t) (iblk0 V c 1 t) (k0_pay1 (F := F)) := by
  obtain ⟨n, hn⟩ := t
  cases n with
  | zero => rfl
  | succ n => exact if_pos h0

theorem acc0_next (c : Dev nD) (t : Fin cfg0.N) (h0 : ¬t.val % 8 = 0) :
    acc0 V c t.val t.isLt = k0_pay2 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's; afterwards the accumulator at what
    the point before left, the other scoped buffers and the generator register at anything. -/
def PhiS0 (c : Dev nD) : (n : ℕ) → n ≤ cfg0.N → sProp 𝕄
  | 0, _ => Pipeline.ΦA spec0 c
  | n + 1, hn => iprop(owns (c : Thread nD τ) scM0 fullShare (acc0 V c n hn) ∗ others0 (F := F) c ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(owns (c : Thread nD τ) scM0 fullShare (acc0 V c n hn) ∗ others0 (F := F) c ∗ (∃ r, prngReg c r)) := rfl
theorem PhiS0_pos (c : Dev nD) (n : ℕ) (h : n ≤ cfg0.N) (hz : n ≠ 0) :
    PhiS0 V c n h = iprop(owns (c : Thread nD τ) scM0 fullShare (acc0 V c (n - 1) (by omega)) ∗ others0 (F := F) c ∗ (∃ r, prngReg c r)) := by
  cases n with
  | zero => exact absurd rfl hz
  | succ n => rfl

/-- The proof data of region 0 on core `c`: the arrays as the region finds them; after the body each input's buffer
    at its block and the output's at the logistic of the accumulator plus the bias row; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (acc0 V c t.val t.isLt) (iblk0 V c 2 t)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay3 (acc0 V c t.val t.isLt) (iblk0 V c 2 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 4800000 in
/-- The body at any point: the closed forms say which of the three steps the point is; that step's run applies; the
    invariant hands the body the accumulator at what the point before left (at anything at the very first point) and
    takes it back at this point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 128 := lt_of_lt_of_eq t.isLt (show cfg0.N = 128 from N_0)
  by_cases h0 : t.val % 8 = 0
  · have h1 : ¬t.val % 8 = 7 := by omega
    rw [Dat.leavesExact_idle (dat0 V c) 3 t (idleAt0_3 t (fun h => h1 ((hcond0_1 t).mp h))) (noFlush0_3 t (fun h => h1 ((hcond0_1 t).mp h)))]
    rw [acc0_first V c t h0]
    by_cases hz : t.val = 0
    · rw [PhiS0_castSucc V c t, PhiS0_zero V c _ _ hz]
      iintro ⟨HΦ, Ho, ⟨%d0, H0⟩, ⟨%d1, H1⟩, ⟨%d2, H2⟩, ⟨%d3, H3⟩⟩
      ihave HΦ' := (PhiA0_split (F := F) c) $$ HΦ
      icases HΦ' with ⟨HS, Hoth, Hg⟩
      iapply (run0A c (grid0.coords t) _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0A c (grid0.coords t) _ _ _ _ _ _ _ _ _ _ ((hcond0_0 t).mpr h0) (fun h => h1 ((hcond0_1 t).mp h)) (iblk0 V c 0 t) (iblk0 V c 1 t) (iblk0 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · by_cases h1 : t.val % 8 = 7
    · rw [show (dat0 V c).leavesExact 3 t = owns (c : Thread nD τ) (ms0_3 t) fullShare ((dat0 V c).after 3 t) from by
        unfold Dat.leavesExact; rw [liveAt0_3 t ((hcond0_1 t).mpr h1)], after0_3]
      rw [acc0_next V c t h0]
      have hz : t.val ≠ 0 := fun hz => h0 (by rw [hz])
      rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0C c (grid0.coords t) _ _ _ _ _ _ _ _ _ _ (fun h => h0 ((hcond0_0 t).mp h)) ((hcond0_1 t).mpr h1) (iblk0 V c 0 t) (iblk0 V c 1 t) (iblk0 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat0 V c) 3 t (idleAt0_3 t (fun h => h1 ((hcond0_1 t).mp h))) (noFlush0_3 t (fun h => h1 ((hcond0_1 t).mp h)))]
      rw [acc0_next V c t h0]
      have hz : t.val ≠ 0 := fun hz => h0 (by rw [hz])
      rw [PhiS0_castSucc V c t, PhiS0_pos V c _ _ hz]
      iintro ⟨⟨HS, Hoth, Hg⟩, Ho, ⟨%d0, H0⟩, ⟨%d1, H1⟩, ⟨%d2, H2⟩, ⟨%d3, H3⟩⟩
      iapply (run0B c (grid0.coords t) _ _ _ _ _ _ _ _ _ _ (fun h => h0 ((hcond0_0 t).mp h)) (fun h => h1 ((hcond0_1 t).mp h)) (iblk0 V c 0 t) (iblk0 V c 1 t) (iblk0 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 128 := N_0; omega)]
  iintro ⟨HS, Hoth, Hg⟩
  iapply (PhiA0_join (F := F) c)
  isplitl [HS]; · iexists _; iexact HS
  isplitl [Hoth]; · iexact Hoth
  iexact Hg

end Regions

end Cert.KernelIdeal.Fr

end
-- ==== Proof.FrRun1.lean ====
/-
  The body of graph-convolution region 1 run on whole staging memrefs, once per step of the reduction: what it leaves in
  the accumulator and, at the last step, in the output buffer, as the body's own arithmetic of what it loaded.
-/
import proofs.«142677_j5446018531553_2_alg».proof.Proof.FrBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The body on whole staging memrefs at the reduction's first step: the accumulator, whatever it held, is reset and takes the first block product. -/
theorem run1A (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : cond1_0 i) (hc1 : ¬cond1_1 i)
    (x0 : Vec F S1024x2048 .f32) (x1 : Vec F S2048x64 .bf16) (x2 : Vec F S1x64 .f32) (xi3 : Vec F S1024x64 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 (k1_pay1 (F := F)))) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2; obtain rfl := harg5.eq_unread hf3;
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  sl_unfold_words
  rw [read_store_whole _ _ hz2, readAt_whole arg2 harg2 hz2, readAt_whole arg3 harg3 hz2, View.readCov_unit_zero _ hz2]

set_option maxHeartbeats 2000000 in
/-- The body on whole staging memrefs at a middle step: the accumulator takes one more block product; the output buffer is handed back untouched. -/
theorem run1B (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : ¬cond1_0 i) (hc1 : ¬cond1_1 i)
    (x0 : Vec F S1024x2048 .f32) (x1 : Vec F S2048x64 .bf16) (x2 : Vec F S1x64 .f32) (xi3 : Vec F S1024x64 .bf16) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare (k1_pay2 x0 x1 xs)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    exact harg5.read_unread _
  iexists _; isplitr
  swap; · iexact HS
  ipureintro
  rw [read_store_whole _ _ hz2, readAt_whole arg2 harg2 hz2, readAt_whole arg3 harg3 hz2, readAt_whole arg6 harg6 hz2]

set_option maxHeartbeats 2000000 in
/-- The body on whole staging memrefs at the last step: the accumulator takes the last block product, and the output buffer takes the logistic of the accumulator plus the bias row. -/
theorem run1C (c : Dev nD) (i : grid1.Coords) (arg2 : Memref sig .tc .vmem S1024x2048 .f32) (harg2 : arg2.IsWhole) (arg3 : Memref sig .tc .vmem S2048x64 .bf16) (harg3 : arg3.IsWhole) (arg4 : Memref sig .tc .vmem S1x64 .f32) (harg4 : arg4.IsWhole) (arg5 : Memref sig .tc .vmem S1024x64 .bf16) (harg5 : arg5.IsWhole) (arg6 : Memref sig .tc .vmem S1024x64 .f32) (harg6 : arg6.IsWhole)
    (hc0 : ¬cond1_0 i) (hc1 : cond1_1 i)
    (x0 : Vec F S1024x2048 .f32) (x1 : Vec F S2048x64 .bf16) (x2 : Vec F S1x64 .f32) (xs : Vec F S1024x64 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay3 (k1_pay2 x0 x1 xs) x2) ∗ owns (c : Thread nD τ) arg6 fullShare (k1_pay2 x0 x1 xs)) -∗ K ⟨⟩))
      ⊢ wp frame (wpE (defs₀ (F := F)) Variants.none c none) E (cc1__gcn_agg_kernel i arg2 harg2 arg3 harg3 arg4 harg4 arg5 harg5 arg6 harg6) K := by
  simp only [cc1__gcn_agg_kernel_eq_skeleton]; unfold cc1__gcn_agg_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    sl_unfold_words
    rw [read_store_whole _ _ hz2, View.readCov_unit_zero _ hz2, readAt_whole arg2 harg2 hz2, readAt_whole arg3 harg3 hz2, readAt_whole arg6 harg6 hz2, readAt_whole arg4 harg4 hz2]
  iexists _; isplitr
  swap; · iexact HS
  ipureintro
  sl_unfold_words
  rw [read_store_whole _ _ hz2, readAt_whole arg2 harg2 hz2, readAt_whole arg3 harg3 hz2, readAt_whole arg6 harg6 hz2]

end Cert.KernelIdeal.Fr

end
-- ==== Proof.FrReg1.lean ====
/-
  Graph-convolution region 1: the accumulator after each grid point by recursion on the point, the proof data of the
  region's pipeline, and the body obligation at every point from the three runs of the body.
-/
import proofs.«142677_j5446018531553_2_alg».proof.Proof.FrRun1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 1: what the accumulator holds after each grid point, the proof data, the body obligation -/

/-- THE ACCUMULATION. The accumulator after the body at position `n`: at a point whose reduction coordinate is 0 the
    block product added to zero, elsewhere the block product added to what the point before left. -/
def acc1 (c : Dev nD) : (n : ℕ) → n < cfg1.N → Vec F S1024x64 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (acc1 c n (Nat.lt_of_succ_lt hn))

theorem acc1_first (c : Dev nD) (t : Fin cfg1.N) (h0 : t.val % 8 = 0) :
    acc1 V c t.val t.isLt = k1_pay2 (iblk1 V c 0 t) (iblk1 V c 1 t) (k1_pay1 (F := F)) := by
  obtain ⟨n, hn⟩ := t
  cases n with
  | zero => rfl
  | succ n => exact if_pos h0

theorem acc1_next (c : Dev nD) (t : Fin cfg1.N) (h0 : ¬t.val % 8 = 0) :
    acc1 V c t.val t.isLt = k1_pay2 (iblk1 V c 0 t) (iblk1 V c 1 t) (acc1 V c (t.val - 1) (Nat.lt_of_le_of_lt (Nat.sub_le _ _) t.isLt)) := by
  obtain ⟨n, hn⟩ := t
  cases n with
  | zero => exact absurd (Nat.zero_mod _) h0
  | succ n => exact if_neg h0

/-- The region's invariant before position `n`: before the first point the class's; afterwards the accumulator at what
    the point before left, the other scoped buffers and the generator register at anything. -/
def PhiS1 (c : Dev nD) : (n : ℕ) → n ≤ cfg1.N → sProp 𝕄
  | 0, _ => Pipeline.ΦA spec1 c
  | n + 1, hn => iprop(owns (c : Thread nD τ) scM1 fullShare (acc1 V c n hn) ∗ others1 (F := F) c ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(owns (c : Thread nD τ) scM1 fullShare (acc1 V c n hn) ∗ others1 (F := F) c ∗ (∃ r, prngReg c r)) := rfl
theorem PhiS1_pos (c : Dev nD) (n : ℕ) (h : n ≤ cfg1.N) (hz : n ≠ 0) :
    PhiS1 V c n h = iprop(owns (c : Thread nD τ) scM1 fullShare (acc1 V c (n - 1) (by omega)) ∗ others1 (F := F) c ∗ (∃ r, prngReg c r)) := by
  cases n with
  | zero => exact absurd rfl hz
  | succ n => rfl

/-- The proof data of region 1 on core `c`: the arrays as the region finds them; after the body each input's buffer
    at its block and the output's at the logistic of the accumulator plus the bias row; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc1 V c t.val t.isLt) (iblk1 V c 2 t)
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (acc1 V c t.val t.isLt) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))
/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 4800000 in
/-- The body at any point: the closed forms say which of the three steps the point is; that step's run applies; the
    invariant hands the body the accumulator at what the point before left (at anything at the very first point) and
    takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 128 := lt_of_lt_of_eq t.isLt (show cfg1.N = 128 from N_1)
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [acc1_first V c t h0]
    by_cases hz : t.val = 0
    · rw [PhiS1_castSucc V c t, PhiS1_zero V c _ _ hz]
      iintro ⟨HΦ, Ho, ⟨%d0, H0⟩, ⟨%d1, H1⟩, ⟨%d2, H2⟩, ⟨%d3, H3⟩⟩
      ihave HΦ' := (PhiA1_split (F := F) c) $$ HΦ
      icases HΦ' with ⟨HS, Hoth, Hg⟩
      iapply (run1A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1A c (grid1.coords t) _ _ _ _ _ _ _ _ _ _ ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3
  · by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [acc1_next V c t h0]
      have hz : t.val ≠ 0 := fun hz => h0 (by rw [hz])
      rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1C c (grid1.coords t) _ _ _ _ _ _ _ _ _ _ (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [acc1_next V c t h0]
      have hz : t.val ≠ 0 := fun hz => h0 (by rw [hz])
      rw [PhiS1_castSucc V c t, PhiS1_pos V c _ _ hz]
      iintro ⟨⟨HS, Hoth, Hg⟩, Ho, ⟨%d0, H0⟩, ⟨%d1, H1⟩, ⟨%d2, H2⟩, ⟨%d3, H3⟩⟩
      iapply (run1B c (grid1.coords t) _ _ _ _ _ _ _ _ _ _ (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hoth Hg]
      · isplitl [HS]; · iexact HS
        isplitl [Hoth]; · iexact Hoth
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega)]
  iintro ⟨HS, Hoth, Hg⟩
  iapply (PhiA1_join (F := F) c)
  isplitl [HS]; · iexists _; iexact HS
  isplitl [Hoth]; · iexact Hoth
  iexact Hg

end Regions

end Cert.KernelIdeal.Fr

end
-- ==== Proof.FrRun2.lean ====
/-
  The edge classifier's body run on whole staging memrefs: what it leaves in the output buffer, as the body's own
  arithmetic of the five blocks it loaded.
-/
import proofs.«142677_j5446018531553_2_alg».proof.Proof.FrBase

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 2000000 in
/-- The edge classifier's body on whole staging memrefs: the inputs' at their contents, the output's at anything; it
    leaves the inputs as they were and the output's buffer at the body's arithmetic of the five inputs. -/
theorem run2 (c : Dev nD) (i : grid2.Coords) (arg1 : Memref sig .tc .vmem S8192x128 .bf16) (harg1 : arg1.IsWhole) (arg2 : Memref sig .tc .vmem S128x256 .f32) (harg2 : arg2.IsWhole) (arg3 : Memref sig .tc .vmem S1x256 .f32) (harg3 : arg3.IsWhole) (arg4 : Memref sig .tc .vmem S256x2 .f32) (harg4 : arg4.IsWhole) (arg5 : Memref sig .tc .vmem S1x2 .f32) (harg5 : arg5.IsWhole) (arg6 : Memref sig .tc .vmem S8192x2 .f32) (harg6 : arg6.IsWhole)
    (x0 : Vec F S8192x128 .bf16) (x1 : Vec F S128x256 .f32) (x2 : Vec F S1x256 .f32) (x3 : Vec F S256x2 .f32) (x4 : Vec F S1x2 .f32)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k2_pay1 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _; isplitr
  swap; · iexact H5
  ipureintro
  (try sl_unfold_words)
  rw [read_store_whole _ _ hz2, readAt_whole arg1 harg1 hz2, readAt_whole arg2 harg2 hz2, readAt_whole arg3 harg3 hz2, readAt_whole arg4 harg4 hz2, readAt_whole arg5 harg5 hz2]

end Cert.KernelIdeal.Fr

end
-- ==== Proof.FrReg2.lean ====
/-
  The edge classifier's region: the proof data of its pipeline and the body obligation at every point.
-/
import proofs.«142677_j5446018531553_2_alg».proof.Proof.FrRun2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Regions
variable (V : (c : Dev nD) → (b : Ref sig .tc) → Buf (Elt F) ((c : Thread nD τ).loc b))

/-! ## Region 2: the proof data and the body obligation -/

/-- The proof data of region 2 on core `c`: the arrays as the region finds them; after the body each input's buffer at
    its block and the output's at the body's arithmetic of the five input blocks; the class's invariant; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = k2_pay1 (iblk2 V c 0 t) (iblk2 V c 1 t) (iblk2 V c 2 t) (iblk2 V c 3 t) (iblk2 V c 4 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))
/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the run applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (run2 c (grid2.coords t) _ _ _ _ _ _ _ _ _ _ _ _ (iblk2 V c 0 t) (iblk2 V c 1 t) (iblk2 V c 2 t) (iblk2 V c 3 t) (iblk2 V c 4 t) Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Fr

end
-- ==== Proof.FrMain.lean ====
/-
  The whole program as a run of segments — a stretch of host operations, a region, a stretch, a region, a stretch, a
  region, a last stretch — with the contents of every unscoped buffer named at each boundary: a stretch applies its
  operations, a region replaces its arrays by what its write-backs leave and keeps every other buffer. Every weakly fair
  execution terminates, and at the end every unscoped buffer holds the last boundary's contents.
-/
import proofs.«142677_j5446018531553_2_alg».proof.Proof.FrReg0
import proofs.«142677_j5446018531553_2_alg».proof.Proof.FrReg1
import proofs.«142677_j5446018531553_2_alg».proof.Proof.FrReg2
import proofs.«142677_j5446018531553_2_alg».proof.Proof.Gen.KernelIdeal.Regions

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b

/-- At region 2's exit: its arrays at what the pipeline leaves, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After the last stretch. -/
abbrev W7 : Dev nD → Valuation τ sig (Elt F) := fun c => StableHlo.after hostOps3 (W6 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- REGION 0 over the thread state: entered from every unscoped buffer at `W1`, left at `W2`. Its arrays are split
    out of the unscoped buffers and put back at the exit contents; the generator register goes into the region's
    invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec0 c ∗ ∃ r, prngReg c r) : sProp 𝕄) ⊢ (pdats m ρ 0 c).Φ 0 := hin0 (V1 m ρ) c
    iintro ⟨Hp, -, Hr⟩
    iapply h
    isplitl [Hr]; · iexact Hr
    iexact Hp
  hout c := by
    rw [Pipeline.ownSems0_none]
    have h : (pdats m ρ 0 c).Φ (Fin.last _) ⊢ (iprop(Pipeline.scopedRest spec0 c ∗ ∃ r, prngReg c r) : sProp 𝕄) := hout0 (V1 m ρ) c
    iintro HΦ
    ihave H' := h $$ HΦ
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are split
    out of the unscoped buffers and put back at the exit contents; the generator register goes into the region's
    invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : (iprop(Pipeline.scopedRest spec1 c ∗ ∃ r, prngReg c r) : sProp 𝕄) ⊢ (pdats m ρ 1 c).Φ 0 := hin1 (V3 m ρ) c
    iintro ⟨Hp, -, Hr⟩
    iapply h
    isplitl [Hr]; · iexact Hr
    iexact Hp
  hout c := by
    rw [Pipeline.ownSems0_none]
    have h : (pdats m ρ 1 c).Φ (Fin.last _) ⊢ (iprop(Pipeline.scopedRest spec1 c ∗ ∃ r, prngReg c r) : sProp 𝕄) := hout1 (V3 m ρ) c
    iintro HΦ
    ihave H' := h $$ HΦ
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at `W5`, left at `W6`. Its arrays are split
    out of the unscoped buffers and put back at the exit contents; the generator register goes into the region's
    invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The program's items as segments. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
theorem main_run (c : Dev nD) : main (F := F) c = Pipeline.Seg.run (segs m ρ) := (main_chain c).trans (by chain_rfl)

set_option backward.isDefEq.respectTransparency.types false in
/-- THE RUN. From any memory with zero counters every weakly fair execution of the program terminates, nothing faulting,
    and every final state has every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

end Cert.KernelIdeal.Fr

end
-- ==== Proof.FrFrame.lean ====
/-
  What the run says about the arguments and the result: no stretch of host operations writes an argument and no region
  has one as its output array, so every argument ends as launched; the result buffer ends at the last boundary's
  contents.
-/
import proofs.«142677_j5446018531553_2_alg».proof.Proof.FrMain

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Region 0 keeps every buffer but its output array: an input window's array ends as the region found it. -/
theorem W2_keep (c : Dev nD) (b : Ref sig .tc) (hb : b ≠ main_v3) :
    W2 m ρ c (Proc.devRef .tc b) = W1 m ρ c (Proc.devRef .tc b) := by
  by_cases h : ∃ w, Pipeline.arrRef spec0 w = b
  · obtain ⟨w, rfl⟩ := h
    rw [W2_arr]
    have hw : (cfg0.win w).isOut = false := by
      match w, hb with
      | ⟨0, _⟩, _ => rfl
      | ⟨1, _⟩, _ => rfl
      | ⟨2, _⟩, _ => rfl
      | ⟨3, _⟩, hb => exact absurd rfl hb
    exact ((dat0 (V1 m ρ) c).arrAt_in w hw _).trans (A_eq0 (V1 m ρ) c w)
  · exact W2_of_ne m ρ c b (fun w e => h ⟨w, e⟩)

/-- Region 1 keeps every buffer but its output array: an input window's array ends as the region found it. -/
theorem W4_keep (c : Dev nD) (b : Ref sig .tc) (hb : b ≠ main_v7) :
    W4 m ρ c (Proc.devRef .tc b) = W3 m ρ c (Proc.devRef .tc b) := by
  by_cases h : ∃ w, Pipeline.arrRef spec1 w = b
  · obtain ⟨w, rfl⟩ := h
    rw [W4_arr]
    have hw : (cfg1.win w).isOut = false := by
      match w, hb with
      | ⟨0, _⟩, _ => rfl
      | ⟨1, _⟩, _ => rfl
      | ⟨2, _⟩, _ => rfl
      | ⟨3, _⟩, hb => exact absurd rfl hb
    exact ((dat1 (V3 m ρ) c).arrAt_in w hw _).trans (A_eq1 (V3 m ρ) c w)
  · exact W4_of_ne m ρ c b (fun w e => h ⟨w, e⟩)

/-- Region 2 keeps every buffer but its output array: an input window's array ends as the region found it. -/
theorem W6_keep (c : Dev nD) (b : Ref sig .tc) (hb : b ≠ main_v29) :
    W6 m ρ c (Proc.devRef .tc b) = W5 m ρ c (Proc.devRef .tc b) := by
  by_cases h : ∃ w, Pipeline.arrRef spec2 w = b
  · obtain ⟨w, rfl⟩ := h
    rw [W6_arr]
    have hw : (cfg2.win w).isOut = false := by
      match w, hb with
      | ⟨0, _⟩, _ => rfl
      | ⟨1, _⟩, _ => rfl
      | ⟨2, _⟩, _ => rfl
      | ⟨3, _⟩, _ => rfl
      | ⟨4, _⟩, _ => rfl
      | ⟨5, _⟩, hb => exact absurd rfl hb
    exact ((dat2 (V5 m ρ) c).arrAt_in w hw _).trans (A_eq2 (V5 m ρ) c w)
  · exact W6_of_ne m ρ c b (fun w e => h ⟨w, e⟩)

/-- A buffer no stretch writes and no region outputs holds its launch contents at every boundary. -/
theorem W1_arg (c : Dev nD) (b : Ref sig .tc) (h0 : b ∉ hostOps0_W) : W1 m ρ c (Proc.devRef .tc b) = m ((c : Thread nD τ).loc b) :=
  (StableHlo.after_of_writes_sub hostOps0 _ hostOps0_writes h0).trans rfl
theorem W2_arg (c : Dev nD) (b : Ref sig .tc) (h0 : b ∉ hostOps0_W) (n3 : b ≠ main_v3) : W2 m ρ c (Proc.devRef .tc b) = m ((c : Thread nD τ).loc b) :=
  (W2_keep m ρ c b n3).trans (W1_arg m ρ c b h0)
theorem W3_arg (c : Dev nD) (b : Ref sig .tc) (h0 : b ∉ hostOps0_W) (n3 : b ≠ main_v3) (h1 : b ∉ hostOps1_W) : W3 m ρ c (Proc.devRef .tc b) = m ((c : Thread nD τ).loc b) :=
  (StableHlo.after_of_writes_sub hostOps1 _ hostOps1_writes h1).trans (W2_arg m ρ c b h0 n3)
theorem W4_arg (c : Dev nD) (b : Ref sig .tc) (h0 : b ∉ hostOps0_W) (n3 : b ≠ main_v3) (h1 : b ∉ hostOps1_W) (n7 : b ≠ main_v7) : W4 m ρ c (Proc.devRef .tc b) = m ((c : Thread nD τ).loc b) :=
  (W4_keep m ρ c b n7).trans (W3_arg m ρ c b h0 n3 h1)
theorem W5_arg (c : Dev nD) (b : Ref sig .tc) (h0 : b ∉ hostOps0_W) (n3 : b ≠ main_v3) (h1 : b ∉ hostOps1_W) (n7 : b ≠ main_v7) (h2 : b ∉ hostOps2_W) : W5 m ρ c (Proc.devRef .tc b) = m ((c : Thread nD τ).loc b) :=
  (StableHlo.after_of_writes_sub hostOps2 _ hostOps2_writes h2).trans (W4_arg m ρ c b h0 n3 h1 n7)
theorem W6_arg (c : Dev nD) (b : Ref sig .tc) (h0 : b ∉ hostOps0_W) (n3 : b ≠ main_v3) (h1 : b ∉ hostOps1_W) (n7 : b ≠ main_v7) (h2 : b ∉ hostOps2_W) (n29 : b ≠ main_v29) : W6 m ρ c (Proc.devRef .tc b) = m ((c : Thread nD τ).loc b) :=
  (W6_keep m ρ c b n29).trans (W5_arg m ρ c b h0 n3 h1 n7 h2)
theorem W7_arg (c : Dev nD) (b : Ref sig .tc) (h0 : b ∉ hostOps0_W) (n3 : b ≠ main_v3) (h1 : b ∉ hostOps1_W) (n7 : b ≠ main_v7) (h2 : b ∉ hostOps2_W) (n29 : b ≠ main_v29) (h3 : b ∉ hostOps3_W) : W7 m ρ c (Proc.devRef .tc b) = m ((c : Thread nD τ).loc b) :=
  (StableHlo.after_of_writes_sub hostOps3 _ hostOps3_writes h3).trans (W6_arg m ρ c b h0 n3 h1 n7 h2 n29)

/-- THE RUN, READ: the result buffer at the last boundary's contents, every argument as launched. -/
theorem run_val : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨h c _ (mem_uc main_v32 (by decide)),
    (h c _ (mem_uc main_arg0 (by decide))).trans (W7_arg m ρ c main_arg0 (by decide) (by decide) (by decide) (by decide) (by decide) (by decide) (by decide)),
    (h c _ (mem_uc main_arg1 (by decide))).trans (W7_arg m ρ c main_arg1 (by decide) (by decide) (by decide) (by decide) (by decide) (by decide) (by decide)),
    (h c _ (mem_uc main_arg2 (by decide))).trans (W7_arg m ρ c main_arg2 (by decide) (by decide) (by decide) (by decide) (by decide) (by decide) (by decide)),
    (h c _ (mem_uc main_arg3 (by decide))).trans (W7_arg m ρ c main_arg3 (by decide) (by decide) (by decide) (by decide) (by decide) (by decide) (by decide)),
    (h c _ (mem_uc main_arg4 (by decide))).trans (W7_arg m ρ c main_arg4 (by decide) (by decide) (by decide) (by decide) (by decide) (by decide) (by decide)),
    (h c _ (mem_uc main_arg5 (by decide))).trans (W7_arg m ρ c main_arg5 (by decide) (by decide) (by decide) (by decide) (by decide) (by decide) (by decide)),
    (h c _ (mem_uc main_arg6 (by decide))).trans (W7_arg m ρ c main_arg6 (by decide) (by decide) (by decide) (by decide) (by decide) (by decide) (by decide)),
    (h c _ (mem_uc main_arg7 (by decide))).trans (W7_arg m ρ c main_arg7 (by decide) (by decide) (by decide) (by decide) (by decide) (by decide) (by decide)),
    (h c _ (mem_uc main_arg8 (by decide))).trans (W7_arg m ρ c main_arg8 (by decide) (by decide) (by decide) (by decide) (by decide) (by decide) (by decide)),
    (h c _ (mem_uc main_arg9 (by decide))).trans (W7_arg m ρ c main_arg9 (by decide) (by decide) (by decide) (by decide) (by decide) (by decide) (by decide)),
    (h c _ (mem_uc main_arg10 (by decide))).trans (W7_arg m ρ c main_arg10 (by decide) (by decide) (by decide) (by decide) (by decide) (by decide) (by decide)),
    (h c _ (mem_uc main_arg11 (by decide))).trans (W7_arg m ρ c main_arg11 (by decide) (by decide) (by decide) (by decide) (by decide) (by decide) (by decide))⟩) (run_all m ρ)

/-- THE FRAME: every weakly fair execution terminates, nothing faulting, and the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => (h c).2) (run_val m ρ)

end Cert.KernelIdeal.Fr

end
-- ==== Proof.Spec.lean ====
/-
  The mathematics both programs compute, entry by entry on the extended reals.

  One graph-convolution layer: entry (p, q) of  logistic (A · XW + b)  is the logistic function of the sum over k of
  A (p, k) · XW (k, q), plus the bias b (0, q).  One edge classifier: row r of  softmax (relu (ES · Wd + bd) · Wo + bo)
  reads only row r of ES: a hidden row d u = max (Σ_a ES (r, a) · Wd (a, u) + bd (0, u)) 0, two logits
  l c = Σ_u d u · Wo (u, c) + bo (0, c), their maximum taken from −∞, and the exponentials of the shifted logits divided
  by their sum.
-/
import Idealize.ShloMosaic.PureOps.Ideal
import Idealize.ShloMosaic.Lib.ValueIdx

noncomputable section

namespace Cert.Spec

open Idealize.ShloMosaic Idealize.ShloMosaic.ValueIdx

/-- A dense a × b array of extended reals, read at rank-2 indices. -/
abbrev Mat (a b : Nat) : Type := (⟨2, ![a, b]⟩ : Shape).Idx → EReal

/-- Entry (p, q) of one graph-convolution layer: logistic (Σ_k A (p, k) · XW (k, q) + b (0, q)). -/
def gcnAt {n h : Nat} (A : Mat n n) (XW : Mat n h) (b : Mat 1 h) (p : Fin n) (q : Fin h) : EReal :=
  Ideal.logistic ((∑ k : Fin n, A (ix2 p k) * XW (ix2 k q)) + b (ix2 0 q))

/-- The layer as an array. -/
def gcn {n h : Nat} (A : Mat n n) (XW : Mat n h) (b : Mat 1 h) : Mat n h :=
  fun j => gcnAt A XW b (j 0) (j 1)

/-- The hidden row of the edge classifier: max (Σ_a x a · Wd (a, u) + bd (0, u)) 0. -/
def hidden (x : Fin 128 → EReal) (Wd : Mat 128 256) (bd : Mat 1 256) (u : Fin 256) : EReal :=
  max ((∑ a : Fin 128, x a * Wd (ix2 a u)) + bd (ix2 0 u)) 0

/-- The two logits of a row. -/
def logit (x : Fin 128 → EReal) (Wd : Mat 128 256) (bd : Mat 1 256) (Wo : Mat 256 2) (bo : Mat 1 2) (c : Fin 2) : EReal :=
  (∑ u : Fin 256, hidden x Wd bd u * Wo (ix2 u c)) + bo (ix2 0 c)

/-- The row's shift: the larger logit, the maximum taken from −∞. -/
def shift (l : Fin 2 → EReal) : EReal := max ⊥ (max (max ⊥ (l 0)) (l 1))

/-- A softmax of two logits: exp (l c − shift) over the sum of both exponentials. -/
def softmax2 (l : Fin 2 → EReal) (c : Fin 2) : EReal :=
  Ideal.div (Ideal.exp (l c - shift l)) (∑ c' : Fin 2, Ideal.exp (l c' - shift l))

/-- Entry (r, c) of the edge classifier. -/
def mlpAt {e : Nat} (ES : Mat e 128) (Wd : Mat 128 256) (bd : Mat 1 256) (Wo : Mat 256 2) (bo : Mat 1 2) (r : Fin e) (c : Fin 2) : EReal :=
  softmax2 (logit (fun a => ES (ix2 r a)) Wd bd Wo bo) c

/-- The edge classifier as an array. -/
def mlp {e : Nat} (ES : Mat e 128) (Wd : Mat 128 256) (bd : Mat 1 256) (Wo : Mat 256 2) (bo : Mat 1 2) : Mat e 2 :=
  fun j => mlpAt ES Wd bd Wo bo (j 0) (j 1)

end Cert.Spec

end
-- ==== Proof.PayGcn.lean ====
/-
  What the two graph-convolution kernel bodies compute, entry by entry on the extended reals: the accumulator's reset is
  the zero array, one step adds a block's partial product Σ_k A (p, k) · XW (k, q) to the accumulator, and the last step
  applies the logistic function to the accumulator plus the bias row.
-/
import proofs.«142677_j5446018531553_2_alg».proof.Proof.Gen.KernelIdeal.Skeleton
import proofs.«142677_j5446018531553_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-- The product of an m × k matrix by a k × n matrix, accumulated into the zero array, read at (a, b):
    Σ_c A (a, c) · B (c, b). -/
theorem matmul_zero_ix2 {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The first layer's reset value is 0 at every entry. -/
theorem pay_zero0 (p : Fin 1024) (q : Fin 64) : Gen.k0_pay1 (F := Ideal) (ix2 p q) = 0 := by
  unfold Gen.k0_pay1
  rw [shapeCast_self]
  exact Ideal.ofBits_zero_f32

/-- The second layer's reset value is 0 at every entry. -/
theorem pay_zero1 (p : Fin 1024) (q : Fin 64) : Gen.k1_pay1 (F := Ideal) (ix2 p q) = 0 := by
  unfold Gen.k1_pay1
  rw [shapeCast_self]
  exact Ideal.ofBits_zero_f32

/-- One accumulation step of the first layer at (p, q): the accumulator plus Σ_k A (p, k) · XW (k, q) over the block's
    2048 columns. -/
theorem pay_acc0 (v3 : Vec Ideal S1024x2048 .f32) (v5 : Vec Ideal S2048x64 .bf16) (v7 : Vec Ideal S1024x64 .f32)
    (p : Fin 1024) (q : Fin 64) :
    Gen.k0_pay2 v3 v5 v7 (ix2 p q) = v7 (ix2 p q) + ∑ k : Fin 2048, v3 (ix2 p k) * v5 (ix2 k q) := by
  unfold Gen.k0_pay2
  rw [shapeCast_self, shapeCast_self, addf_apply]
  refine congrArg (v7 (ix2 p q) + ·) ?_
  exact matmul_zero_ix2 dot_S1024x2048_S2048x64_S1024x64_1_0_0_1_n_n_wf none _ _ p q

/-- One accumulation step of the second layer at (p, q). -/
theorem pay_acc1 (v3 : Vec Ideal S1024x2048 .f32) (v5 : Vec Ideal S2048x64 .bf16) (v7 : Vec Ideal S1024x64 .f32)
    (p : Fin 1024) (q : Fin 64) :
    Gen.k1_pay2 v3 v5 v7 (ix2 p q) = v7 (ix2 p q) + ∑ k : Fin 2048, v3 (ix2 p k) * v5 (ix2 k q) := by
  unfold Gen.k1_pay2
  rw [shapeCast_self, shapeCast_self, addf_apply]
  refine congrArg (v7 (ix2 p q) + ·) ?_
  exact matmul_zero_ix2 dot_S1024x2048_S2048x64_S1024x64_1_0_0_1_n_n_wf none _ _ p q

/-- The first layer's output at (p, q): the logistic function of the accumulator plus the bias b (0, q). -/
theorem pay_out0 (v16 : Vec Ideal S1024x64 .f32) (v17 : Vec Ideal S1x64 .f32) (p : Fin 1024) (q : Fin 64) :
    Gen.k0_pay3 v16 v17 (ix2 p q) = Ideal.logistic (v16 (ix2 p q) + v17 (ix2 0 q)) := by
  unfold Gen.k0_pay3
  rw [shapeCast_self]
  show Ideal.logistic (v16 (ix2 p q) + broadcastTo S1024x64 v17 broadcasts_S1x64_S1024x64 (ix2 p q)) = _
  rw [broadcastTo_1b_ab_apply]

/-- The second layer's output at (p, q): the same; the final narrowing of the format is the identity on extended reals. -/
theorem pay_out1 (v16 : Vec Ideal S1024x64 .f32) (v17 : Vec Ideal S1x64 .f32) (p : Fin 1024) (q : Fin 64) :
    Gen.k1_pay3 v16 v17 (ix2 p q) = Ideal.logistic (v16 (ix2 p q) + v17 (ix2 0 q)) := by
  unfold Gen.k1_pay3
  rw [shapeCast_self]
  show Ideal.logistic (v16 (ix2 p q) + broadcastTo S1024x64 v17 broadcasts_S1x64_S1024x64 (ix2 p q)) = _
  rw [broadcastTo_1b_ab_apply]

end Cert.KernelIdeal.Pay

end
-- ==== Proof.BlockSum.lean ====
/-
  A sum over 16384 terms cut into 8 blocks of 2048: the sum of the blocks' sums is the whole sum, and the running sum
  over the first n blocks grows by one block's sum at each step.
-/
import Idealize.ShloMosaic.PureOps.Ideal

noncomputable section

namespace Cert.BlockSum

open scoped BigOperators

/-- A sum over nb · bs terms is the sum, over the nb blocks, of each block's bs terms: term k of block b is term
    b · bs + k of the whole. -/
theorem sum_blocks_gen {M : Type*} [AddCommMonoid M] (nb bs : ℕ) (f : Fin (nb * bs) → M) :
    (∑ b : Fin nb, ∑ k : Fin bs, f ⟨b.val * bs + k.val,
        Nat.lt_of_lt_of_le (Nat.add_lt_add_left k.isLt _)
          (by rw [← Nat.succ_mul]; exact Nat.mul_le_mul_right _ b.isLt)⟩) = ∑ k : Fin (nb * bs), f k := by
  rw [← Equiv.sum_comp (finProdFinEquiv (m := nb) (n := bs)) f, Fintype.sum_prod_type]
  refine Finset.sum_congr rfl fun b _ => Finset.sum_congr rfl fun k _ => congrArg f (Fin.ext ?_)
  show b.val * bs + k.val = k.val + bs * b.val
  rw [Nat.mul_comm, Nat.add_comm]

/-- A sum over 8 blocks of 2048 is the sum over 16384. -/
theorem sum_blocks (f : Fin 16384 → EReal) :
    (∑ b : Fin 8, ∑ k : Fin 2048, f ⟨b.val * 2048 + k.val, by omega⟩) = ∑ k : Fin 16384, f k :=
  sum_blocks_gen 8 2048 f

/-- The running sum over the first n blocks, block b's terms being g b. -/
def partialSum (g : ℕ → Fin 2048 → EReal) (n : ℕ) : EReal := ∑ b ∈ Finset.range n, ∑ k : Fin 2048, g b k

/-- Before the first block the running sum is 0. -/
theorem partialSum_zero (g : ℕ → Fin 2048 → EReal) : partialSum g 0 = 0 := by
  unfold partialSum
  rw [Finset.range_zero, Finset.sum_empty]

/-- One more block adds that block's sum. -/
theorem partialSum_succ (g : ℕ → Fin 2048 → EReal) (n : ℕ) :
    partialSum g (n + 1) = partialSum g n + ∑ k : Fin 2048, g n k := by
  unfold partialSum
  rw [Finset.sum_range_succ]

/-- After all 8 blocks the running sum is the sum over 16384, when block b's term k is term b · 2048 + k of the whole. -/
theorem partialSum_eight (g : ℕ → Fin 2048 → EReal) (f : Fin 16384 → EReal)
    (h : ∀ (b : Fin 8) (k : Fin 2048), g b.val k = f ⟨b.val * 2048 + k.val, by omega⟩) :
    partialSum g 8 = ∑ k : Fin 16384, f k := by
  unfold partialSum
  rw [← Fin.sum_univ_eq_sum_range (fun b => ∑ k : Fin 2048, g b k) 8, ← sum_blocks f]
  exact Finset.sum_congr rfl fun b _ => Finset.sum_congr rfl fun k _ => h b k

end Cert.BlockSum

end
-- ==== Proof.ValGcn0.lean ====
/-
  The first graph-convolution region, read as values on the extended reals: what its output array holds after the run
  is the layer of the specification, logistic (A · XW + b), of the arrays the region finds. A grid point t has row block
  t / 8 and reduction block t % 8; the accumulator after point t holds the partial sums over the reduction blocks
  0 … t % 8; the output block is written at the points with t % 8 = 7, where the partial sum is the whole sum.
-/
import proofs.«142677_j5446018531553_2_alg».proof.Proof.FrReg0
import proofs.«142677_j5446018531553_2_alg».proof.Proof.PayGcn
import proofs.«142677_j5446018531553_2_alg».proof.Proof.BlockSum
import proofs.«142677_j5446018531553_2_alg».proof.Proof.Spec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 0 -/

/-- The adjacency array, the projected features and the bias row as the region finds them, as matrices. -/
abbrev A0 (c : Dev nD) : Cert.Spec.Mat 16384 16384 := V c main_arg1
abbrev XW0 (c : Dev nD) : Cert.Spec.Mat 16384 64 := V c main_v1
abbrev B0 (c : Dev nD) : Cert.Spec.Mat 1 64 := V c main_v2

/-- The region has 128 grid points. -/
theorem lt0 (t : Fin cfg0.N) : t.val < 128 := lt_of_lt_of_eq t.isLt (show cfg0.N = 128 from N_0)

/-- The windows' block indices at point t: A's block is (t / 8, t % 8), XW's (t % 8, 0), the bias's (0, 0), the
    output's (t / 8, 0). -/
theorem idx_facts0 : ∀ t : Fin cfg0.N,
    win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = 0 ∧ win0_2.index t (1 : Fin 2) = 0
    ∧ win0_3.index t (0 : Fin 2) = t.val / 8 ∧ win0_3.index t (1 : Fin 2) = 0 :=
  (by decide +kernel : ∀ t : Fin grid0.N, _)

/-- Row p of point t's row block, as a row of the whole array. -/
def row0 (t : Fin cfg0.N) (p : Fin 1024) : Fin 16384 := ⟨t.val / 8 * 1024 + p.val, by have := lt0 t; omega⟩

/-- Column k of reduction block b, as a column of the whole array (b read modulo 8). -/
def red (b : ℕ) (k : Fin 2048) : Fin 16384 := ⟨b % 8 * 2048 + k.val, by omega⟩

/-- A's block at point t, entry (p, k): A at (row p of the row block, column k of the reduction block). -/
theorem iblk0_0_apply (c : Dev nD) (t : Fin cfg0.N) (p : Fin 1024) (k : Fin 2048) :
    Fr.iblk0 V c 0 t (ix2 p k) = A0 V c (ix2 (row0 t p) (red t.val k)) := by
  obtain ⟨e0, e1, -⟩ := idx_facts0 t
  show V c main_arg1 (((cfg0.win 0).blk t).view.emb (ix2 p k)) = _
  refine congrArg (V c main_arg1) (funext fun a => Fin.ext ?_)
  match a with
  | ⟨0, _⟩ => show win0_0.index t (0 : Fin 2) * 1024 + 1 * p.val = t.val / 8 * 1024 + p.val; rw [e0]; omega
  | ⟨1, _⟩ => show win0_0.index t (1 : Fin 2) * 2048 + 1 * k.val = t.val % 8 * 2048 + k.val; rw [e1]; omega

/-- XW's block at point t, entry (k, q): XW at (column k of the reduction block, q). -/
theorem iblk0_1_apply (c : Dev nD) (t : Fin cfg0.N) (k : Fin 2048) (q : Fin 64) :
    Fr.iblk0 V c 1 t (ix2 k q) = XW0 V c (ix2 (red t.val k) q) := by
  obtain ⟨-, -, e0, e1, -⟩ := idx_facts0 t
  show V c main_v1 (((cfg0.win 1).blk t).view.emb (ix2 k q)) = _
  refine congrArg (V c main_v1) (funext fun a => Fin.ext ?_)
  match a with
  | ⟨0, _⟩ => show win0_1.index t (0 : Fin 2) * 2048 + 1 * k.val = t.val % 8 * 2048 + k.val; rw [e0]; omega
  | ⟨1, _⟩ => show win0_1.index t (1 : Fin 2) * 64 + 1 * q.val = q.val; rw [e1]; omega

/-- The bias's block at every point is the bias row. -/
theorem iblk0_2_apply (c : Dev nD) (t : Fin cfg0.N) (z : Fin 1) (q : Fin 64) :
    Fr.iblk0 V c 2 t (ix2 z q) = B0 V c (ix2 z q) := by
  obtain ⟨-, -, -, -, e0, e1, -⟩ := idx_facts0 t
  show V c main_v2 (((cfg0.win 2).blk t).view.emb (ix2 z q)) = _
  refine congrArg (V c main_v2) (funext fun a => Fin.ext ?_)
  match a with
  | ⟨0, _⟩ => show win0_2.index t (0 : Fin 2) * 1 + 1 * z.val = z.val; rw [e0]; omega
  | ⟨1, _⟩ => show win0_2.index t (1 : Fin 2) * 64 + 1 * q.val = q.val; rw [e1]; omega

/-- The summand of entry (r, q) of A · XW at column k of reduction block b. -/
def term0 (c : Dev nD) (r : Fin 16384) (q : Fin 64) (b : ℕ) (k : Fin 2048) : EReal :=
  A0 V c (ix2 r (red b k)) * XW0 V c (ix2 (red b k) q)

/-- One accumulation step at point t, entry (p, q): what was accumulated plus the summands of t's reduction block. -/
theorem step0_apply (c : Dev nD) (t : Fin cfg0.N) (acc : Vec Ideal S1024x64 .f32) (p : Fin 1024) (q : Fin 64) :
    k0_pay2 (Fr.iblk0 V c 0 t) (Fr.iblk0 V c 1 t) acc (ix2 p q)
      = acc (ix2 p q) + ∑ k : Fin 2048, term0 V c (row0 t p) q t.val k := by
  rw [Pay.pay_acc0]
  refine congrArg (acc (ix2 p q) + ·) (Finset.sum_congr rfl fun k _ => ?_)
  rw [iblk0_0_apply, iblk0_1_apply]
  rfl

/-- The accumulator after position n, entry (p, q): the partial sum of entry (row, q) of A · XW over the reduction
    blocks 0 … n % 8. -/
theorem acc0_apply (c : Dev nD) : ∀ (n : ℕ) (hn : n < cfg0.N) (p : Fin 1024) (q : Fin 64),
    Fr.acc0 V c n hn (ix2 p q) = BlockSum.partialSum (term0 V c (row0 ⟨n, hn⟩ p) q) (n % 8 + 1) := by
  intro n
  induction n with
  | zero =>
    intro hn p q
    rw [show Fr.acc0 V c 0 hn = k0_pay2 (Fr.iblk0 V c 0 ⟨0, hn⟩) (Fr.iblk0 V c 1 ⟨0, hn⟩) (k0_pay1 (F := Ideal)) from rfl,
      step0_apply, Pay.pay_zero0, BlockSum.partialSum_succ, BlockSum.partialSum_zero]
  | succ m ih =>
    intro hn p q
    have hN : m + 1 < 128 := lt0 ⟨m + 1, hn⟩
    by_cases h0 : (m + 1) % 8 = 0
    · rw [Fr.acc0_first V c ⟨m + 1, hn⟩ h0, step0_apply, Pay.pay_zero0,
        show (m + 1) % 8 + 1 = 0 + 1 from by rw [h0], BlockSum.partialSum_succ, BlockSum.partialSum_zero]
      refine congrArg (0 + ·) (Finset.sum_congr rfl fun k _ => ?_)
      show term0 V c _ q (m + 1) k = term0 V c _ q 0 k
      unfold term0 red
      simp only [h0, Nat.zero_mod]
    · rw [Fr.acc0_next V c ⟨m + 1, hn⟩ h0, step0_apply]
      show Fr.acc0 V c m _ (ix2 p q) + _ = _
      rw [ih (Nat.lt_of_succ_lt hn) p q]
      have hr : row0 ⟨m, Nat.lt_of_succ_lt hn⟩ p = row0 ⟨m + 1, hn⟩ p := Fin.ext (by
        show m / 8 * 1024 + p.val = (m + 1) / 8 * 1024 + p.val
        omega)
      have hm : m % 8 + 1 = (m + 1) % 8 := by omega
      rw [hr, hm, BlockSum.partialSum_succ]
      refine congrArg (BlockSum.partialSum _ _ + ·) (Finset.sum_congr rfl fun k _ => ?_)
      show term0 V c _ q (m + 1) k = term0 V c _ q ((m + 1) % 8) k
      unfold term0 red
      simp only [Nat.mod_mod]

/-- At a point that writes the output block back (t % 8 = 7) the accumulator holds the whole sum over 16384. -/
theorem acc0_full (c : Dev nD) (t : Fin cfg0.N) (h7 : t.val % 8 = 7) (p : Fin 1024) (q : Fin 64) :
    Fr.acc0 V c t.val t.isLt (ix2 p q)
      = ∑ j : Fin 16384, A0 V c (ix2 (row0 t p) j) * XW0 V c (ix2 j q) := by
  rw [acc0_apply, show t.val % 8 + 1 = 8 from by omega]
  exact BlockSum.partialSum_eight _ (fun j => A0 V c (ix2 (row0 t p) j) * XW0 V c (ix2 j q)) (fun b k => by
    have e : red b.val k = ⟨b.val * 2048 + k.val, by omega⟩ := Fin.ext (by
      show b.val % 8 * 2048 + k.val = _
      rw [Nat.mod_eq_of_lt b.isLt])
    show A0 V c (ix2 _ (red b.val k)) * XW0 V c (ix2 (red b.val k) q) = _
    rw [e])

/-- The output window's block at point t, read off any array G, at entry (p, q): G at (row p of the row block, q). -/
theorem read_out0 (t : Fin cfg0.N) (G : Cert.Spec.Mat 16384 64) (p : Fin 1024) (q : Fin 64) :
    ((cfg0.win 3).blk t).view.read (Elt Ideal) G (ix2 p q) = G (ix2 (row0 t p) q) := by
  obtain ⟨-, -, -, -, -, -, e0, e1⟩ := idx_facts0 t
  show G (((cfg0.win 3).blk t).view.emb (ix2 p q)) = _
  refine congrArg G (funext fun a => Fin.ext ?_)
  match a with
  | ⟨0, _⟩ => show win0_3.index t (0 : Fin 2) * 1024 + 1 * p.val = t.val / 8 * 1024 + p.val; rw [e0]; omega
  | ⟨1, _⟩ => show win0_3.index t (1 : Fin 2) * 64 + 1 * q.val = q.val; rw [e1]; omega

/-- What a writing point t writes back is its block of the layer of the specification. -/
theorem flushed0_eq (c : Dev nD) (t : Fin cfg0.N) (hf : (cfg0.win 3).flush t = true) :
    (Fr.dat0 (F := Ideal) V c).flushed 3 t
      = ((cfg0.win 3).blk t).view.read (Elt Ideal) (Cert.Spec.gcn (V c main_arg1) (V c main_v1) (V c main_v2)) := by
  have h7 : t.val % 8 = 7 := (flush0_3 t).mp hf
  show (cfg0.win 3).cut (grid0.coords t) ((Fr.dat0 (F := Ideal) V c).after 3 t) = _
  rw [Fr.after0_3]
  funext j
  have hj0 : (j 0).val < 1024 := (j 0).isLt
  have hj1 : (j 1).val < 64 := (j 1).isLt
  obtain ⟨p, q, rfl⟩ : ∃ (p : Fin 1024) (q : Fin 64), j = ix2 p q :=
    ⟨⟨(j 0).val, hj0⟩, ⟨(j 1).val, hj1⟩, funext fun a => match a with | ⟨0, _⟩ => rfl | ⟨1, _⟩ => rfl⟩
  refine Eq.trans (b := k0_pay3 (Fr.acc0 V c t.val t.isLt) (Fr.iblk0 V c 2 t) (ix2 p q)) rfl ?_
  refine Eq.trans ?_ (read_out0 t (Cert.Spec.gcn (A0 V c) (XW0 V c) (B0 V c)) p q).symm
  rw [Pay.pay_out0, acc0_full V c t h7, iblk0_2_apply]
  rfl

/-- An index of the output array is in point t's block iff each coordinate is in the block's range on its axis. -/
theorem mem_blk0 (t : Fin cfg0.N) (i : S16384x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v3).slice (win0_3.rect t)).set ↔ _
  rw [View.set_slice_whole, Rect.mem_set_unit]
  exact Iff.rfl

/-- Every index of the output array is in the block of a writing point: row r in that of point (r / 1024) · 8 + 7. -/
theorem cover0 (i : S16384x64.Idx) :
    ∃ t : Fin cfg0.N, (cfg0.win 3).flush t = true ∧ i ∈ ((cfg0.win 3).blk t).view.set := by
  have hi0 : (i 0).val < 16384 := (i 0).isLt
  have hi1 : (i 1).val < 64 := (i 1).isLt
  have hN : cfg0.N = 128 := N_0
  have ht : (i 0).val / 1024 * 8 + 7 < cfg0.N := by rw [hN]; omega
  obtain ⟨-, -, -, -, -, -, e0, e1⟩ := idx_facts0 ⟨(i 0).val / 1024 * 8 + 7, ht⟩
  refine ⟨⟨(i 0).val / 1024 * 8 + 7, ht⟩, (flush0_3 _).mpr (by show ((i 0).val / 1024 * 8 + 7) % 8 = 7; omega), ?_⟩
  rw [mem_blk0]
  intro a
  match a with
  | ⟨0, _⟩ =>
    show win0_3.index ⟨(i 0).val / 1024 * 8 + 7, ht⟩ (0 : Fin 2) * 1024 ≤ (i 0).val
      ∧ (i 0).val < win0_3.index ⟨(i 0).val / 1024 * 8 + 7, ht⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win0_3.index ⟨(i 0).val / 1024 * 8 + 7, ht⟩ (1 : Fin 2) * 64 ≤ (i 1).val
      ∧ (i 1).val < win0_3.index ⟨(i 0).val / 1024 * 8 + 7, ht⟩ (1 : Fin 2) * 64 + 64
    rw [e1]
    omega

/-- THE OUTPUT ARRAY after the region: the layer of the specification of the arrays the region finds. -/
theorem final0 (c : Dev nD) :
    (Fr.dat0 (F := Ideal) V c).arrAt 3 cfg0.N = Cert.Spec.gcn (V c main_arg1) (V c main_v1) (V c main_v2) :=
  (Fr.dat0 (F := Ideal) V c).arrAt_eq_of_cover 3 _ (fun t hf => flushed0_eq V c t hf) (fun i => cover0 i)

end Cert.KernelIdeal.Val

end
-- ==== Proof.ValGcn1.lean ====
/-
  The second graph-convolution region, read as values on the extended reals: what its output array holds after the run
  is the layer of the specification, logistic (A · XW + b), of the arrays the region finds. A grid point t has row block
  t / 8 and reduction block t % 8; the accumulator after point t holds the partial sums over the reduction blocks
  0 … t % 8; the output block is written at the points with t % 8 = 7, where the partial sum is the whole sum.
-/
import proofs.«142677_j5446018531553_2_alg».proof.Proof.FrReg1
import proofs.«142677_j5446018531553_2_alg».proof.Proof.PayGcn
import proofs.«142677_j5446018531553_2_alg».proof.Proof.BlockSum
import proofs.«142677_j5446018531553_2_alg».proof.Proof.Spec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 1 -/

/-- The adjacency array, the projected features and the bias row as the region finds them, as matrices. -/
abbrev A1 (c : Dev nD) : Cert.Spec.Mat 16384 16384 := V c main_arg1
abbrev XW1 (c : Dev nD) : Cert.Spec.Mat 16384 64 := V c main_v5
abbrev B1 (c : Dev nD) : Cert.Spec.Mat 1 64 := V c main_v6

/-- The region has 128 grid points. -/
theorem lt1 (t : Fin cfg1.N) : t.val < 128 := lt_of_lt_of_eq t.isLt (show cfg1.N = 128 from N_1)

/-- The windows' block indices at point t: A's block is (t / 8, t % 8), XW's (t % 8, 0), the bias's (0, 0), the
    output's (t / 8, 0). -/
theorem idx_facts1 : ∀ t : Fin cfg1.N,
    win1_0.index t (0 : Fin 2) = t.val / 8 ∧ win1_0.index t (1 : Fin 2) = t.val % 8
    ∧ win1_1.index t (0 : Fin 2) = t.val % 8 ∧ win1_1.index t (1 : Fin 2) = 0
    ∧ win1_2.index t (0 : Fin 2) = 0 ∧ win1_2.index t (1 : Fin 2) = 0
    ∧ win1_3.index t (0 : Fin 2) = t.val / 8 ∧ win1_3.index t (1 : Fin 2) = 0 :=
  (by decide +kernel : ∀ t : Fin grid1.N, _)

/-- Row p of point t's row block, as a row of the whole array. -/
def row1 (t : Fin cfg1.N) (p : Fin 1024) : Fin 16384 := ⟨t.val / 8 * 1024 + p.val, by have := lt1 t; omega⟩

/-- Column k of reduction block b, as a column of the whole array (b read modulo 8). -/
def red1 (b : ℕ) (k : Fin 2048) : Fin 16384 := ⟨b % 8 * 2048 + k.val, by omega⟩

/-- A's block at point t, entry (p, k): A at (row p of the row block, column k of the reduction block). -/
theorem iblk1_0_apply (c : Dev nD) (t : Fin cfg1.N) (p : Fin 1024) (k : Fin 2048) :
    Fr.iblk1 V c 0 t (ix2 p k) = A1 V c (ix2 (row1 t p) (red1 t.val k)) := by
  obtain ⟨e0, e1, -⟩ := idx_facts1 t
  show V c main_arg1 (((cfg1.win 0).blk t).view.emb (ix2 p k)) = _
  refine congrArg (V c main_arg1) (funext fun a => Fin.ext ?_)
  match a with
  | ⟨0, _⟩ => show win1_0.index t (0 : Fin 2) * 1024 + 1 * p.val = t.val / 8 * 1024 + p.val; rw [e0]; omega
  | ⟨1, _⟩ => show win1_0.index t (1 : Fin 2) * 2048 + 1 * k.val = t.val % 8 * 2048 + k.val; rw [e1]; omega

/-- XW's block at point t, entry (k, q): XW at (column k of the reduction block, q). -/
theorem iblk1_1_apply (c : Dev nD) (t : Fin cfg1.N) (k : Fin 2048) (q : Fin 64) :
    Fr.iblk1 V c 1 t (ix2 k q) = XW1 V c (ix2 (red1 t.val k) q) := by
  obtain ⟨-, -, e0, e1, -⟩ := idx_facts1 t
  show V c main_v5 (((cfg1.win 1).blk t).view.emb (ix2 k q)) = _
  refine congrArg (V c main_v5) (funext fun a => Fin.ext ?_)
  match a with
  | ⟨0, _⟩ => show win1_1.index t (0 : Fin 2) * 2048 + 1 * k.val = t.val % 8 * 2048 + k.val; rw [e0]; omega
  | ⟨1, _⟩ => show win1_1.index t (1 : Fin 2) * 64 + 1 * q.val = q.val; rw [e1]; omega

/-- The bias's block at every point is the bias row. -/
theorem iblk1_2_apply (c : Dev nD) (t : Fin cfg1.N) (z : Fin 1) (q : Fin 64) :
    Fr.iblk1 V c 2 t (ix2 z q) = B1 V c (ix2 z q) := by
  obtain ⟨-, -, -, -, e0, e1, -⟩ := idx_facts1 t
  show V c main_v6 (((cfg1.win 2).blk t).view.emb (ix2 z q)) = _
  refine congrArg (V c main_v6) (funext fun a => Fin.ext ?_)
  match a with
  | ⟨0, _⟩ => show win1_2.index t (0 : Fin 2) * 1 + 1 * z.val = z.val; rw [e0]; omega
  | ⟨1, _⟩ => show win1_2.index t (1 : Fin 2) * 64 + 1 * q.val = q.val; rw [e1]; omega

/-- The summand of entry (r, q) of A · XW at column k of reduction block b. -/
def term1 (c : Dev nD) (r : Fin 16384) (q : Fin 64) (b : ℕ) (k : Fin 2048) : EReal :=
  A1 V c (ix2 r (red1 b k)) * XW1 V c (ix2 (red1 b k) q)

/-- One accumulation step at point t, entry (p, q): what was accumulated plus the summands of t's reduction block. -/
theorem step1_apply (c : Dev nD) (t : Fin cfg1.N) (acc : Vec Ideal S1024x64 .f32) (p : Fin 1024) (q : Fin 64) :
    k1_pay2 (Fr.iblk1 V c 0 t) (Fr.iblk1 V c 1 t) acc (ix2 p q)
      = acc (ix2 p q) + ∑ k : Fin 2048, term1 V c (row1 t p) q t.val k := by
  rw [Pay.pay_acc1]
  refine congrArg (acc (ix2 p q) + ·) (Finset.sum_congr rfl fun k _ => ?_)
  rw [iblk1_0_apply, iblk1_1_apply]
  rfl

/-- The accumulator after position n, entry (p, q): the partial sum of entry (row, q) of A · XW over the reduction
    blocks 0 … n % 8. -/
theorem acc1_apply (c : Dev nD) : ∀ (n : ℕ) (hn : n < cfg1.N) (p : Fin 1024) (q : Fin 64),
    Fr.acc1 V c n hn (ix2 p q) = BlockSum.partialSum (term1 V c (row1 ⟨n, hn⟩ p) q) (n % 8 + 1) := by
  intro n
  induction n with
  | zero =>
    intro hn p q
    rw [show Fr.acc1 V c 0 hn = k1_pay2 (Fr.iblk1 V c 0 ⟨0, hn⟩) (Fr.iblk1 V c 1 ⟨0, hn⟩) (k1_pay1 (F := Ideal)) from rfl,
      step1_apply, Pay.pay_zero1, BlockSum.partialSum_succ, BlockSum.partialSum_zero]
  | succ m ih =>
    intro hn p q
    have hN : m + 1 < 128 := lt1 ⟨m + 1, hn⟩
    by_cases h0 : (m + 1) % 8 = 0
    · rw [Fr.acc1_first V c ⟨m + 1, hn⟩ h0, step1_apply, Pay.pay_zero1,
        show (m + 1) % 8 + 1 = 0 + 1 from by rw [h0], BlockSum.partialSum_succ, BlockSum.partialSum_zero]
      refine congrArg (0 + ·) (Finset.sum_congr rfl fun k _ => ?_)
      show term1 V c _ q (m + 1) k = term1 V c _ q 0 k
      unfold term1 red1
      simp only [h0, Nat.zero_mod]
    · rw [Fr.acc1_next V c ⟨m + 1, hn⟩ h0, step1_apply]
      show Fr.acc1 V c m _ (ix2 p q) + _ = _
      rw [ih (Nat.lt_of_succ_lt hn) p q]
      have hr : row1 ⟨m, Nat.lt_of_succ_lt hn⟩ p = row1 ⟨m + 1, hn⟩ p := Fin.ext (by
        show m / 8 * 1024 + p.val = (m + 1) / 8 * 1024 + p.val
        omega)
      have hm : m % 8 + 1 = (m + 1) % 8 := by omega
      rw [hr, hm, BlockSum.partialSum_succ]
      refine congrArg (BlockSum.partialSum _ _ + ·) (Finset.sum_congr rfl fun k _ => ?_)
      show term1 V c _ q (m + 1) k = term1 V c _ q ((m + 1) % 8) k
      unfold term1 red1
      simp only [Nat.mod_mod]

/-- At a point that writes the output block back (t % 8 = 7) the accumulator holds the whole sum over 16384. -/
theorem acc1_full (c : Dev nD) (t : Fin cfg1.N) (h7 : t.val % 8 = 7) (p : Fin 1024) (q : Fin 64) :
    Fr.acc1 V c t.val t.isLt (ix2 p q)
      = ∑ j : Fin 16384, A1 V c (ix2 (row1 t p) j) * XW1 V c (ix2 j q) := by
  rw [acc1_apply, show t.val % 8 + 1 = 8 from by omega]
  exact BlockSum.partialSum_eight _ (fun j => A1 V c (ix2 (row1 t p) j) * XW1 V c (ix2 j q)) (fun b k => by
    have e : red1 b.val k = ⟨b.val * 2048 + k.val, by omega⟩ := Fin.ext (by
      show b.val % 8 * 2048 + k.val = _
      rw [Nat.mod_eq_of_lt b.isLt])
    show A1 V c (ix2 _ (red1 b.val k)) * XW1 V c (ix2 (red1 b.val k) q) = _
    rw [e])

/-- The output window's block at point t, read off any array G, at entry (p, q): G at (row p of the row block, q). -/
theorem read_out1 (t : Fin cfg1.N) (G : Cert.Spec.Mat 16384 64) (p : Fin 1024) (q : Fin 64) :
    ((cfg1.win 3).blk t).view.read (Elt Ideal) G (ix2 p q) = G (ix2 (row1 t p) q) := by
  obtain ⟨-, -, -, -, -, -, e0, e1⟩ := idx_facts1 t
  show G (((cfg1.win 3).blk t).view.emb (ix2 p q)) = _
  refine congrArg G (funext fun a => Fin.ext ?_)
  match a with
  | ⟨0, _⟩ => show win1_3.index t (0 : Fin 2) * 1024 + 1 * p.val = t.val / 8 * 1024 + p.val; rw [e0]; omega
  | ⟨1, _⟩ => show win1_3.index t (1 : Fin 2) * 64 + 1 * q.val = q.val; rw [e1]; omega

/-- What a writing point t writes back is its block of the layer of the specification. -/
theorem flushed1_eq (c : Dev nD) (t : Fin cfg1.N) (hf : (cfg1.win 3).flush t = true) :
    (Fr.dat1 (F := Ideal) V c).flushed 3 t
      = ((cfg1.win 3).blk t).view.read (Elt Ideal) (Cert.Spec.gcn (V c main_arg1) (V c main_v5) (V c main_v6)) := by
  have h7 : t.val % 8 = 7 := (flush1_3 t).mp hf
  show (cfg1.win 3).cut (grid1.coords t) ((Fr.dat1 (F := Ideal) V c).after 3 t) = _
  rw [Fr.after1_3]
  funext j
  have hj0 : (j 0).val < 1024 := (j 0).isLt
  have hj1 : (j 1).val < 64 := (j 1).isLt
  obtain ⟨p, q, rfl⟩ : ∃ (p : Fin 1024) (q : Fin 64), j = ix2 p q :=
    ⟨⟨(j 0).val, hj0⟩, ⟨(j 1).val, hj1⟩, funext fun a => match a with | ⟨0, _⟩ => rfl | ⟨1, _⟩ => rfl⟩
  refine Eq.trans (b := k1_pay3 (Fr.acc1 V c t.val t.isLt) (Fr.iblk1 V c 2 t) (ix2 p q)) rfl ?_
  refine Eq.trans ?_ (read_out1 t (Cert.Spec.gcn (A1 V c) (XW1 V c) (B1 V c)) p q).symm
  rw [Pay.pay_out1, acc1_full V c t h7, iblk1_2_apply]
  rfl

/-- An index of the output array is in point t's block iff each coordinate is in the block's range on its axis. -/
theorem mem_blk1 (t : Fin cfg1.N) (i : S16384x64.Idx) :
    i ∈ ((cfg1.win 3).blk t).view.set ↔ ∀ a : Fin 2, win1_3.index t a * S1024x64.size a ≤ (i a).val
      ∧ (i a).val < win1_3.index t a * S1024x64.size a + S1024x64.size a := by
  show i ∈ ((View.whole main_v7).slice (win1_3.rect t)).set ↔ _
  rw [View.set_slice_whole, Rect.mem_set_unit]
  exact Iff.rfl

/-- Every index of the output array is in the block of a writing point: row r in that of point (r / 1024) · 8 + 7. -/
theorem cover1 (i : S16384x64.Idx) :
    ∃ t : Fin cfg1.N, (cfg1.win 3).flush t = true ∧ i ∈ ((cfg1.win 3).blk t).view.set := by
  have hi0 : (i 0).val < 16384 := (i 0).isLt
  have hi1 : (i 1).val < 64 := (i 1).isLt
  have hN : cfg1.N = 128 := N_1
  have ht : (i 0).val / 1024 * 8 + 7 < cfg1.N := by rw [hN]; omega
  obtain ⟨-, -, -, -, -, -, e0, e1⟩ := idx_facts1 ⟨(i 0).val / 1024 * 8 + 7, ht⟩
  refine ⟨⟨(i 0).val / 1024 * 8 + 7, ht⟩, (flush1_3 _).mpr (by show ((i 0).val / 1024 * 8 + 7) % 8 = 7; omega), ?_⟩
  rw [mem_blk1]
  intro a
  match a with
  | ⟨0, _⟩ =>
    show win1_3.index ⟨(i 0).val / 1024 * 8 + 7, ht⟩ (0 : Fin 2) * 1024 ≤ (i 0).val
      ∧ (i 0).val < win1_3.index ⟨(i 0).val / 1024 * 8 + 7, ht⟩ (0 : Fin 2) * 1024 + 1024
    rw [e0]
    show ((i 0).val / 1024 * 8 + 7) / 8 * 1024 ≤ (i 0).val ∧ (i 0).val < ((i 0).val / 1024 * 8 + 7) / 8 * 1024 + 1024
    omega
  | ⟨1, _⟩ =>
    show win1_3.index ⟨(i 0).val / 1024 * 8 + 7, ht⟩ (1 : Fin 2) * 64 ≤ (i 1).val
      ∧ (i 1).val < win1_3.index ⟨(i 0).val / 1024 * 8 + 7, ht⟩ (1 : Fin 2) * 64 + 64
    rw [e1]
    omega

/-- THE OUTPUT ARRAY after the region: the layer of the specification of the arrays the region finds. -/
theorem final1 (c : Dev nD) :
    (Fr.dat1 (F := Ideal) V c).arrAt 3 cfg1.N = Cert.Spec.gcn (V c main_arg1) (V c main_v5) (V c main_v6) :=
  (Fr.dat1 (F := Ideal) V c).arrAt_eq_of_cover 3 _ (fun t hf => flushed1_eq V c t hf) (fun i => cover1 i)

end Cert.KernelIdeal.Val

end
-- ==== Proof.PayMlp.lean ====
/-
  What the edge-classifier kernel body computes, entry by entry on the extended reals: row r of
  softmax (relu (ES · Wd + bd) · Wo + bo) reads only row r of ES. The body is cut into three stages (the hidden rows, the
  two logits of each row, the softmax of each row) and each stage is read at explicit coordinates.
-/
import proofs.«142677_j5446018531553_2_alg».proof.Proof.Gen.KernelIdeal.Skeleton
import proofs.«142677_j5446018531553_2_alg».proof.Proof.Spec
import proofs.«142677_j5446018531553_2_alg».proof.Proof.PayGcn

noncomputable section

namespace Cert.KernelIdeal.Pay

open Idealize.ShloMosaic Idealize.ShloMosaic.ValueIdx Cert.KernelIdeal Cert.KernelIdeal.Gen

/-! ## Two layout operations that keep a reduced axis as a unit axis -/

section Keepdims
variable {α : Type}

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (i, c), the operand's one column at i. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

end Keepdims

/-! ## The two reductions over a row's two lanes -/

/-- The word of −∞ is the bottom element. -/
theorem ofBits_neg_inf_f32 : Ideal.ofBits .f32 0xFF800000#32 = ⊥ := by simp [Ideal.ofBits, Ideal.ieee]

/-- The fold of max over two elements from b: max b (max (f 0) (f 1)). -/
theorem fold_max_fin2 (b : EReal) (f : Fin 2 → EReal) :
    (Finset.univ : Finset (Fin 2)).fold max b f = max b (max (f 0) (f 1)) := by
  have hu : (Finset.univ : Finset (Fin 2)) = insert 0 {1} := by decide
  rw [hu, Finset.fold_insert (by decide), Finset.fold_singleton, max_comm b, max_assoc]

/-- Row r of an 8192 × 2 array with lane k put back: the index (r, k). -/
theorem lift_row (r : Fin 8192) (k : Fin 2) : reduces_S8192x2_S8192.lift (ix1 r) k = ix2 r k :=
  funext fun c => Fin.ext (match c with
    | ⟨0, _⟩ => rfl
    | ⟨1, _⟩ => rfl)

/-- The maximum over a row's two lanes, taken from −∞: max (x (r, 0)) (x (r, 1)). -/
theorem rowMax_apply (x : FVec Ideal S8192x2 .f32) (r : Fin 8192) :
    multiReduction .maximumf [1] S8192 x 0xFF800000#32 reduces_S8192x2_S8192 (.inl rfl) rfl (ix1 r)
      = max (x (ix2 r 0)) (x (ix2 r 1)) := by
  refine (Ideal.multiReduction_maximumf_single x 0xFF800000#32 reduces_S8192x2_S8192 (.inl rfl) rfl (ix1 r)).trans ?_
  have hf : (fun k : Fin 2 => x (reduces_S8192x2_S8192.lift (ix1 r) k)) = fun k : Fin 2 => x (ix2 r k) :=
    funext fun k => congrArg x (lift_row r k)
  exact (congrArg (fun f : Fin 2 → EReal => (Finset.univ : Finset (Fin 2)).fold max (Ideal.ofBits .f32 0xFF800000#32) f) hf).trans
    ((fold_max_fin2 _ _).trans (by rw [ofBits_neg_inf_f32, max_bot_left]))

/-- The sum over a row's two lanes: Σ_c x (r, c). -/
theorem rowSum_apply (x : FVec Ideal S8192x2 .f32) (r : Fin 8192) :
    multiReduction .add [1] S8192 x 0x00000000#32 reduces_S8192x2_S8192 (.inl rfl) rfl (ix1 r)
      = ∑ c : Fin 2, x (ix2 r c) := by
  refine (Ideal.multiReduction_add_single x 0x00000000#32 reduces_S8192x2_S8192 (.inl rfl) rfl (ix1 r)).trans ?_
  show ∑ k : Fin 2, x (reduces_S8192x2_S8192.lift (ix1 r) k) = _
  exact Finset.sum_congr rfl fun k _ => congrArg x (lift_row r k)

/-! ## The body in three stages -/

/-- The hidden rows: max (ES · Wd + bd) 0. -/
def hiddenRows (v0 : Vec Ideal S8192x128 .bf16) (v2 : Vec Ideal S128x256 .f32) (v5 : Vec Ideal S1x256 .f32) :
    FVec Ideal S8192x256 .f32 :=
  have v1 : FVec Ideal S8192x128 .bf16 := shapeCast S8192x128 v0 shapeCasts_S8192x128_S8192x128
  have v3 : FVec Ideal S128x256 .bf16 := truncf .bf16 v2 bitsLt_bf16_f32
  have cst : FVec Ideal S8192x256 .f32 := constant S8192x256 .f32 0x00000000#32
  have v4 : FVec Ideal S8192x256 .f32 := matmul dot_S8192x128_S128x256_S8192x256_1_0_0_1_n_n none v1 v3 cst
  have v6 : FVec Ideal S1x256 .f32 := shapeCast S1x256 v5 shapeCasts_S1x256_S1x256
  have v7 : FVec Ideal S8192x256 .f32 := broadcastTo S8192x256 v6 broadcasts_S1x256_S8192x256
  have v8 : FVec Ideal S8192x256 .f32 := addf v4 v7
  have cst_5 : Ideal .f32 := Scalar.ofBits .f32 0x00000000#32
  have v9 : FVec Ideal S8192x256 .f32 := broadcast S8192x256 cst_5
  have v10 : FVec Ideal S8192x256 .f32 := maximumf v8 v9
  v10

/-- The two logits of every row: hidden · Wo + bo. -/
def logitRows (v10 : FVec Ideal S8192x256 .f32) (v12 : Vec Ideal S256x2 .f32) (v15 : Vec Ideal S1x2 .f32) :
    FVec Ideal S8192x2 .f32 :=
  have v11 : FVec Ideal S8192x256 .bf16 := truncf .bf16 v10 bitsLt_bf16_f32
  have v13 : FVec Ideal S256x2 .bf16 := truncf .bf16 v12 bitsLt_bf16_f32
  have cst_8 : FVec Ideal S8192x2 .f32 := constant S8192x2 .f32 0x00000000#32
  have v14 : FVec Ideal S8192x2 .f32 := matmul dot_S8192x256_S256x2_S8192x2_1_0_0_1_n_n none v11 v13 cst_8
  have v16 : FVec Ideal S1x2 .f32 := shapeCast S1x2 v15 shapeCasts_S1x2_S1x2
  have v17 : FVec Ideal S8192x2 .f32 := broadcastTo S8192x2 v16 broadcasts_S1x2_S8192x2
  have v18 : FVec Ideal S8192x2 .f32 := addf v14 v17
  v18

/-- Every row's shift, repeated on both lanes: the larger of the row's two logits, the maximum taken from −∞. -/
def shiftRows (v18 : FVec Ideal S8192x2 .f32) : FVec Ideal S8192x2 .f32 :=
  have v19 : FVec Ideal S8192 .f32 := multiReduction .maximumf [1] S8192 v18 0xFF800000#32 reduces_S8192x2_S8192 (.inl rfl) rfl
  have cst_12 : Ideal .f32 := Scalar.ofBits .f32 0xFF800000#32
  have v20 : FVec Ideal S8192 .f32 := broadcast S8192 cst_12
  have v21 : FVec Ideal S8192 .f32 := maximumf v20 v19
  have v22 : FVec Ideal S8192x1 .f32 := shapeCast S8192x1 v21 shapeCasts_S8192_S8192x1
  have v23 : FVec Ideal S8192x2 .f32 := broadcastTo S8192x2 v22 broadcasts_S8192x1_S8192x2
  v23

/-- The softmax of every row of two logits. -/
def softmaxRows (v18 : FVec Ideal S8192x2 .f32) : FVec Ideal S8192x2 .f32 :=
  have v23 : FVec Ideal S8192x2 .f32 := shiftRows v18
  have v24 : FVec Ideal S8192x2 .f32 := subf v18 v23
  have v25 : FVec Ideal S8192x2 .f32 := exp v24
  have v26 : FVec Ideal S8192 .f32 := multiReduction .add [1] S8192 v25 0x00000000#32 reduces_S8192x2_S8192 (.inl rfl) rfl
  have v27 : FVec Ideal S8192x1 .f32 := shapeCast S8192x1 v26 shapeCasts_S8192_S8192x1
  have v28 : FVec Ideal S8192x2 .f32 := broadcastTo S8192x2 v27 broadcasts_S8192x1_S8192x2
  have v29 : FVec Ideal S8192x2 .f32 := divf v25 v28
  v29

/-- The body is the three stages in turn. -/
theorem k2_pay1_eq_stages (v0 : Vec Ideal S8192x128 .bf16) (v2 : Vec Ideal S128x256 .f32) (v5 : Vec Ideal S1x256 .f32)
    (v12 : Vec Ideal S256x2 .f32) (v15 : Vec Ideal S1x2 .f32) :
    Gen.k2_pay1 v0 v2 v5 v12 v15 = softmaxRows (logitRows (hiddenRows v0 v2 v5) v12 v15) := rfl

/-- A hidden row's entry u: max (Σ_a ES (r, a) · Wd (a, u) + bd (0, u)) 0. -/
theorem hiddenRows_apply (v0 : Vec Ideal S8192x128 .bf16) (v2 : Vec Ideal S128x256 .f32) (v5 : Vec Ideal S1x256 .f32)
    (r : Fin 8192) (u : Fin 256) :
    hiddenRows v0 v2 v5 (ix2 r u) = Cert.Spec.hidden (fun a => v0 (ix2 r a)) v2 v5 u := by
  unfold hiddenRows Cert.Spec.hidden
  rw [shapeCast_self, shapeCast_self, maximumf_apply, addf_apply, broadcast_apply, broadcastTo_1b_ab_apply]
  have hz : (Scalar.ofBits .f32 0x00000000#32 : Ideal .f32) = 0 := Ideal.ofBits_zero_f32
  rw [hz]
  refine congrArg (fun t => max (t + v5 (ix2 0 u)) 0) ?_
  exact matmul_zero_ix2 dot_S8192x128_S128x256_S8192x256_1_0_0_1_n_n_wf none _ _ r u

/-- A row's logit c: Σ_u hidden (r, u) · Wo (u, c) + bo (0, c). -/
theorem logitRows_apply (v10 : FVec Ideal S8192x256 .f32) (v12 : Vec Ideal S256x2 .f32) (v15 : Vec Ideal S1x2 .f32)
    (r : Fin 8192) (c : Fin 2) :
    logitRows v10 v12 v15 (ix2 r c) = (∑ u : Fin 256, v10 (ix2 r u) * v12 (ix2 u c)) + v15 (ix2 0 c) := by
  unfold logitRows
  rw [shapeCast_self, addf_apply, broadcastTo_1b_ab_apply]
  refine congrArg (· + v15 (ix2 0 c)) ?_
  exact matmul_zero_ix2 dot_S8192x256_S256x2_S8192x2_1_0_0_1_n_n_wf none _ _ r c

/-- The larger of two logits, the maximum taken from −∞, is their maximum. -/
theorem shift_eq (l : Fin 2 → EReal) : Cert.Spec.shift l = max (l 0) (l 1) := by
  unfold Cert.Spec.shift
  rw [max_bot_left, max_bot_left]

/-- A row's shift at either lane. -/
theorem shiftRows_apply (x : FVec Ideal S8192x2 .f32) (r : Fin 8192) (c : Fin 2) :
    shiftRows x (ix2 r c) = Cert.Spec.shift (fun c' => x (ix2 r c')) := by
  unfold shiftRows
  rw [broadcastTo_a1_ab_apply, shapeCast_a_a1_apply, maximumf_apply, broadcast_apply, rowMax_apply, shift_eq]
  have hb : (Scalar.ofBits .f32 0xFF800000#32 : Ideal .f32) = ⊥ := ofBits_neg_inf_f32
  rw [hb, max_bot_left]

/-- A row's softmax at lane c. -/
theorem softmaxRows_apply (x : FVec Ideal S8192x2 .f32) (r : Fin 8192) (c : Fin 2) :
    softmaxRows x (ix2 r c) = Cert.Spec.softmax2 (fun c' => x (ix2 r c')) c := by
  have he : ∀ c' : Fin 2, exp (subf x (shiftRows x)) (ix2 r c')
      = Ideal.exp (x (ix2 r c') - Cert.Spec.shift (fun c'' => x (ix2 r c''))) := fun c' => by
    show Ideal.exp (x (ix2 r c') - shiftRows x (ix2 r c')) = _
    rw [shiftRows_apply]
  unfold softmaxRows Cert.Spec.softmax2
  rw [divf_apply, broadcastTo_a1_ab_apply, shapeCast_a_a1_apply, rowSum_apply, he c]
  exact congrArg (Ideal.div _) (Finset.sum_congr rfl fun c' _ => he c')

/-- Entry (r, c) of the edge-classifier body is entry (r, c) of the specification. -/
theorem pay_mlp (v0 : Vec Ideal S8192x128 .bf16) (v2 : Vec Ideal S128x256 .f32) (v5 : Vec Ideal S1x256 .f32)
    (v12 : Vec Ideal S256x2 .f32) (v15 : Vec Ideal S1x2 .f32) (r : Fin 8192) (c : Fin 2) :
    Gen.k2_pay1 v0 v2 v5 v12 v15 (ix2 r c) = Cert.Spec.mlpAt v0 v2 v5 v12 v15 r c := by
  rw [k2_pay1_eq_stages, softmaxRows_apply]
  unfold Cert.Spec.mlpAt
  refine congrArg (fun l => Cert.Spec.softmax2 l c) (funext fun c' => ?_)
  rw [logitRows_apply]
  unfold Cert.Spec.logit
  exact congrArg (· + v15 (ix2 0 c')) (Finset.sum_congr rfl fun u _ => by rw [hiddenRows_apply])

end Cert.KernelIdeal.Pay

end
-- ==== Proof.ValMlp.lean ====
/-
  The edge-classifier region, read as values on the extended reals: what its output array holds after the run is the
  classifier of the specification, softmax (relu (ES · Wd + bd) · Wo + bo), of the arrays the region finds. Grid point t
  handles the rows t · 8192 … t · 8192 + 8191 and writes its output block back; the four weight arrays are read whole at
  every point.
-/
import proofs.«142677_j5446018531553_2_alg».proof.Proof.FrReg2
import proofs.«142677_j5446018531553_2_alg».proof.Proof.PayMlp
import proofs.«142677_j5446018531553_2_alg».proof.Proof.Spec

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## Region 2 -/

/-- The edge features, the two weight matrices and the two bias rows as the region finds them, as matrices. -/
abbrev ES2 (c : Dev nD) : Cert.Spec.Mat 524288 128 := V c main_v26
abbrev WD2 (c : Dev nD) : Cert.Spec.Mat 128 256 := V c main_arg8
abbrev BD2 (c : Dev nD) : Cert.Spec.Mat 1 256 := V c main_v27
abbrev WO2 (c : Dev nD) : Cert.Spec.Mat 256 2 := V c main_arg10
abbrev BO2 (c : Dev nD) : Cert.Spec.Mat 1 2 := V c main_v28

/-- The region has 64 grid points. -/
theorem lt2 (t : Fin cfg2.N) : t.val < 64 := lt_of_lt_of_eq t.isLt (show cfg2.N = 64 from N_2)

/-- The windows' block indices at point t: the edge features' and the output's block is (t, 0), the four weight
    arrays' (0, 0). -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Row r of point t's block, as a row of the whole array. -/
def row2 (t : Fin cfg2.N) (r : Fin 8192) : Fin 524288 := ⟨t.val * 8192 + r.val, by have := lt2 t; omega⟩

/-- The edge features' block at point t, entry (r, a): the features at (row r of the block, a). -/
theorem iblk2_0_apply (c : Dev nD) (t : Fin cfg2.N) (r : Fin 8192) (a : Fin 128) :
    Fr.iblk2 V c 0 t (ix2 r a) = ES2 V c (ix2 (row2 t r) a) := by
  obtain ⟨e0, e1, -⟩ := idx_facts2 t
  show V c main_v26 (((cfg2.win 0).blk t).view.emb (ix2 r a)) = _
  refine congrArg (V c main_v26) (funext fun ax => Fin.ext ?_)
  match ax with
  | ⟨0, _⟩ => show win2_0.index t (0 : Fin 2) * 8192 + 1 * r.val = t.val * 8192 + r.val; rw [e0]; omega
  | ⟨1, _⟩ => show win2_0.index t (1 : Fin 2) * 128 + 1 * a.val = a.val; rw [e1]; omega

/-- The first weight matrix's block at every point is the matrix. -/
theorem iblk2_1_eq (c : Dev nD) (t : Fin cfg2.N) : Fr.iblk2 V c 1 t = WD2 V c := by
  obtain ⟨-, -, e0, e1, -⟩ := idx_facts2 t
  funext j
  have hj0 : (j 0).val < 128 := (j 0).isLt
  have hj1 : (j 1).val < 256 := (j 1).isLt
  show V c main_arg8 (((cfg2.win 1).blk t).view.emb j) = V c main_arg8 j
  refine congrArg (V c main_arg8) (funext fun ax => Fin.ext ?_)
  match ax with
  | ⟨0, _⟩ => show win2_1.index t (0 : Fin 2) * 128 + 1 * (j 0).val = (j 0).val; rw [e0]; omega
  | ⟨1, _⟩ => show win2_1.index t (1 : Fin 2) * 256 + 1 * (j 1).val = (j 1).val; rw [e1]; omega

/-- The first bias row's block at every point is the row. -/
theorem iblk2_2_eq (c : Dev nD) (t : Fin cfg2.N) : Fr.iblk2 V c 2 t = BD2 V c := by
  obtain ⟨-, -, -, -, e0, e1, -⟩ := idx_facts2 t
  funext j
  have hj0 : (j 0).val < 1 := (j 0).isLt
  have hj1 : (j 1).val < 256 := (j 1).isLt
  show V c main_v27 (((cfg2.win 2).blk t).view.emb j) = V c main_v27 j
  refine congrArg (V c main_v27) (funext fun ax => Fin.ext ?_)
  match ax with
  | ⟨0, _⟩ => show win2_2.index t (0 : Fin 2) * 1 + 1 * (j 0).val = (j 0).val; rw [e0]; omega
  | ⟨1, _⟩ => show win2_2.index t (1 : Fin 2) * 256 + 1 * (j 1).val = (j 1).val; rw [e1]; omega

/-- The second weight matrix's block at every point is the matrix. -/
theorem iblk2_3_eq (c : Dev nD) (t : Fin cfg2.N) : Fr.iblk2 V c 3 t = WO2 V c := by
  obtain ⟨-, -, -, -, -, -, e0, e1, -⟩ := idx_facts2 t
  funext j
  have hj0 : (j 0).val < 256 := (j 0).isLt
  have hj1 : (j 1).val < 2 := (j 1).isLt
  show V c main_arg10 (((cfg2.win 3).blk t).view.emb j) = V c main_arg10 j
  refine congrArg (V c main_arg10) (funext fun ax => Fin.ext ?_)
  match ax with
  | ⟨0, _⟩ => show win2_3.index t (0 : Fin 2) * 256 + 1 * (j 0).val = (j 0).val; rw [e0]; omega
  | ⟨1, _⟩ => show win2_3.index t (1 : Fin 2) * 2 + 1 * (j 1).val = (j 1).val; rw [e1]; omega

/-- The second bias row's block at every point is the row. -/
theorem iblk2_4_eq (c : Dev nD) (t : Fin cfg2.N) : Fr.iblk2 V c 4 t = BO2 V c := by
  obtain ⟨-, -, -, -, -, -, -, -, e0, e1, -⟩ := idx_facts2 t
  funext j
  have hj0 : (j 0).val < 1 := (j 0).isLt
  have hj1 : (j 1).val < 2 := (j 1).isLt
  show V c main_v28 (((cfg2.win 4).blk t).view.emb j) = V c main_v28 j
  refine congrArg (V c main_v28) (funext fun ax => Fin.ext ?_)
  match ax with
  | ⟨0, _⟩ => show win2_4.index t (0 : Fin 2) * 1 + 1 * (j 0).val = (j 0).val; rw [e0]; omega
  | ⟨1, _⟩ => show win2_4.index t (1 : Fin 2) * 2 + 1 * (j 1).val = (j 1).val; rw [e1]; omega

/-- The output window's block at point t, read off any array G, at entry (r, l): G at (row r of the block, l). -/
theorem read_out2 (t : Fin cfg2.N) (G : Cert.Spec.Mat 524288 2) (r : Fin 8192) (l : Fin 2) :
    ((cfg2.win 5).blk t).view.read (Elt Ideal) G (ix2 r l) = G (ix2 (row2 t r) l) := by
  obtain ⟨-, -, -, -, -, -, -, -, -, -, e0, e1⟩ := idx_facts2 t
  show G (((cfg2.win 5).blk t).view.emb (ix2 r l)) = _
  refine congrArg G (funext fun ax => Fin.ext ?_)
  match ax with
  | ⟨0, _⟩ => show win2_5.index t (0 : Fin 2) * 8192 + 1 * r.val = t.val * 8192 + r.val; rw [e0]; omega
  | ⟨1, _⟩ => show win2_5.index t (1 : Fin 2) * 2 + 1 * l.val = l.val; rw [e1]; omega

/-- The classifier of the specification at explicit coordinates. -/
theorem mlp_apply {e : Nat} (ES : Cert.Spec.Mat e 128) (Wd : Cert.Spec.Mat 128 256) (bd : Cert.Spec.Mat 1 256)
    (Wo : Cert.Spec.Mat 256 2) (bo : Cert.Spec.Mat 1 2) (r : Fin e) (l : Fin 2) :
    Cert.Spec.mlp ES Wd bd Wo bo (ix2 r l) = Cert.Spec.mlpAt ES Wd bd Wo bo r l := rfl

/-- The classifier at a row reads only that row of the edge features. -/
theorem mlpAt_congr_row {e e' : Nat} (X : Cert.Spec.Mat e 128) (Y : Cert.Spec.Mat e' 128) (Wd : Cert.Spec.Mat 128 256)
    (bd : Cert.Spec.Mat 1 256) (Wo : Cert.Spec.Mat 256 2) (bo : Cert.Spec.Mat 1 2) (r : Fin e) (r' : Fin e') (l : Fin 2)
    (h : ∀ a : Fin 128, X (ix2 r a) = Y (ix2 r' a)) :
    Cert.Spec.mlpAt X Wd bd Wo bo r l = Cert.Spec.mlpAt Y Wd bd Wo bo r' l := by
  unfold Cert.Spec.mlpAt
  rw [show (fun a => X (ix2 r a)) = fun a => Y (ix2 r' a) from funext h]

/-- What point t writes back is its block of the classifier of the specification. -/
theorem flushed2_eq (c : Dev nD) (t : Fin cfg2.N) (hf : (cfg2.win 5).flush t = true) :
    (Fr.dat2 (F := Ideal) V c).flushed 5 t
      = ((cfg2.win 5).blk t).view.read (Elt Ideal)
          (Cert.Spec.mlp (V c main_v26) (V c main_arg8) (V c main_v27) (V c main_arg10) (V c main_v28)) := by
  show (cfg2.win 5).cut (grid2.coords t) ((Fr.dat2 (F := Ideal) V c).after 5 t) = _
  rw [Fr.after2_5]
  funext j
  have hj0 : (j 0).val < 8192 := (j 0).isLt
  have hj1 : (j 1).val < 2 := (j 1).isLt
  obtain ⟨r, l, rfl⟩ : ∃ (r : Fin 8192) (l : Fin 2), j = ix2 r l :=
    ⟨⟨(j 0).val, hj0⟩, ⟨(j 1).val, hj1⟩, funext fun a => match a with | ⟨0, _⟩ => rfl | ⟨1, _⟩ => rfl⟩
  refine Eq.trans (b := k2_pay1 (Fr.iblk2 V c 0 t) (Fr.iblk2 V c 1 t) (Fr.iblk2 V c 2 t) (Fr.iblk2 V c 3 t)
    (Fr.iblk2 V c 4 t) (ix2 r l)) rfl ?_
  refine Eq.trans ?_ (read_out2 t (Cert.Spec.mlp (ES2 V c) (WD2 V c) (BD2 V c) (WO2 V c) (BO2 V c)) r l).symm
  rw [Pay.pay_mlp, mlp_apply, iblk2_1_eq, iblk2_2_eq, iblk2_3_eq, iblk2_4_eq]
  exact mlpAt_congr_row _ _ _ _ _ _ r (row2 t r) l (fun a => iblk2_0_apply V c t r a)

/-- An index of the output array is in point t's block iff each coordinate is in the block's range on its axis. -/
theorem mem_blk2 (t : Fin cfg2.N) (i : S524288x2.Idx) :
    i ∈ ((cfg2.win 5).blk t).view.set ↔ ∀ a : Fin 2, win2_5.index t a * S8192x2.size a ≤ (i a).val
      ∧ (i a).val < win2_5.index t a * S8192x2.size a + S8192x2.size a := by
  show i ∈ ((View.whole main_v29).slice (win2_5.rect t)).set ↔ _
  rw [View.set_slice_whole, Rect.mem_set_unit]
  exact Iff.rfl

/-- Every index of the output array is in some point's block: row r in that of point r / 8192. -/
theorem cover2 (i : S524288x2.Idx) :
    ∃ t : Fin cfg2.N, (cfg2.win 5).flush t = true ∧ i ∈ ((cfg2.win 5).blk t).view.set := by
  have hi0 : (i 0).val < 524288 := (i 0).isLt
  have hi1 : (i 1).val < 2 := (i 1).isLt
  have hN : cfg2.N = 64 := N_2
  have ht : (i 0).val / 8192 < cfg2.N := by rw [hN]; omega
  obtain ⟨-, -, -, -, -, -, -, -, -, -, e0, e1⟩ := idx_facts2 ⟨(i 0).val / 8192, ht⟩
  refine ⟨⟨(i 0).val / 8192, ht⟩, flush2_5 _, ?_⟩
  rw [mem_blk2]
  intro a
  match a with
  | ⟨0, _⟩ =>
    show win2_5.index ⟨(i 0).val / 8192, ht⟩ (0 : Fin 2) * 8192 ≤ (i 0).val
      ∧ (i 0).val < win2_5.index ⟨(i 0).val / 8192, ht⟩ (0 : Fin 2) * 8192 + 8192
    rw [e0]
    show (i 0).val / 8192 * 8192 ≤ (i 0).val ∧ (i 0).val < (i 0).val / 8192 * 8192 + 8192
    omega
  | ⟨1, _⟩ =>
    show win2_5.index ⟨(i 0).val / 8192, ht⟩ (1 : Fin 2) * 2 ≤ (i 1).val
      ∧ (i 1).val < win2_5.index ⟨(i 0).val / 8192, ht⟩ (1 : Fin 2) * 2 + 2
    rw [e1]
    omega

/-- THE OUTPUT ARRAY after the region: the classifier of the specification of the arrays the region finds. -/
theorem final2 (c : Dev nD) :
    (Fr.dat2 (F := Ideal) V c).arrAt 5 cfg2.N
      = Cert.Spec.mlp (V c main_v26) (V c main_arg8) (V c main_v27) (V c main_arg10) (V c main_v28) :=
  (Fr.dat2 (F := Ideal) V c).arrAt_eq_of_cover 5 _ (fun t hf => flushed2_eq V c t hf) (fun i => cover2 i)

end Cert.KernelIdeal.Val

end
-- ==== Proof.RefGcn.lean ====
/-
  The reference's two graph-convolution layers are the specification's layer.

  Each layer of the reference is the chain  product with the adjacency, plus the broadcast bias, negate, exponential,
  one plus, one over.  Read at an entry (p, q) the product is the sum over k of A (p, k) · XW (k, q), the broadcast bias is
  b q, and  1 / (1 + exp (−x))  is the logistic function by definition; so the layer's output is the specification's
  layer applied to the same adjacency, the same right factor and the bias read as a row.
-/
import proofs.«142677_j5446018531553_2_alg».proof.Proof.Gen.ReferenceIdeal.Read
import proofs.«142677_j5446018531553_2_alg».proof.Proof.Spec
import Idealize.ShloMosaic.Lib.IdealHost

noncomputable section

namespace Cert.RefSide

open Cert.ReferenceIdeal Cert.ReferenceIdeal.Gen Cert.ReferenceIdeal.Read Idealize.ShloMosaic Idealize.ShloMosaic.ValueIdx

/-- The left factor's index (row of the output entry, contraction coordinate) is the pair of those coordinates. -/
theorem lidx_v1_eq (i : S16384x64.Idx) (k : Fin 16384) : lidx_main_v1 i k = ix2 (i 0) k :=
  funext fun a => by match a with | ⟨0, _⟩ => rfl | ⟨1, _⟩ => rfl

/-- The right factor's index (contraction coordinate, column of the output entry) is the pair of those coordinates. -/
theorem ridx_v1_eq (i : S16384x64.Idx) (k : Fin 16384) : ridx_main_v1 i k = ix2 k (i 1) :=
  funext fun a => by match a with | ⟨0, _⟩ => rfl | ⟨1, _⟩ => rfl

/-- The bias broadcast to a row and then to the whole array is read at the output entry's column. -/
theorem bias_idx_eq (i : S16384x64.Idx) : idx_main_v2 (idx_main_v3 i) = ix1 (i 1) :=
  funext fun a => by match a with | ⟨0, _⟩ => rfl

/-- The first layer: logistic (A · (X · W1) + b1), entry by entry the specification's layer. -/
theorem ref_gcn1 (x0 : FVec Ideal S16384x128 .f32) (x1 : FVec Ideal S16384x16384 .f32) (x4 : FVec Ideal S128x64 .f32)
    (x5 : FVec Ideal S64 .f32) :
    val_main_v10 (F := Ideal) x0 x1 x4 x5
      = Cert.Spec.gcn x1 (val_main_v0 (F := Ideal) x0 x4) (fun j => x5 (ix1 (j 1))) := by
  funext i
  rw [val_main_v10_apply, val_main_v9_apply, val_main_cst_0_apply, val_main_v8_apply, val_main_v7_apply, val_main_cst_apply,
    val_main_v6_apply, val_main_v5_apply, val_main_v4_apply, val_main_v1_apply, val_main_v3_apply, val_main_v2_apply]
  simp only [Ideal.hostDivf_def, Ideal.ofBits_def, Ideal.addf_def, Ideal.hostUnary_exp_def, Ideal.hostNegf_def, Ideal.negf_def,
    Ideal.ofBits_one_f32, lidx_v1_eq, ridx_v1_eq, bias_idx_eq]
  rfl

/-- Second layer: the left factor's index is (row of the entry, contraction coordinate). -/
theorem lidx_v12_eq (i : S16384x64.Idx) (k : Fin 16384) : lidx_main_v12 i k = ix2 (i 0) k :=
  funext fun a => by match a with | ⟨0, _⟩ => rfl | ⟨1, _⟩ => rfl

/-- Second layer: the right factor's index is (contraction coordinate, column of the entry). -/
theorem ridx_v12_eq (i : S16384x64.Idx) (k : Fin 16384) : ridx_main_v12 i k = ix2 k (i 1) :=
  funext fun a => by match a with | ⟨0, _⟩ => rfl | ⟨1, _⟩ => rfl

/-- Second layer: the broadcast bias is read at the entry's column. -/
theorem bias2_idx_eq (i : S16384x64.Idx) : idx_main_v13 (idx_main_v14 i) = ix1 (i 1) :=
  funext fun a => by match a with | ⟨0, _⟩ => rfl

/-- The second layer: logistic (A · (h · W2) + b2), entry by entry the specification's layer. -/
theorem ref_gcn2 (x0 : FVec Ideal S16384x128 .f32) (x1 : FVec Ideal S16384x16384 .f32) (x4 : FVec Ideal S128x64 .f32)
    (x5 : FVec Ideal S64 .f32) (x6 : FVec Ideal S64x64 .f32) (x7 : FVec Ideal S64 .f32) :
    val_main_v21 (F := Ideal) x0 x1 x4 x5 x6 x7
      = Cert.Spec.gcn x1 (val_main_v11 (F := Ideal) x0 x1 x4 x5 x6) (fun j => x7 (ix1 (j 1))) := by
  funext i
  rw [val_main_v21_apply, val_main_v20_apply, val_main_cst_2_apply, val_main_v19_apply, val_main_v18_apply, val_main_cst_1_apply,
    val_main_v17_apply, val_main_v16_apply, val_main_v15_apply, val_main_v12_apply, val_main_v14_apply, val_main_v13_apply]
  simp only [Ideal.hostDivf_def, Ideal.ofBits_def, Ideal.addf_def, Ideal.hostUnary_exp_def, Ideal.hostNegf_def, Ideal.negf_def,
    Ideal.ofBits_one_f32, lidx_v12_eq, ridx_v12_eq, bias2_idx_eq]
  rfl

end Cert.RefSide

end
-- ==== Proof.RefMlp.lean ====
/-
  The reference's edge classifier is the specification's classifier.

  Row r of the reference's chain reads only row r of the edge array: the hidden row is the maximum with zero of the
  product with the dense weights plus the broadcast bias; the two logits are its product with the output weights plus the
  bias; the maximum of the two logits, folded from −∞ and joined once more with −∞, is the shift; the result is the
  exponential of the shifted logit over the sum, taken from zero, of the two exponentials.
-/
import proofs.«142677_j5446018531553_2_alg».proof.Proof.Gen.ReferenceIdeal.Read
import proofs.«142677_j5446018531553_2_alg».proof.Proof.Spec
import Idealize.ShloMosaic.Lib.IdealHost
import Idealize.ShloMosaic.PureOps.Reduce

noncomputable section

namespace Cert.RefSide

open Cert.ReferenceIdeal Cert.ReferenceIdeal.Gen Cert.ReferenceIdeal.Read Idealize.ShloMosaic Idealize.ShloMosaic.ValueIdx

/-! ## Indices, at an entry given by its coordinates -/

/-- Dense product at (r, u): the left factor's index is (r, contraction coordinate). -/
theorem lidx_v41_eq (r : Fin 524288) (u : Fin 256) (a : Fin 128) : lidx_main_v41 (ix2 r u) a = ix2 r a :=
  funext fun d => by match d with | ⟨0, _⟩ => rfl | ⟨1, _⟩ => rfl
/-- Dense product at (r, u): the right factor's index is (contraction coordinate, u). -/
theorem ridx_v41_eq (r : Fin 524288) (u : Fin 256) (a : Fin 128) : ridx_main_v41 (ix2 r u) a = ix2 a u :=
  funext fun d => by match d with | ⟨0, _⟩ => rfl | ⟨1, _⟩ => rfl
/-- The dense bias, broadcast twice, is read at the column. -/
theorem biasd_idx_eq (r : Fin 524288) (u : Fin 256) : idx_main_v42 (idx_main_v43 (ix2 r u)) = ix1 u :=
  funext fun d => by match d with | ⟨0, _⟩ => rfl
/-- Output product at (r, c): the left factor's index is (r, contraction coordinate). -/
theorem lidx_v46_eq (r : Fin 524288) (c : Fin 2) (k : Fin 256) : lidx_main_v46 (ix2 r c) k = ix2 r k :=
  funext fun d => by match d with | ⟨0, _⟩ => rfl | ⟨1, _⟩ => rfl
/-- Output product at (r, c): the right factor's index is (contraction coordinate, c). -/
theorem ridx_v46_eq (r : Fin 524288) (c : Fin 2) (k : Fin 256) : ridx_main_v46 (ix2 r c) k = ix2 k c :=
  funext fun d => by match d with | ⟨0, _⟩ => rfl | ⟨1, _⟩ => rfl
/-- The output bias, broadcast twice, is read at the column. -/
theorem biaso_idx_eq (r : Fin 524288) (c : Fin 2) : idx_main_v47 (idx_main_v48 (ix2 r c)) = ix1 c :=
  funext fun d => by match d with | ⟨0, _⟩ => rfl
/-- The row's shift, broadcast to a column and then to both columns, is read at the row. -/
theorem shift_idx_eq (r : Fin 524288) (c : Fin 2) : idx_main_v53 (idx_main_v54 (ix2 r c)) = ix1 r :=
  funext fun d => by match d with | ⟨0, _⟩ => rfl
/-- The row's sum of exponentials, broadcast the same way, is read at the row; its terms are the row's two entries. -/
theorem sum_idx_eq (r : Fin 524288) (c k : Fin 2) : idx_main_v57 (idx_main_v58 (idx_main_v59 (ix2 r c))) k = ix2 r k :=
  funext fun d => by match d with | ⟨0, _⟩ => rfl | ⟨1, _⟩ => rfl

/-! ## Two small facts on the extended reals -/

/-- The word of −∞ is the least extended real. -/
theorem ofBits_neg_inf_f32 : Ideal.ofBits .f32 0xFF800000#32 = ⊥ := by simp [Ideal.ofBits, Ideal.ieee]

/-- A maximum folded over two entries from b is max (max b (g 0)) (g 1). -/
theorem fold_max_fin2 (b : EReal) (g : Fin 2 → EReal) :
    (Finset.univ : Finset (Fin 2)).fold max b g = max (max b (g 0)) (g 1) := by
  simp only [Fin.univ_succ, Finset.fold_cons, Finset.fold_map, Finset.univ_unique, Finset.fold_singleton]
  show max (g 0) (max (g 1) b) = _
  rw [max_comm (g 1) b, ← max_assoc, max_comm (g 0) b]

/-! ## The logits, the shift, the classifier -/

/-- Entry (r, c) of the reference's logits is the specification's logit c of row r of the edge array. -/
theorem logit_eq (x0 : FVec Ideal S16384x128 .f32) (x1 : FVec Ideal S16384x16384 .f32) (x2 : IVec S524288x2 32)
    (x4 : FVec Ideal S128x64 .f32) (x5 : FVec Ideal S64 .f32) (x6 : FVec Ideal S64x64 .f32) (x7 : FVec Ideal S64 .f32)
    (x8 : FVec Ideal S128x256 .f32) (x9 : FVec Ideal S256 .f32) (x10 : FVec Ideal S256x2 .f32) (x11 : FVec Ideal S2 .f32)
    (r : Fin 524288) (c : Fin 2) :
    val_main_v49 (F := Ideal) x0 x1 x2 x4 x5 x6 x7 x8 x9 x10 x11 (ix2 r c)
      = Cert.Spec.logit (fun a => val_main_v40 (F := Ideal) x0 x1 x2 x4 x5 x6 x7 (ix2 r a)) x8 (fun j => x9 (ix1 (j 1))) x10
          (fun j => x11 (ix1 (j 1))) c := by
  rw [val_main_v49_apply, val_main_v46_apply, val_main_v48_apply, val_main_v47_apply]
  simp only [lidx_v46_eq, ridx_v46_eq, biaso_idx_eq]
  simp only [val_main_v45_apply, val_main_v44_apply, val_main_v41_apply, val_main_v43_apply, val_main_v42_apply,
    val_main_call0_v0_apply, val_main_call0_cst_apply]
  simp only [lidx_v41_eq, ridx_v41_eq, biasd_idx_eq, Ideal.addf_def, Ideal.maximumf_def, Ideal.ofBits_def, Ideal.ofBits_zero_f32]
  rfl

/-- The maximum over a row's two entries, folded from −∞, read at row r. -/
theorem rowmax_eq (y : FVec Ideal S524288x2 .f32) (r : Fin 524288) :
    Host.reduce FloatOps.maximumf y (constant S_ .f32 0xFF800000#32) reducesTo_S524288x2_S524288_d1 h_S_ (ix1 r)
      = max (max ⊥ (y (ix2 r 0))) (y (ix2 r 1)) := by
  rw [Host.reduce_eq_fold_single FloatOps.maximumf y _ reducesTo_S524288x2_S524288_d1 (by decide) h_S_]
  have hf : (y ∘ Shape.Reduces.lift (by decide : S524288x2.Reduces [1] S524288) (ix1 r)) = fun c : Fin 2 => y (ix2 r c) :=
    funext fun c => congrArg y (funext fun d => Fin.ext (by match d with | ⟨0, _⟩ => rfl | ⟨1, _⟩ => rfl))
  have e := fold_max_fin2 (Ideal.ofBits .f32 0xFF800000#32) (fun c => y (ix2 r c))
  rw [ofBits_neg_inf_f32] at e
  refine Eq.trans ?_ e
  rw [← ofBits_neg_inf_f32]
  exact congrArg (fun g => Finset.fold max (Ideal.ofBits .f32 0xFF800000#32) g (Finset.univ : Finset (Fin 2))) hf

/-- Row r of the reference's shift is the specification's shift of the row's two logits. -/
theorem shift_eq (x0 : FVec Ideal S16384x128 .f32) (x1 : FVec Ideal S16384x16384 .f32) (x2 : IVec S524288x2 32)
    (x4 : FVec Ideal S128x64 .f32) (x5 : FVec Ideal S64 .f32) (x6 : FVec Ideal S64x64 .f32) (x7 : FVec Ideal S64 .f32)
    (x8 : FVec Ideal S128x256 .f32) (x9 : FVec Ideal S256 .f32) (x10 : FVec Ideal S256x2 .f32) (x11 : FVec Ideal S2 .f32)
    (r : Fin 524288) :
    val_main_v52 (F := Ideal) x0 x1 x2 x4 x5 x6 x7 x8 x9 x10 x11 (ix1 r)
      = Cert.Spec.shift (fun c => val_main_v49 (F := Ideal) x0 x1 x2 x4 x5 x6 x7 x8 x9 x10 x11 (ix2 r c)) := by
  rw [val_main_v52_apply, val_main_v51_apply, val_main_cst_7_apply]
  unfold val_main_v50 val_main_cst_6
  rw [rowmax_eq]
  simp only [Ideal.maximumf_def, Ideal.ofBits_def, ofBits_neg_inf_f32]
  rfl

/-- The reference's edge classifier: softmax (relu (ES · Wd + bd) · Wo + bo), entry by entry the specification's. -/
theorem ref_mlp (x0 : FVec Ideal S16384x128 .f32) (x1 : FVec Ideal S16384x16384 .f32) (x2 : IVec S524288x2 32)
    (x4 : FVec Ideal S128x64 .f32) (x5 : FVec Ideal S64 .f32) (x6 : FVec Ideal S64x64 .f32) (x7 : FVec Ideal S64 .f32)
    (x8 : FVec Ideal S128x256 .f32) (x9 : FVec Ideal S256 .f32) (x10 : FVec Ideal S256x2 .f32) (x11 : FVec Ideal S2 .f32) :
    val_main_v60 (F := Ideal) x0 x1 x2 x4 x5 x6 x7 x8 x9 x10 x11
      = Cert.Spec.mlp (val_main_v40 (F := Ideal) x0 x1 x2 x4 x5 x6 x7) x8 (fun j => x9 (ix1 (j 1))) x10 (fun j => x11 (ix1 (j 1))) := by
  funext i
  obtain ⟨r, c, rfl⟩ : ∃ (r : Fin 524288) (c : Fin 2), i = ix2 r c := ⟨i 0, i 1, eq_ix2 i⟩
  rw [val_main_v60_apply, val_main_v59_apply, val_main_v58_apply, val_main_v57_apply, val_main_cst_8_apply]
  simp only [sum_idx_eq]
  simp only [val_main_v56_apply, val_main_v55_apply, val_main_v54_apply, val_main_v53_apply]
  simp only [shift_idx_eq, shift_eq, logit_eq, Ideal.hostDivf_def, Ideal.hostUnary_exp_def, Ideal.subf_def, Ideal.ofBits_def,
    Ideal.ofBits_zero_f32, zero_add]
  rfl

end Cert.RefSide

end
-- ==== Proof.RefSide.lean ====
/-
  The reference program's result, read as the shared specification applied to the program's own host operations.

  The result is the edge classifier of the edge array times the mask, where the edge array joins, along the feature axis,
  the rows of the hidden array gathered at the two endpoints of each edge, and the hidden array is two graph-convolution
  layers applied to the node features.  The two layers and the classifier are the specification's; the gathers, the join,
  the arithmetic that normalises the endpoints' row numbers and the mask's conversion stay the program's operations.
-/
import proofs.«142677_j5446018531553_2_alg».proof.Proof.Gen.ReferenceIdeal.Read
import proofs.«142677_j5446018531553_2_alg».proof.Proof.Spec
import proofs.«142677_j5446018531553_2_alg».proof.Proof.RefGcn
import proofs.«142677_j5446018531553_2_alg».proof.Proof.RefMlp

noncomputable section

namespace Cert.RefSide

open Cert.ReferenceIdeal Cert.ReferenceIdeal.Gen Cert.ReferenceIdeal.Read Idealize.ShloMosaic Idealize.ShloMosaic.ValueIdx

/-- The hidden node array: two layers, logistic (A · (logistic (A · (X · W1) + b1) · W2) + b2). -/
abbrev hidden2 (X : FVec Ideal S16384x128 .f32) (A : FVec Ideal S16384x16384 .f32) (W1 : FVec Ideal S128x64 .f32)
    (b1 : FVec Ideal S64 .f32) (W2 : FVec Ideal S64x64 .f32) (b2 : FVec Ideal S64 .f32) : FVec Ideal S16384x64 .f32 :=
  Cert.Spec.gcn A
    (Host.dotGeneral (φ₁ := .f32) dot_S16384x64_S64x64_S16384x64_1_0_0_1_n_n none
      (Cert.Spec.gcn A (Host.dotGeneral dot_S16384x128_S128x64_S16384x64_1_0_0_1_n_n none X W1) (fun j => b1 (ix1 (j 1)))) W2)
    (fun j => b2 (ix1 (j 1)))

/-- Column 0 of the edge list as row numbers: a negative number counts from the end (16384 is added), as a one-column array. -/
abbrev endpoint0 (E : IVec S524288x2 32) : IVec S524288x1 32 :=
  broadcastInDim S524288x1 ![0] bcast_S524288_S524288x1_0
    (select
      (cmpi .slt (shapeCast _ (extractStridedSlice S524288x1 ![0, 0] E slices_S524288x2_S524288x1_0_0) shapeCasts_S524288x1_S524288)
        (broadcastInDim S524288 ![] bcast_S_S524288 (constantI S_ 32 0#32)))
      (addi (shapeCast _ (extractStridedSlice S524288x1 ![0, 0] E slices_S524288x2_S524288x1_0_0) shapeCasts_S524288x1_S524288)
        (broadcastInDim S524288 ![] bcast_S_S524288 (constantI S_ 32 16384#32)))
      (shapeCast _ (extractStridedSlice S524288x1 ![0, 0] E slices_S524288x2_S524288x1_0_0) shapeCasts_S524288x1_S524288))

/-- Column 1 of the edge list as row numbers, normalised the same way. -/
abbrev endpoint1 (E : IVec S524288x2 32) : IVec S524288x1 32 :=
  broadcastInDim S524288x1 ![0] bcast_S524288_S524288x1_0
    (select
      (cmpi .slt (shapeCast _ (extractStridedSlice S524288x1 ![0, 1] E slices_S524288x2_S524288x1_0_1) shapeCasts_S524288x1_S524288)
        (broadcastInDim S524288 ![] bcast_S_S524288 (constantI S_ 32 0#32)))
      (addi (shapeCast _ (extractStridedSlice S524288x1 ![0, 1] E slices_S524288x2_S524288x1_0_1) shapeCasts_S524288x1_S524288)
        (broadcastInDim S524288 ![] bcast_S_S524288 (constantI S_ 32 16384#32)))
      (shapeCast _ (extractStridedSlice S524288x1 ![0, 1] E slices_S524288x2_S524288x1_0_1) shapeCasts_S524288x1_S524288))

/-- The edge array: the hidden rows at the two endpoints, joined along the feature axis. -/
abbrev edgeState (h : FVec Ideal S16384x64 .f32) (E : IVec S524288x2 32) : FVec Ideal S524288x128 .f32 :=
  concatenate S524288x128 1
    [⟨S524288x64, Host.gather gather_S16384x64_S524288x1_S524288x64_1_0_n_n_0_1_164 h (endpoint0 E)⟩,
     ⟨S524288x64, Host.gather gather_S16384x64_S524288x1_S524288x64_1_0_n_n_0_1_164 h (endpoint1 E)⟩]
    concatenates_S524288x64_S524288x64_S524288x128_d1

/-- The value the reference computes, with the two layers and the classifier written as the specification's. -/
abbrev refValue (X : FVec Ideal S16384x128 .f32) (A : FVec Ideal S16384x16384 .f32) (E : IVec S524288x2 32) (mask : IVec S524288x1 32)
    (W1 : FVec Ideal S128x64 .f32) (b1 : FVec Ideal S64 .f32) (W2 : FVec Ideal S64x64 .f32) (b2 : FVec Ideal S64 .f32)
    (Wd : FVec Ideal S128x256 .f32) (bd : FVec Ideal S256 .f32) (Wo : FVec Ideal S256x2 .f32) (bo : FVec Ideal S2 .f32) :
    FVec Ideal S524288x2 .f32 :=
  mulf (Cert.Spec.mlp (edgeState (hidden2 X A W1 b1 W2 b2) E) Wd (fun j => bd (ix1 (j 1))) Wo (fun j => bo (ix1 (j 1))))
    (broadcastInDim S524288x2 ![0, 1] bcast_S524288x1_S524288x2_0_1 (sitofp .f32 mask))

set_option maxRecDepth 8192 in
/-- The last stage of the reference, as a function of its arguments, is that value. -/
theorem ref_val (x0 : FVec Ideal S16384x128 .f32) (x1 : FVec Ideal S16384x16384 .f32) (x2 : IVec S524288x2 32) (x3 : IVec S524288x1 32)
    (x4 : FVec Ideal S128x64 .f32) (x5 : FVec Ideal S64 .f32) (x6 : FVec Ideal S64x64 .f32) (x7 : FVec Ideal S64 .f32)
    (x8 : FVec Ideal S128x256 .f32) (x9 : FVec Ideal S256 .f32) (x10 : FVec Ideal S256x2 .f32) (x11 : FVec Ideal S2 .f32) :
    val_main_v63 (F := Ideal) x0 x1 x2 x3 x4 x5 x6 x7 x8 x9 x10 x11 = refValue x0 x1 x2 x3 x4 x5 x6 x7 x8 x9 x10 x11 := by
  unfold val_main_v63 val_main_v62 val_main_v61
  rw [ref_mlp]
  unfold val_main_v40 val_main_v30 val_main_v39
  rw [ref_gcn2]
  unfold val_main_v11
  rw [ref_gcn1]
  rfl

/-- The term the reference's run states for its result is that value of the arguments' launch contents. -/
theorem ref_result (m : (ℓ : Loc nD τ sig) → Buf (Elt Ideal) ℓ) (c : Dev nD) :
    Cert.ReferenceIdeal.Value.res_out0 (F := Ideal) m c
      = refValue (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) :=
  (val_main_v63_eq m c).trans (ref_val _ _ _ _ _ _ _ _ _ _ _ _)

end Cert.RefSide

end
-- ==== Proof.KernGlue.lean ====
/-
  The kernel program's host operations around its three kernel launches, with each launch's output written as the shared
  specification, compute the same array as the reference's value.

  The kernel program narrows the two products X · W1 and h1 · W2 to a shorter float format before the layers and carries the
  hidden array and the edge array in that format: on the extended reals a format change is the identity.  It passes each
  bias reshaped to a single row: entry (0, q) of the reshaped row is entry q of the bias.  It normalises the two endpoint
  columns with the same operations as the reference, gathers and joins the same way, and multiplies by the same converted
  mask.  So the two values are the same specification functions applied to equal arguments.
-/
import proofs.«142677_j5446018531553_2_alg».proof.KernelIdeal
import proofs.«142677_j5446018531553_2_alg».proof.Proof.Gen.KernelIdeal
import proofs.«142677_j5446018531553_2_alg».proof.Proof.RefSide
import proofs.«142677_j5446018531553_2_alg».proof.Proof.Spec
import Idealize.ShloMosaic.Lib.Pipeline.Value
import Idealize.ShloMosaic.Lib.ValueIdx

noncomputable section

namespace Cert.KernGlue

open Cert.KernelIdeal Cert.KernelIdeal.Gen Idealize.ShloMosaic Idealize.ShloMosaic.ValueIdx

/-! ## A rank-1 array reshaped to one row -/

/-- Entry (0, q) of a length-n array reshaped to 1 × n is its entry q. -/
theorem row_cast {α : Type} {n : Nat} (b : (⟨1, ![n]⟩ : Shape).Idx → α) (h : (⟨1, ![n]⟩ : Shape).ShapeCasts ⟨2, ![1, n]⟩) :
    shapeCast ⟨2, ![1, n]⟩ b h = fun j => b (ix1 (j 1)) := by
  funext j
  refine shapeCast_apply b h j (ix1 (j 1)) ?_
  rw [Shape.rowMajor_val_one, Shape.rowMajor_val_two]
  have h0 : (j 0).val < 1 := (j 0).isLt
  have h00 : (j 0).val = 0 := by omega
  rw [h00, Nat.zero_mul, Nat.zero_add]
  rfl

/-! ## The kernel program's host values, launch outputs as the specification -/

/-- X · W1, narrowed. -/
abbrev kxw1 (X : FVec Ideal S16384x128 .f32) (W1 : FVec Ideal S128x64 .f32) : FVec Ideal S16384x64 .bf16 :=
  truncf .bf16 (Host.dotGeneral dot_S16384x128_S128x64_S16384x64_1_0_0_1_n_n none X W1) bitsLt_bf16_f32

/-- A layer's bias as a row. -/
abbrev krow64 (b : FVec Ideal S64 .f32) : FVec Ideal S1x64 .f32 := shapeCast S1x64 b shapeCasts_S64_S1x64

/-- The first launch's output: the first layer. -/
abbrev kh1 (X : FVec Ideal S16384x128 .f32) (A : FVec Ideal S16384x16384 .f32) (W1 : FVec Ideal S128x64 .f32) (b1 : FVec Ideal S64 .f32) :
    FVec Ideal S16384x64 .f32 :=
  Cert.Spec.gcn A (kxw1 X W1) (krow64 b1)

/-- h1 · W2, narrowed. -/
abbrev kxw2 (X : FVec Ideal S16384x128 .f32) (A : FVec Ideal S16384x16384 .f32) (W1 : FVec Ideal S128x64 .f32) (b1 : FVec Ideal S64 .f32)
    (W2 : FVec Ideal S64x64 .f32) : FVec Ideal S16384x64 .bf16 :=
  truncf .bf16 (Host.dotGeneral dot_S16384x64_S64x64_S16384x64_1_0_0_1_n_n none (kh1 X A W1 b1) W2) bitsLt_bf16_f32

/-- The second launch's output: the second layer, the hidden node array. -/
abbrev kh2 (X : FVec Ideal S16384x128 .f32) (A : FVec Ideal S16384x16384 .f32) (W1 : FVec Ideal S128x64 .f32) (b1 : FVec Ideal S64 .f32)
    (W2 : FVec Ideal S64x64 .f32) (b2 : FVec Ideal S64 .f32) : FVec Ideal S16384x64 .bf16 :=
  Cert.Spec.gcn A (kxw2 X A W1 b1 W2) (krow64 b2)

/-- Column 0 of the edge list, flat. -/
abbrev kcol0 (E : IVec S524288x2 32) : IVec S524288 32 :=
  shapeCast S524288 (extractStridedSlice S524288x1 ![0, 0] E slices_S524288x2_S524288x1_0_0) shapeCasts_S524288x1_S524288

/-- Column 1 of the edge list, flat. -/
abbrev kcol1 (E : IVec S524288x2 32) : IVec S524288 32 :=
  shapeCast S524288 (extractStridedSlice S524288x1 ![0, 1] E slices_S524288x2_S524288x1_0_1) shapeCasts_S524288x1_S524288

/-- The first endpoint's row numbers: a negative number counts from the end. -/
abbrev kidx0 (E : IVec S524288x2 32) : IVec S524288x1 32 :=
  broadcastInDim S524288x1 ![0] bcast_S524288_S524288x1_0
    (select (cmpi .slt (kcol0 E) (broadcastInDim S524288 ![] bcast_S_S524288 (constantI S_ 32 0#32)))
      (addi (kcol0 E) (broadcastInDim S524288 ![] bcast_S_S524288 (constantI S_ 32 16384#32))) (kcol0 E))

/-- The second endpoint's row numbers. -/
abbrev kidx1 (E : IVec S524288x2 32) : IVec S524288x1 32 :=
  broadcastInDim S524288x1 ![0] bcast_S524288_S524288x1_0
    (select (cmpi .slt (kcol1 E) (broadcastInDim S524288 ![] bcast_S_S524288 (constantI S_ 32 0#32)))
      (addi (kcol1 E) (broadcastInDim S524288 ![] bcast_S_S524288 (constantI S_ 32 16384#32))) (kcol1 E))

/-- The edge array: the hidden rows at the two endpoints, joined along the feature axis. -/
abbrev kes (h : FVec Ideal S16384x64 .bf16) (E : IVec S524288x2 32) : FVec Ideal S524288x128 .bf16 :=
  concatenate S524288x128 1
    [⟨S524288x64, Host.gather gather_S16384x64_S524288x1_S524288x64_1_0_n_n_0_1_164 h (kidx0 E)⟩,
     ⟨S524288x64, Host.gather gather_S16384x64_S524288x1_S524288x64_1_0_n_n_0_1_164 h (kidx1 E)⟩]
    concatenates_S524288x64_S524288x64_S524288x128_d1

/-- The dense bias as a row. -/
abbrev kbd (bd : FVec Ideal S256 .f32) : FVec Ideal S1x256 .f32 := shapeCast S1x256 bd shapeCasts_S256_S1x256

/-- The output bias as a row. -/
abbrev kbo (bo : FVec Ideal S2 .f32) : FVec Ideal S1x2 .f32 := shapeCast S1x2 bo shapeCasts_S2_S1x2

/-- The mask converted and broadcast to both columns. -/
abbrev kmask (mask : IVec S524288x1 32) : FVec Ideal S524288x2 .f32 :=
  broadcastInDim S524288x2 ![0, 1] bcast_S524288x1_S524288x2_0_1 (sitofp .f32 mask)

/-- The third launch's output: the edge classifier. -/
abbrev kout (X : FVec Ideal S16384x128 .f32) (A : FVec Ideal S16384x16384 .f32) (E : IVec S524288x2 32)
    (W1 : FVec Ideal S128x64 .f32) (b1 : FVec Ideal S64 .f32) (W2 : FVec Ideal S64x64 .f32) (b2 : FVec Ideal S64 .f32)
    (Wd : FVec Ideal S128x256 .f32) (bd : FVec Ideal S256 .f32) (Wo : FVec Ideal S256x2 .f32) (bo : FVec Ideal S2 .f32) :
    FVec Ideal S524288x2 .f32 :=
  Cert.Spec.mlp (kes (kh2 X A W1 b1 W2 b2) E) Wd (kbd bd) Wo (kbo bo)

/-- The kernel program's result as a function of its arguments. -/
def kernValue (X : FVec Ideal S16384x128 .f32) (A : FVec Ideal S16384x16384 .f32) (E : IVec S524288x2 32) (mask : IVec S524288x1 32)
    (W1 : FVec Ideal S128x64 .f32) (b1 : FVec Ideal S64 .f32) (W2 : FVec Ideal S64x64 .f32) (b2 : FVec Ideal S64 .f32)
    (Wd : FVec Ideal S128x256 .f32) (bd : FVec Ideal S256 .f32) (Wo : FVec Ideal S256x2 .f32) (bo : FVec Ideal S2 .f32) :
    FVec Ideal S524288x2 .f32 :=
  mulf (kout X A E W1 b1 W2 b2 Wd bd Wo bo) (kmask mask)

/-! ## The pieces against the reference's -/

/-- Narrowing is the identity on extended reals, and the two programs' dimension records are the same. -/
theorem kxw1_eq (X : FVec Ideal S16384x128 .f32) (W1 : FVec Ideal S128x64 .f32) :
    kxw1 X W1 = Host.dotGeneral Cert.ReferenceIdeal.dot_S16384x128_S128x64_S16384x64_1_0_0_1_n_n none X W1 := rfl

/-- The bias row read at (0, q) is the bias at q. -/
theorem krow64_eq (b : FVec Ideal S64 .f32) : krow64 b = fun j => b (ix1 (j 1)) := row_cast b _

/-- The hidden node arrays agree. -/
theorem kh2_eq (X : FVec Ideal S16384x128 .f32) (A : FVec Ideal S16384x16384 .f32) (W1 : FVec Ideal S128x64 .f32) (b1 : FVec Ideal S64 .f32)
    (W2 : FVec Ideal S64x64 .f32) (b2 : FVec Ideal S64 .f32) :
    kh2 X A W1 b1 W2 b2 = Cert.RefSide.hidden2 X A W1 b1 W2 b2 := by
  show Cert.Spec.gcn A (truncf .bf16 (Host.dotGeneral dot_S16384x64_S64x64_S16384x64_1_0_0_1_n_n none
      (Cert.Spec.gcn A (kxw1 X W1) (krow64 b1)) W2) bitsLt_bf16_f32) (krow64 b2) = _
  rw [krow64_eq, krow64_eq, kxw1_eq]
  rfl

/-- The endpoints' row numbers agree. -/
theorem kidx0_eq (E : IVec S524288x2 32) : kidx0 E = Cert.RefSide.endpoint0 E := rfl
theorem kidx1_eq (E : IVec S524288x2 32) : kidx1 E = Cert.RefSide.endpoint1 E := rfl

/-- The edge arrays agree. -/
theorem kes_eq (h : FVec Ideal S16384x64 .bf16) (E : IVec S524288x2 32) : kes h E = Cert.RefSide.edgeState h E := rfl

theorem kbd_eq (bd : FVec Ideal S256 .f32) : kbd bd = fun j => bd (ix1 (j 1)) := row_cast bd _
theorem kbo_eq (bo : FVec Ideal S2 .f32) : kbo bo = fun j => bo (ix1 (j 1)) := row_cast bo _

/-- The kernel program's value is the reference's. -/
theorem kern_eq_ref (X : FVec Ideal S16384x128 .f32) (A : FVec Ideal S16384x16384 .f32) (E : IVec S524288x2 32) (mask : IVec S524288x1 32)
    (W1 : FVec Ideal S128x64 .f32) (b1 : FVec Ideal S64 .f32) (W2 : FVec Ideal S64x64 .f32) (b2 : FVec Ideal S64 .f32)
    (Wd : FVec Ideal S128x256 .f32) (bd : FVec Ideal S256 .f32) (Wo : FVec Ideal S256x2 .f32) (bo : FVec Ideal S2 .f32) :
    kernValue X A E mask W1 b1 W2 b2 Wd bd Wo bo = Cert.RefSide.refValue X A E mask W1 b1 W2 b2 Wd bd Wo bo := by
  show mulf (Cert.Spec.mlp (kes (kh2 X A W1 b1 W2 b2) E) Wd (kbd bd) Wo (kbo bo)) (kmask mask) = _
  rw [kh2_eq, kes_eq, kbd_eq, kbo_eq]

end Cert.KernGlue

end
-- ==== Proof.KValue.lean ====
/-
  The idealized kernel program's result as one function of its arguments: each stretch of host operations read as the
  operations' term of the buffers before it, each region's output array as the layer it computes of the region's input
  arrays, chained from the launch memory to the result buffer.
-/
import proofs.«142677_j5446018531553_2_alg».proof.Proof.FrFrame
import proofs.«142677_j5446018531553_2_alg».proof.Proof.ValGcn0
import proofs.«142677_j5446018531553_2_alg».proof.Proof.ValGcn1
import proofs.«142677_j5446018531553_2_alg».proof.Proof.ValMlp
import proofs.«142677_j5446018531553_2_alg».proof.Proof.KernGlue

set_option maxRecDepth 16384

noncomputable section

namespace Cert.KernelIdeal.Val

open Idealize.ShloMosaic Idealize.ShloMosaic.TcCoe Idealize.SL.Sem
open Cert.KernelIdeal Cert.KernelIdeal.Gen Cert.KernelIdeal.Fr Cert.KernGlue

variable (m : (ℓ : Loc nD τ sig) → Buf (Elt Ideal) ℓ) (ρ : Dev nD → PrngReg)

/-- After the first stretch: the first layer's right factor, X · W1. -/
theorem v1_eq (c : Dev nD) : W1 m ρ c (Proc.devRef .tc main_v1) = kxw1 (m ((c.tc : Thread nD τ).loc main_arg0)) (m ((c.tc : Thread nD τ).loc main_arg4)) := by
  show StableHlo.after hostOps0 (W0 m ρ c) (Proc.devRef .tc main_v1) = _
  after_results <;> rfl
/-- and the first bias as a row. -/
theorem v2_eq (c : Dev nD) : W1 m ρ c (Proc.devRef .tc main_v2) = krow64 (m ((c.tc : Thread nD τ).loc main_arg5)) := by
  show StableHlo.after hostOps0 (W0 m ρ c) (Proc.devRef .tc main_v2) = _
  after_results <;> rfl
/-- Region 0 leaves the first layer. -/
theorem v3_eq (c : Dev nD) : W2 m ρ c (Proc.devRef .tc main_v3) = kh1 (m ((c.tc : Thread nD τ).loc main_arg0)) (m ((c.tc : Thread nD τ).loc main_arg1)) (m ((c.tc : Thread nD τ).loc main_arg4)) (m ((c.tc : Thread nD τ).loc main_arg5)) := by
  refine (W2_arr m ρ c 3).trans ?_
  rw [Val.final0 (V1 m ρ) c]
  show Cert.Spec.gcn (W1 m ρ c (Proc.devRef .tc main_arg1)) (W1 m ρ c (Proc.devRef .tc main_v1)) (W1 m ρ c (Proc.devRef .tc main_v2)) = _
  rw [W1_arg m ρ c main_arg1 (by decide), v1_eq, v2_eq]
/-- After the second stretch: the second layer's right factor, and the second bias as a row. -/
theorem v5_eq (c : Dev nD) : W3 m ρ c (Proc.devRef .tc main_v5) = kxw2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  show StableHlo.after hostOps1 (W2 m ρ c) (Proc.devRef .tc main_v5) = _
  after_results
  rw [v3_eq, W2_arg m ρ c main_arg6 (by decide) (by decide)]
theorem v6_eq (c : Dev nD) : W3 m ρ c (Proc.devRef .tc main_v6) = krow64 (m ((c.tc : Thread nD τ).loc main_arg7)) := by
  show StableHlo.after hostOps1 (W2 m ρ c) (Proc.devRef .tc main_v6) = _
  after_results
  rw [W2_arg m ρ c main_arg7 (by decide) (by decide)]; rfl
/-- Region 1 leaves the second layer. -/
theorem v7_eq (c : Dev nD) : W4 m ρ c (Proc.devRef .tc main_v7) = kh2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) := by
  refine (W4_arr m ρ c 3).trans ?_
  rw [Val.final1 (V3 m ρ) c]
  show Cert.Spec.gcn (W3 m ρ c (Proc.devRef .tc main_arg1)) (W3 m ρ c (Proc.devRef .tc main_v5)) (W3 m ρ c (Proc.devRef .tc main_v6)) = _
  rw [W3_arg m ρ c main_arg1 (by decide) (by decide) (by decide), v5_eq, v6_eq]
set_option maxHeartbeats 40000000 in
/-- After the third stretch: the edges' endpoint rows of the second layer, side by side, -/
theorem v26_eq (c : Dev nD) : W5 m ρ c (Proc.devRef .tc main_v26) = kes (kh2 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7))) (m ((c.tc : Thread nD τ).loc main_arg2)) := by
  show StableHlo.after hostOps2 (W4 m ρ c) (Proc.devRef .tc main_v26) = _
  after_results
  rw [v7_eq, W4_arg m ρ c main_arg2 (by decide) (by decide) (by decide) (by decide)]
  rfl
set_option maxHeartbeats 40000000 in
/-- and the classifier's two biases as rows. -/
theorem v27_eq (c : Dev nD) : W5 m ρ c (Proc.devRef .tc main_v27) = kbd (m ((c.tc : Thread nD τ).loc main_arg9)) := by
  show StableHlo.after hostOps2 (W4 m ρ c) (Proc.devRef .tc main_v27) = _
  after_results
  rw [W4_arg m ρ c main_arg9 (by decide) (by decide) (by decide) (by decide)]; rfl
set_option maxHeartbeats 40000000 in
theorem v28_eq (c : Dev nD) : W5 m ρ c (Proc.devRef .tc main_v28) = kbo (m ((c.tc : Thread nD τ).loc main_arg11)) := by
  show StableHlo.after hostOps2 (W4 m ρ c) (Proc.devRef .tc main_v28) = _
  after_results
  rw [W4_arg m ρ c main_arg11 (by decide) (by decide) (by decide) (by decide)]; rfl
/-- Region 2 leaves the classifier's output. -/
theorem v29_eq (c : Dev nD) : W6 m ρ c (Proc.devRef .tc main_v29) = kout (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W6_arr m ρ c 5).trans ?_
  rw [Val.final2 (V5 m ρ) c]
  show Cert.Spec.mlp (W5 m ρ c (Proc.devRef .tc main_v26)) (W5 m ρ c (Proc.devRef .tc main_arg8)) (W5 m ρ c (Proc.devRef .tc main_v27)) (W5 m ρ c (Proc.devRef .tc main_arg10)) (W5 m ρ c (Proc.devRef .tc main_v28)) = _
  rw [v26_eq, v27_eq, v28_eq, W5_arg m ρ c main_arg8 (by decide) (by decide) (by decide) (by decide) (by decide), W5_arg m ρ c main_arg10 (by decide) (by decide) (by decide) (by decide) (by decide)]
/-- THE RESULT: the last stretch multiplies by the mask. -/
theorem result_eq (c : Dev nD) : W7 m ρ c (Proc.devRef .tc main_v32) = kernValue (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show StableHlo.after hostOps3 (W6 m ρ c) (Proc.devRef .tc main_v32) = _
  after_results
  rw [v29_eq, W6_arg m ρ c main_arg3 (by decide) (by decide) (by decide) (by decide) (by decide) (by decide)]
  rfl

end Cert.KernelIdeal.Val

end
-- ==== Proof.lean ====
/-
  A two-layer graph convolution followed by an edge classifier, computed by three tiled kernels, against the same
  network written with whole-array operations.

  Each graph-convolution layer is  logistic (A · XW + b) : the kernel walks the 16 × 8 grid of (row block, reduction
  block) pairs, resets a 1024 × 64 accumulator where the reduction coordinate is 0, adds the product of a 1024 × 2048
  block of A with a 2048 × 64 block of XW at every point, and at the reduction coordinate 7 stores the logistic of the
  accumulator plus the bias row. On the extended reals the accumulator after the last reduction block is the sum over
  all 16384 columns — a sum regrouped into eight blocks, which needs only that addition is commutative and associative,
  so the precondition is never opened — and the logistic of a value is by definition 1 / (1 + exp (−x)), which is how the
  reference spells it. A change of float format is the identity on the extended reals, so the kernel's 16-bit
  intermediates are the reference's 32-bit ones. The edge classifier reads only its own row: a hidden row
  max (x · Wd + bd) 0, two logits, their maximum from −∞, and the exponentials of the shifted logits over their sum —
  row by row the same expression in both programs. Between the layers both programs apply the same host operations
  (the products X · W1 and H · W2, the two endpoint gathers and their concatenation, the mask).

  The frames: each kernel region is run point by point (the body's run at each of its three steps, the accumulator's
  contents after each point by recursion on the point), the program as a chain of host stretches and regions with every
  unscoped buffer's contents named at each boundary; no stretch writes an argument and no region outputs one.
-/
import proofs.«142677_j5446018531553_2_alg».proof.Defs
import proofs.«142677_j5446018531553_2_alg».proof.Proof.Gen.Kernel
import proofs.«142677_j5446018531553_2_alg».proof.Proof.Gen.KernelIdeal
import proofs.«142677_j5446018531553_2_alg».proof.Proof.Gen.ReferenceIdeal
import proofs.«142677_j5446018531553_2_alg».proof.Proof.Gen.Pre_finite_inputs
import proofs.«142677_j5446018531553_2_alg».proof.Proof.KrFrame
import proofs.«142677_j5446018531553_2_alg».proof.Proof.FrFrame
import proofs.«142677_j5446018531553_2_alg».proof.Proof.KValue
import proofs.«142677_j5446018531553_2_alg».proof.Proof.RefSide
import proofs.«142677_j5446018531553_2_alg».proof.Proof.KernGlue
import Idealize.ShloMosaic.Adequacy
import Idealize.ShloMosaic.Init

noncomputable section

namespace Cert.Proof

open Idealize.ShloMosaic Idealize.SL.Sem

/-- At the ideal values both programs end with the same result: the kernel program's, chained through its three regions,
    is the composition of the two layers, the gathers and the classifier; the reference's generated run is the same
    composition; the arguments agree. -/
theorem algebraic : Cert.algebraic_KernelIdeal_ReferenceIdeal := by
  intro m ρ m' ρ' _ hagree
  refine ⟨fun c => Cert.KernGlue.kernValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Val.result_eq m ρ c), (h c).2⟩)
      (Cert.KernelIdeal.Fr.run_val (F := Ideal) m ρ)
  · refine (θ_run Cert.ReferenceIdeal.defs _ _).mono (fun _ h c => ⟨(h c).1.trans ?_, (h c).2⟩)
      (Cert.ReferenceIdeal.Value.run (F := Ideal) m' ρ')
    refine (Cert.RefSide.ref_result m' c).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact (Cert.KernGlue.kern_eq_ref _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  fun m ρ _ => Cert.Kernel.Fr.frame m ρ,
  fun m ρ _ => Cert.KernelIdeal.Fr.frame m ρ,
  fun m ρ _ => (θ_run Cert.ReferenceIdeal.defs _ _).mono (fun _ h c => (h c).2) (Cert.ReferenceIdeal.Value.run (F := Ideal) m ρ),
  trivial,
  algebraic⟩

end Cert.Proof

end
